-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v92) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S128x2 : Shape := ⟨2, ![128, 2]⟩
abbrev S2 : Shape := ⟨1, ![2]⟩
abbrev S128x1 : Shape := ⟨2, ![128, 1]⟩
abbrev S1 : Shape := ⟨1, ![1]⟩
abbrev S263x128 : Shape := ⟨2, ![263, 128]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x4 : S_.BroadcastsInDim S128x4 (![] : Fin 0 → Fin S128x4.rank)
  reducesTo_S128x4_S_d0_1 : S128x4.ReducesTo [0, 1] S_
  bcast_S_S4 : S_.BroadcastsInDim S4 (![] : Fin 0 → Fin S4.rank)
  reducesTo_S4_S_d0 : S4.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S263x128 : S_.BroadcastsInDim S263x128 (![] : Fin 0 → Fin S263x128.rank)
  reducesTo_S263x128_S_d0_1 : S263x128.ReducesTo [0, 1] S_

variable [Facts]

def fn_part6 {F : FTy → Type} [FloatOps F] (main_arg21 : FVec F S128x1 .f32) (main_arg22 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128x1 .f32 := Host.absf main_arg21
  let main_cst_40 : FVec F S_ .f32 := constant S_ .f32 0x7F800000#32
  let main_v105 : FVec F S128x1 .f32 := broadcastInDim S128x1 ![] bcast_S_S128x1 main_cst_40
  let main_v106 : IVec S128x1 1 := cmpf .olt main_v104 main_v105
  let main_c_41 : IVec S_ 1 := constantI S_ 1 1#1
  let main_v107 : IVec S_ 1 := (fun x v => Host.reduce IntOp.andi x v reducesTo_S128x1_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S1 .f32) (main_arg19 : FVec F S263x128 .f32) (main_arg20 : FVec F S128 .f32) (main_arg21 : FVec F S128x1 .f32) (main_arg22 : FVec F S1 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S263x128 .f32 := Host.absf main_arg19
  let main_cst_36 : FVec F S_ .f32 := constant S_ .f32 0x7F800000#32
  let main_v95 : FVec F S263x128 .f32 := broadcastInDim S263x128 ![] bcast_S_S263x128 main_cst_36
  let main_v96 : IVec S263x128 1 := cmpf .olt main_v94 main_v95
  let main_c_37 : IVec S_ 1 := constantI S_ 1 1#1
  let main_v97 : IVec S_ 1 := (fun x v => Host.reduce IntOp.andi x v reducesTo_S263x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) (main_v63 : IVec S_ 1) (main_v67 : IVec S_ 1) : IVec S_ 1 :=
  let main_v68 : IVec S_ 1 := andi main_v63 main_v67
  let main_v69 : FVec F S2 .f32 := Host.absf main_arg14
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S256x128 .f32) (main_arg12 : FVec F S128 .f32) (main_arg13 : FVec F S128x2 .f32) (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x2 .f32 := Host.absf main_arg13
  let main_cst_24 : FVec F S_ .f32 := constant S_ .f32 0x7F800000#32
  let main_v65 : FVec F S128x2 .f32 := broadcastInDim S128x2 ![] bcast_S_S128x2 main_cst_24
  let main_v66 : IVec S128x2 1 := cmpf .olt main_v64 main_v65
  let main_c_25 : IVec S_ 1 := constantI S_ 1 1#1
  let main_v67 : IVec S_ 1 := (fun x v => Host.reduce IntOp.andi x v reducesTo_S128x2_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256x128 .f32) (main_arg8 : FVec F S128 .f32) (main_arg9 : FVec F S128x4 .f32) (main_arg10 : FVec F S4 .f32) (main_arg11 : FVec F S256x128 .f32) (main_arg12 : FVec F S128 .f32) (main_arg13 : FVec F S128x2 .f32) (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x4 .f32 := Host.absf main_arg9
  let main_cst_16 : FVec F S_ .f32 := constant S_ .f32 0x7F800000#32
  let main_v45 : FVec F S128x4 .f32 := broadcastInDim S128x4 ![] bcast_S_S128x4 main_cst_16
  let main_v46 : IVec S128x4 1 := cmpf .olt main_v44 main_v45
  let main_c_17 : IVec S_ 1 := constantI S_ 1 1#1
  let main_v47 : IVec S_ 1 := (fun x v => Host.reduce IntOp.andi x v reducesTo_S128x4_S_d0_1 h_S_) main_v46 main_c_17
  let main_v48 : IVec S_ 1 := andi main_v43 main_v47
  let main_v49 : FVec F S4 .f32 := Host.absf main_arg10
  let main_cst_18 : FVec F S_ .f32 := constant S_ .f32 0x7F800000#32
  let main_v50 : FVec F S4 .f32 := broadcastInDim S4 ![] bcast_S_S4 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256 .f32) (main_arg5 : FVec F S256x256 .f32) (main_arg6 : FVec F S256 .f32) (main_arg7 : FVec F S256x128 .f32) (main_arg8 : FVec F S128 .f32) (main_arg9 : FVec F S128x4 .f32) (main_arg10 : FVec F S4 .f32) (main_arg11 : FVec F S256x128 .f32) (main_arg12 : FVec F S128 .f32) (main_arg13 : FVec F S128x2 .f32) (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S20000x512 .f32) (main_arg1 : FVec F S512x256 .f32) (main_arg2 : FVec F S256 .f32) (main_arg3 : FVec F S256 .f32) (main_arg4 : FVec F S256 .f32) (main_arg5 : FVec F S256x256 .f32) (main_arg6 : FVec F S256 .f32) (main_arg7 : FVec F S256x128 .f32) (main_arg8 : FVec F S128 .f32) (main_arg9 : FVec F S128x4 .f32) (main_arg10 : FVec F S4 .f32) (main_arg11 : FVec F S256x128 .f32) (main_arg12 : FVec F S128 .f32) (main_arg13 : FVec F S128x2 .f32) (main_arg14 : FVec F S2 .f32) (main_arg15 : FVec F S256x128 .f32) (main_arg16 : FVec F S128 .f32) (main_arg17 : FVec F S128x1 .f32) (main_arg18 : FVec F S1 .f32) (main_arg19 : FVec F S263x128 .f32) (main_arg20 : FVec F S128 .f32) (main_arg21 : FVec F S128x1 .f32) (main_arg22 : FVec F S1 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S20000x512 : Shape := ⟨2, ![20000, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S128x2 : Shape := ⟨2, ![128, 2]⟩
abbrev S2 : Shape := ⟨1, ![2]⟩
abbrev S128x1 : Shape := ⟨2, ![128, 1]⟩
abbrev S1 : Shape := ⟨1, ![1]⟩
abbrev S263x128 : Shape := ⟨2, ![263, 128]⟩
abbrev S1x256 : Shape := ⟨2, ![1, 256]⟩
abbrev S1x128 : Shape := ⟨2, ![1, 128]⟩
abbrev S1x4 : Shape := ⟨2, ![1, 4]⟩
abbrev S1x2 : Shape := ⟨2, ![1, 2]⟩
abbrev S1x1 : Shape := ⟨2, ![1, 1]⟩
abbrev S20000x4 : Shape := ⟨2, ![20000, 4]⟩
abbrev S20000x2 : Shape := ⟨2, ![20000, 2]⟩
abbrev S20000x1 : Shape := ⟨2, ![20000, 1]⟩
abbrev S4000x512 : Shape := ⟨2, ![4000, 512]⟩
abbrev S4000x4 : Shape := ⟨2, ![4000, 4]⟩
abbrev S4000x2 : Shape := ⟨2, ![4000, 2]⟩
abbrev S4000x1 : Shape := ⟨2, ![4000, 1]⟩
abbrev S2000x512 : Shape := ⟨2, ![2000, 512]⟩
abbrev S2000x256 : Shape := ⟨2, ![2000, 256]⟩
abbrev S2000 : Shape := ⟨1, ![2000]⟩
abbrev S2000x1 : Shape := ⟨2, ![2000, 1]⟩
abbrev S2000x128 : Shape := ⟨2, ![2000, 128]⟩
abbrev S2000x4 : Shape := ⟨2, ![2000, 4]⟩
abbrev S2000x2 : Shape := ⟨2, ![2000, 2]⟩
abbrev S2000x7 : Shape := ⟨2, ![2000, 7]⟩
abbrev S7x128 : Shape := ⟨2, ![7, 128]⟩

abbrev nBuf : Space → Nat
  | .hbm => 39
  | .vmem => 32
  | .smem => 0
  | _ => 0

abbrev bufTy : (tb : Table) → Fin (tcTables nBuf tb) → BufTy
  | .hbm, ⟨0, _⟩ => ⟨S20000x512, .f32⟩
  | .hbm, ⟨1, _⟩ => ⟨S512x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S128x4, .f32⟩
  | .hbm, ⟨10, _⟩ => ⟨S4, .f32⟩
  | .hbm, ⟨11, _⟩ => ⟨S256x128, .f32⟩
  | .hbm, ⟨12, _⟩ => ⟨S128, .f32⟩
  | .hbm, ⟨13, _⟩ => ⟨S128x2, .f32⟩
  | .hbm, ⟨14, _⟩ => ⟨S2, .f32⟩
  | .hbm, ⟨15, _⟩ => ⟨S256x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S263x128, .f32⟩
  | .hbm, ⟨20, _⟩ => ⟨S128, .f32⟩
  | .hbm, ⟨21, _⟩ => ⟨S128x1, .f32⟩
  | .hbm, ⟨22, _⟩ => ⟨S1, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x256, .f32⟩
  | .hbm, ⟨27, _⟩ => ⟨S1x128, .f32⟩
  | .hbm, ⟨28, _⟩ => ⟨S1x4, .f32⟩
  | .hbm, ⟨29, _⟩ => ⟨S1x128, .f32⟩
  | .hbm, ⟨30, _⟩ => ⟨S1x2, .f32⟩
  | .hbm, ⟨31, _⟩ => ⟨S1x128, .f32⟩
  | .hbm, ⟨32, _⟩ => ⟨S1x1, .f32⟩
  | .hbm, ⟨33, _⟩ => ⟨S1x128, .f32⟩
  | .hbm, ⟨34, _⟩ => ⟨S1x1, .f32⟩
  | .hbm, ⟨35, _⟩ => ⟨S20000x4, .f32⟩
  | .hbm, ⟨36, _⟩ => ⟨S20000x2, .f32⟩
  | .hbm, ⟨37, _⟩ => ⟨S20000x1, .f32⟩
  | .hbm, ⟨38, _⟩ => ⟨S20000x1, .f32⟩
  | .local _ .vmem, ⟨0, _⟩ => ⟨S4000x512, .f32⟩
  | .local _ .vmem, ⟨1, _⟩ => ⟨S4000x512, .f32⟩
  | .local _ .vmem, ⟨2, _⟩ => ⟨S512x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S128x4, .f32⟩
  | .local _ .vmem, ⟨11, _⟩ => ⟨S1x4, .f32⟩
  | .local _ .vmem, ⟨12, _⟩ => ⟨S256x128, .f32⟩
  | .local _ .vmem, ⟨13, _⟩ => ⟨S1x128, .f32⟩
  | .local _ .vmem, ⟨14, _⟩ => ⟨S128x2, .f32⟩
  | .local _ .vmem, ⟨15, _⟩ => ⟨S1x2, .f32⟩
  | .local _ .vmem, ⟨16, _⟩ => ⟨S256x128, .f32⟩
  | .local _ .vmem, ⟨17, _⟩ => ⟨S1x128, .f32⟩
  | .local _ .vmem, ⟨18, _⟩ => ⟨S128x1, .f32⟩
  | .local _ .vmem, ⟨19, _⟩ => ⟨S1x1, .f32⟩
  | .local _ .vmem, ⟨20, _⟩ => ⟨S263x128, .f32⟩
  | .local _ .vmem, ⟨21, _⟩ => ⟨S1x128, .f32⟩
  | .local _ .vmem, ⟨22, _⟩ => ⟨S128x1, .f32⟩
  | .local _ .vmem, ⟨23, _⟩ => ⟨S1x1, .f32⟩
  | .local _ .vmem, ⟨24, _⟩ => ⟨S4000x4, .f32⟩
  | .local _ .vmem, ⟨25, _⟩ => ⟨S4000x4, .f32⟩
  | .local _ .vmem, ⟨26, _⟩ => ⟨S4000x2, .f32⟩
  | .local _ .vmem, ⟨27, _⟩ => ⟨S4000x2, .f32⟩
  | .local _ .vmem, ⟨28, _⟩ => ⟨S4000x1, .f32⟩
  | .local _ .vmem, ⟨29, _⟩ => ⟨S4000x1, .f32⟩
  | .local _ .vmem, ⟨30, _⟩ => ⟨S4000x1, .f32⟩
  | .local _ .vmem, ⟨31, _⟩ => ⟨S4000x1, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v0_0 : Ref sig .tc := ⟨.hbm, 35, rfl⟩
abbrev main_v0_1 : Ref sig .tc := ⟨.hbm, 36, rfl⟩
abbrev main_v0_2 : Ref sig .tc := ⟨.hbm, 37, rfl⟩
abbrev main_v0_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_stg24_0 : Ref sig .tc := ⟨.vmem, 26, rfl⟩
abbrev cc0_stg24_1 : Ref sig .tc := ⟨.vmem, 27, rfl⟩
abbrev cc0_stg25_0 : Ref sig .tc := ⟨.vmem, 28, rfl⟩
abbrev cc0_stg25_1 : Ref sig .tc := ⟨.vmem, 29, rfl⟩
abbrev cc0_stg26_0 : Ref sig .tc := ⟨.vmem, 30, rfl⟩
abbrev cc0_stg26_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25
abbrev cc0_sem24_0 : DmaSem sig := 26
abbrev cc0_sem24_1 : DmaSem sig := 27
abbrev cc0_sem25_0 : DmaSem sig := 28
abbrev cc0_sem25_1 : DmaSem sig := 29
abbrev cc0_sem26_0 : DmaSem sig := 30
abbrev cc0_sem26_1 : DmaSem sig := 31

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S263x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S4000x4 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S4000x2 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S4000x1 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S4000x1 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  bcast_S256_S1x256_1 : S256.BroadcastsInDim S1x256 (![1] : Fin 1 → Fin S1x256.rank)
  bcast_S128_S1x128_1 : S128.BroadcastsInDim S1x128 (![1] : Fin 1 → Fin S1x128.rank)
  bcast_S4_S1x4_1 : S4.BroadcastsInDim S1x4 (![1] : Fin 1 → Fin S1x4.rank)
  bcast_S2_S1x2_1 : S2.BroadcastsInDim S1x2 (![1] : Fin 1 → Fin S1x2.rank)
  bcast_S1_S1x1_1 : S1.BroadcastsInDim S1x1 (![1] : Fin 1 → Fin S1x1.rank)
  inb_S4000x512_S2000x512_0_0 : ∀ a, (![0, 0] : Fin 2 → Nat) a + S2000x512.size a ≤ S4000x512.size a
  h_S2000x512 : 0 < S2000x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x4_S128x4_0_0 : ∀ a, (![0, 0] : Fin 2 → Nat) a + S128x4.size a ≤ S128x4.size a
  h_S128x4 : 0 < S128x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  concatenates_S2000x4_S2000x2_S2000x1_S2000x7_d1 : Shape.Concatenates [S2000x4, S2000x2, S2000x1] S2000x7 1
  inb_S263x128_S256x128_0_0 : ∀ a, (![0, 0] : Fin 2 → Nat) a + S256x128.size a ≤ S263x128.size a
  inb_S263x128_S7x128_256_0 : ∀ a, (![256, 0] : Fin 2 → Nat) a + S7x128.size a ≤ S263x128.size a
  h_S7x128 : 0 < S7x128.numel
  inb_S4000x4_S2000x4_0_0 : ∀ a, (![0, 0] : Fin 2 → Nat) a + S2000x4.size a ≤ S4000x4.size a
  h_S2000x4 : 0 < S2000x4.numel
  inb_S4000x2_S2000x2_0_0 : ∀ a, (![0, 0] : Fin 2 → Nat) a + S2000x2.size a ≤ S4000x2.size a
  h_S2000x2 : 0 < S2000x2.numel
  inb_S4000x1_S2000x1_0_0 : ∀ a, (![0, 0] : Fin 2 → Nat) a + S2000x1.size a ≤ S4000x1.size a
  h_S2000x1 : 0 < S2000x1.numel
  inb_S4000x512_S2000x512_2000_0 : ∀ a, (![2000, 0] : Fin 2 → Nat) a + S2000x512.size a ≤ S4000x512.size a
  inb_S4000x4_S2000x4_2000_0 : ∀ a, (![2000, 0] : Fin 2 → Nat) a + S2000x4.size a ≤ S4000x4.size a
  inb_S4000x2_S2000x2_2000_0 : ∀ a, (![2000, 0] : Fin 2 → Nat) a + S2000x2.size a ≤ S4000x2.size a
  inb_S4000x1_S2000x1_2000_0 : ∀ a, (![2000, 0] : Fin 2 → Nat) a + S2000x1.size a ≤ S4000x1.size a
  dot_S2000x512_S512x256_S2000x256_1_0_0_1_n_n_wf : DotDims.WF S2000x512 S512x256 S2000x256 [1] [0] [0] [1] [] []
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  dot_S2000x128_S128x4_S2000x4_1_0_0_1_n_n_wf : DotDims.WF S2000x128 S128x4 S2000x4 [1] [0] [0] [1] [] []
  dot_S2000x128_S128x2_S2000x2_1_0_0_1_n_n_wf : DotDims.WF S2000x128 S128x2 S2000x2 [1] [0] [0] [1] [] []
  dot_S2000x128_S128x1_S2000x1_1_0_0_1_n_n_wf : DotDims.WF S2000x128 S128x1 S2000x1 [1] [0] [0] [1] [] []
  dot_S2000x7_S7x128_S2000x128_1_0_0_1_n_n_wf : DotDims.WF S2000x7 S7x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S20000x512.size a
  hwx0_0 : ∀ i : grid0.Coords, EltTy.bits .f32 = 32 ∨ (Rect.block (s := S20000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .f32 = 32 ∨ (Rect.block (s := S256x128) S256x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x4.size a ≤ S128x4.size a
  hwx0_9 : ∀ i : grid0.Coords, EltTy.bits .f32 = 32 ∨ (Rect.block (s := S128x4) S128x4.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4.size a ≤ S1x4.size a
  hwx0_10 : ∀ i : grid0.Coords, EltTy.bits .f32 = 32 ∨ (Rect.block (s := S1x4) S1x4.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .f32 = 32 ∨ (Rect.block (s := S256x128) S256x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x2.size a ≤ S128x2.size a
  hwx0_13 : ∀ i : grid0.Coords, EltTy.bits .f32 = 32 ∨ (Rect.block (s := S128x2) S128x2.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x2.size a ≤ S1x2.size a
  hwx0_14 : ∀ i : grid0.Coords, EltTy.bits .f32 = 32 ∨ (Rect.block (s := S1x2) S1x2.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .f32 = 32 ∨ (Rect.block (s := S256x128) S256x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x1.size a ≤ S128x1.size a
  hwx0_17 : ∀ i : grid0.Coords, EltTy.bits .f32 = 32 ∨ (Rect.block (s := S128x1) S128x1.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S263x128.size a ≤ S263x128.size a
  hwx0_19 : ∀ i : grid0.Coords, EltTy.bits .f32 = 32 ∨ (Rect.block (s := S263x128) S263x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x1.size a ≤ S128x1.size a
  hwx0_21 : ∀ i : grid0.Coords, EltTy.bits .f32 = 32 ∨ (Rect.block (s := S128x1) S128x1.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S4000x4.size a ≤ S20000x4.size a
  hwx0_23 : ∀ i : grid0.Coords, EltTy.bits .f32 = 32 ∨ (Rect.block (s := S20000x4) S4000x4.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S4000x2.size a ≤ S20000x2.size a
  hwx0_24 : ∀ i : grid0.Coords, EltTy.bits .f32 = 32 ∨ (Rect.block (s := S20000x2) S4000x2.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S4000x1.size a ≤ S20000x1.size a
  hwx0_25 : ∀ i : grid0.Coords, EltTy.bits .f32 = 32 ∨ (Rect.block (s := S20000x1) S4000x1.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S4000x1.size a ≤ S20000x1.size a
  hwx0_26 : ∀ i : grid0.Coords, EltTy.bits .f32 = 32 ∨ (Rect.block (s := S20000x1) S4000x1.size (cc0_transform_26 i) (hinb0_26 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x4_S2000x4_1_0_0_1_n_n : DotDims S2000x128 S128x4 S2000x4 where
  lhsContracting := [1]
  rhsContracting := [0]
  lhsNonContracting := [0]
  rhsNonContracting := [1]
  lhsBatch := []
  rhsBatch := []
  wf := dot_S2000x128_S128x4_S2000x4_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def dot_S2000x7_S7x128_S2000x128_1_0_0_1_n_n : DotDims S2000x7 S7x128 S2000x128 where
  lhsContracting := [1]
  rhsContracting := [0]
  lhsNonContracting := [0]
  rhsNonContracting := [1]
  lhsBatch := []
  rhsBatch := []
  wf := dot_S2000x7_S7x128_S2000x128_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v5) S1x4.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v6) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x2.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_call0_v7) S1x2.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v8) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x1.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_call0_v9) S1x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S263x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_call0_v10) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S128x1.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_call0_v11) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v0_0) S4000x4.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v0_1) S4000x2.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v0_2) S4000x1.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v0_3) S4000x1.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S20000x512 : Shape := ⟨2, ![20000, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x4 : Shape := ⟨2, ![128, 4]⟩
abbrev S4 : Shape := ⟨1, ![4]⟩
abbrev S128x2 : Shape := ⟨2, ![128, 2]⟩
abbrev S2 : Shape := ⟨1, ![2]⟩
abbrev S128x1 : Shape := ⟨2, ![128, 1]⟩
abbrev S1 : Shape := ⟨1, ![1]⟩
abbrev S263x128 : Shape := ⟨2, ![263, 128]⟩
abbrev S20000x256 : Shape := ⟨2, ![20000, 256]⟩
abbrev S1x256 : Shape := ⟨2, ![1, 256]⟩
abbrev S_ : Shape := ⟨0, ![]⟩
abbrev S20000 : Shape := ⟨1, ![20000]⟩
abbrev S20000x1 : Shape := ⟨2, ![20000, 1]⟩
abbrev S20000x128 : Shape := ⟨2, ![20000, 128]⟩
abbrev S1x128 : Shape := ⟨2, ![1, 128]⟩
abbrev S20000x4 : Shape := ⟨2, ![20000, 4]⟩
abbrev S1x4 : Shape := ⟨2, ![1, 4]⟩
abbrev S20000x2 : Shape := ⟨2, ![20000, 2]⟩
abbrev S1x2 : Shape := ⟨2, ![1, 2]⟩
abbrev S1x1 : Shape := ⟨2, ![1, 1]⟩
abbrev S20000x7 : Shape := ⟨2, ![20000, 7]⟩
abbrev S20000x263 : Shape := ⟨2, ![20000, 263]⟩

abbrev nBuf : Space → Nat
  | .hbm => 162
  | .vmem => 0
  | .smem => 0
  | _ => 0

abbrev hbmTy0_0 (i : Nat) : BufTy := match i % 128 with
  | 0 => ⟨S20000x512, .f32⟩
  | 1 => ⟨S512x256, .f32⟩
  | 2 => ⟨S256, .f32⟩
  | 3 => ⟨S256, .f32⟩
  | 4 => ⟨S256, .f32⟩
  | 5 => ⟨S256x256, .f32⟩
  | 6 => ⟨S256, .f32⟩
  | 7 => ⟨S256x128, .f32⟩
  | 8 => ⟨S128, .f32⟩
  | 9 => ⟨S128x4, .f32⟩
  | 10 => ⟨S4, .f32⟩
  | 11 => ⟨S256x128, .f32⟩
  | 12 => ⟨S128, .f32⟩
  | 13 => ⟨S128x2, .f32⟩
  | 14 => ⟨S2, .f32⟩
  | 15 => ⟨S256x128, .f32⟩
  | 16 => ⟨S128, .f32⟩
  | 17 => ⟨S128x1, .f32⟩
  | 18 => ⟨S1, .f32⟩
  | 19 => ⟨S263x128, .f32⟩
  | 20 => ⟨S128, .f32⟩
  | 21 => ⟨S128x1, .f32⟩
  | 22 => ⟨S1, .f32⟩
  | 23 => ⟨S20000x256, .f32⟩
  | 24 => ⟨S1x256, .f32⟩
  | 25 => ⟨S20000x256, .f32⟩
  | 26 => ⟨S20000x256, .f32⟩
  | 27 => ⟨S_, .f32⟩
  | 28 => ⟨S20000, .f32⟩
  | 29 => ⟨S20000x1, .f32⟩
  | 30 => ⟨S_, .f32⟩
  | 31 => ⟨S20000x1, .f32⟩
  | 32 => ⟨S20000x1, .f32⟩
  | 33 => ⟨S_, .i32⟩
  | 34 => ⟨S_, .f32⟩
  | 35 => ⟨S20000, .f32⟩
  | 36 => ⟨S20000x1, .f32⟩
  | 37 => ⟨S_, .f32⟩
  | 38 => ⟨S20000x1, .f32⟩
  | 39 => ⟨S20000x1, .f32⟩
  | 40 => ⟨S20000x256, .f32⟩
  | 41 => ⟨S20000x256, .f32⟩
  | 42 => ⟨S20000x256, .f32⟩
  | 43 => ⟨S_, .f32⟩
  | 44 => ⟨S_, .f32⟩
  | 45 => ⟨S_, .f32⟩
  | 46 => ⟨S_, .f32⟩
  | 47 => ⟨S20000, .f32⟩
  | 48 => ⟨S20000x1, .f32⟩
  | 49 => ⟨S20000x1, .f32⟩
  | 50 => ⟨S20000x1, .f32⟩
  | 51 => ⟨S_, .f32⟩
  | 52 => ⟨S_, .i1⟩
  | 53 => ⟨S_, .f32⟩
  | 54 => ⟨S_, .f32⟩
  | 55 => ⟨S20000x1, .f32⟩
  | 56 => ⟨S20000x1, .f32⟩
  | 57 => ⟨S20000x256, .f32⟩
  | 58 => ⟨S20000x256, .f32⟩
  | 59 => ⟨S_, .f32⟩
  | 60 => ⟨S20000x1, .f32⟩
  | 61 => ⟨S20000x1, .f32⟩
  | 62 => ⟨S20000x1, .f32⟩
  | 63 => ⟨S20000x256, .f32⟩
  | 64 => ⟨S20000x256, .f32⟩
  | 65 => ⟨S1x256, .f32⟩
  | 66 => ⟨S20000x256, .f32⟩
  | 67 => ⟨S20000x256, .f32⟩
  | 68 => ⟨S1x256, .f32⟩
  | 69 => ⟨S20000x256, .f32⟩
  | 70 => ⟨S20000x256, .f32⟩
  | 71 => ⟨S_, .f32⟩
  | 72 => ⟨S20000x256, .f32⟩
  | 73 => ⟨S20000x256, .f32⟩
  | 74 => ⟨S20000x256, .f32⟩
  | 75 => ⟨S1x256, .f32⟩
  | 76 => ⟨S20000x256, .f32⟩
  | 77 => ⟨S20000x256, .f32⟩
  | 78 => ⟨S20000x128, .f32⟩
  | 79 => ⟨S1x128, .f32⟩
  | 80 => ⟨S20000x128, .f32⟩
  | 81 => ⟨S20000x128, .f32⟩
  | 82 => ⟨S_, .f32⟩
  | 83 => ⟨S20000x128, .f32⟩
  | 84 => ⟨S20000x128, .f32⟩
  | 85 => ⟨S20000x4, .f32⟩
  | 86 => ⟨S1x4, .f32⟩
  | 87 => ⟨S20000x4, .f32⟩
  | 88 => ⟨S20000x4, .f32⟩
  | 89 => ⟨S20000x4, .f32⟩
  | 90 => ⟨S20000x4, .f32⟩
  | 91 => ⟨S_, .f32⟩
  | 92 => ⟨S20000x4, .f32⟩
  | 93 => ⟨S20000x4, .f32⟩
  | 94 => ⟨S_, .f32⟩
  | 95 => ⟨S20000x4, .f32⟩
  | 96 => ⟨S20000x4, .f32⟩
  | 97 => ⟨S20000x128, .f32⟩
  | 98 => ⟨S1x128, .f32⟩
  | 99 => ⟨S20000x128, .f32⟩
  | 100 => ⟨S20000x128, .f32⟩
  | 101 => ⟨S_, .f32⟩
  | 102 => ⟨S20000x128, .f32⟩
  | 103 => ⟨S20000x128, .f32⟩
  | 104 => ⟨S20000x2, .f32⟩
  | 105 => ⟨S1x2, .f32⟩
  | 106 => ⟨S20000x2, .f32⟩
  | 107 => ⟨S20000x2, .f32⟩
  | 108 => ⟨S20000x2, .f32⟩
  | 109 => ⟨S20000x2, .f32⟩
  | 110 => ⟨S_, .f32⟩
  | 111 => ⟨S20000x2, .f32⟩
  | 112 => ⟨S20000x2, .f32⟩
  | 113 => ⟨S_, .f32⟩
  | 114 => ⟨S20000x2, .f32⟩
  | 115 => ⟨S20000x2, .f32⟩
  | 116 => ⟨S_, .f32⟩
  | 117 => ⟨S20000x2, .f32⟩
  | 118 => ⟨S20000x2, .f32⟩
  | 119 => ⟨S_, .f32⟩
  | 120 => ⟨S20000x2, .f32⟩
  | 121 => ⟨S20000x2, .f32⟩
  | 122 => ⟨S20000x128, .f32⟩
  | 123 => ⟨S1x128, .f32⟩
  | 124 => ⟨S20000x128, .f32⟩
  | 125 => ⟨S20000x128, .f32⟩
  | 126 => ⟨S_, .f32⟩
  | 127 => ⟨S20000x128, .f32⟩
  | _ => ⟨S20000x512, .f32⟩

abbrev hbmTy0_1 (i : Nat) : BufTy := match i % 128 with
  | 0 => ⟨S20000x128, .f32⟩
  | 1 => ⟨S20000x1, .f32⟩
  | 2 => ⟨S1x1, .f32⟩
  | 3 => ⟨S20000x1, .f32⟩
  | 4 => ⟨S20000x1, .f32⟩
  | 5 => ⟨S20000x1, .f32⟩
  | 6 => ⟨S20000x1, .f32⟩
  | 7 => ⟨S_, .f32⟩
  | 8 => ⟨S20000x1, .f32⟩
  | 9 => ⟨S20000x1, .f32⟩
  | 10 => ⟨S_, .f32⟩
  | 11 => ⟨S20000x1, .f32⟩
  | 12 => ⟨S20000x1, .f32⟩
  | 13 => ⟨S20000x7, .f32⟩
  | 14 => ⟨S20000x263, .f32⟩
  | 15 => ⟨S20000x128, .f32⟩
  | 16 => ⟨S1x128, .f32⟩
  | 17 => ⟨S20000x128, .f32⟩
  | 18 => ⟨S20000x128, .f32⟩
  | 19 => ⟨S_, .f32⟩
  | 20 => ⟨S20000x128, .f32⟩
  | 21 => ⟨S20000x128, .f32⟩
  | 22 => ⟨S20000x1, .f32⟩
  | 23 => ⟨S1x1, .f32⟩
  | 24 => ⟨S20000x1, .f32⟩
  | 25 => ⟨S20000x1, .f32⟩
  | 26 => ⟨S20000x1, .f32⟩
  | 27 => ⟨S20000x1, .f32⟩
  | 28 => ⟨S_, .f32⟩
  | 29 => ⟨S20000x1, .f32⟩
  | 30 => ⟨S20000x1, .f32⟩
  | 31 => ⟨S_, .f32⟩
  | 32 => ⟨S20000x1, .f32⟩
  | 33 => ⟨S20000x1, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_1 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_call1_cst : Ref sig .tc := ⟨.hbm, 71, rfl⟩
abbrev main_call1_v0 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_call2_cst : Ref sig .tc := ⟨.hbm, 82, rfl⟩
abbrev main_call2_v0 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_cst_2 : Ref sig .tc := ⟨.hbm, 91, rfl⟩
abbrev main_v38 : Ref sig .tc := ⟨.hbm, 92, rfl⟩
abbrev main_v39 : Ref sig .tc := ⟨.hbm, 93, rfl⟩
abbrev main_cst_3 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_call3_cst : Ref sig .tc := ⟨.hbm, 101, rfl⟩
abbrev main_call3_v0 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_cst_4 : Ref sig .tc := ⟨.hbm, 110, rfl⟩
abbrev main_v53 : Ref sig .tc := ⟨.hbm, 111, rfl⟩
abbrev main_v54 : Ref sig .tc := ⟨.hbm, 112, rfl⟩
abbrev main_cst_5 : Ref sig .tc := ⟨.hbm, 113, rfl⟩
abbrev main_v55 : Ref sig .tc := ⟨.hbm, 114, rfl⟩
abbrev main_v56 : Ref sig .tc := ⟨.hbm, 115, rfl⟩
abbrev main_cst_6 : Ref sig .tc := ⟨.hbm, 116, rfl⟩
abbrev main_v57 : Ref sig .tc := ⟨.hbm, 117, rfl⟩
abbrev main_v58 : Ref sig .tc := ⟨.hbm, 118, rfl⟩
abbrev main_cst_7 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_call4_cst : Ref sig .tc := ⟨.hbm, 126, rfl⟩
abbrev main_call4_v0 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_cst_8 : Ref sig .tc := ⟨.hbm, 135, rfl⟩
abbrev main_v72 : Ref sig .tc := ⟨.hbm, 136, rfl⟩
abbrev main_v73 : Ref sig .tc := ⟨.hbm, 137, rfl⟩
abbrev main_cst_9 : Ref sig .tc := ⟨.hbm, 138, rfl⟩
abbrev main_v74 : Ref sig .tc := ⟨.hbm, 139, rfl⟩
abbrev main_v75 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_call5_cst : Ref sig .tc := ⟨.hbm, 147, rfl⟩
abbrev main_call5_v0 : Ref sig .tc := ⟨.hbm, 148, rfl⟩
abbrev main_v82 : Ref sig .tc := ⟨.hbm, 149, rfl⟩
abbrev main_v83 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_cst_10 : Ref sig .tc := ⟨.hbm, 156, rfl⟩
abbrev main_v89 : Ref sig .tc := ⟨.hbm, 157, rfl⟩
abbrev main_v90 : Ref sig .tc := ⟨.hbm, 158, rfl⟩
abbrev main_cst_11 : Ref sig .tc := ⟨.hbm, 159, rfl⟩
abbrev main_v91 : Ref sig .tc := ⟨.hbm, 160, rfl⟩
abbrev main_v92 : Ref sig .tc := ⟨.hbm, 161, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S20000_d1 : S20000x256.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  bcast_S_S20000x256 : S_.BroadcastsInDim S20000x256 (![] : Fin 0 → Fin S20000x256.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S20000x128 : S_.BroadcastsInDim S20000x128 (![] : Fin 0 → Fin S20000x128.rank)
  bcast_S4_S1x4_1 : S4.BroadcastsInDim S1x4 (![1] : Fin 1 → Fin S1x4.rank)
  bcast_S1x4_S20000x4_0_1 : S1x4.BroadcastsInDim S20000x4 (![0, 1] : Fin 2 → Fin S20000x4.rank)
  bcast_S_S20000x4 : S_.BroadcastsInDim S20000x4 (![] : Fin 0 → Fin S20000x4.rank)
  bcast_S2_S1x2_1 : S2.BroadcastsInDim S1x2 (![1] : Fin 1 → Fin S1x2.rank)
  bcast_S1x2_S20000x2_0_1 : S1x2.BroadcastsInDim S20000x2 (![0, 1] : Fin 2 → Fin S20000x2.rank)
  bcast_S_S20000x2 : S_.BroadcastsInDim S20000x2 (![] : Fin 0 → Fin S20000x2.rank)
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  concatenates_S20000x4_S20000x2_S20000x1_S20000x7_d1 : Shape.Concatenates [S20000x4, S20000x2, S20000x1] S20000x7 1
  concatenates_S20000x256_S20000x7_S20000x263_d1 : Shape.Concatenates [S20000x256, S20000x7] S20000x263 1
  dot_S20000x512_S512x256_S20000x256_1_0_0_1_n_n_wf : DotDims.WF S20000x512 S512x256 S20000x256 [1] [0] [0] [1] [] []
  dot_S20000x256_S256x256_S20000x256_1_0_0_1_n_n_wf : DotDims.WF S20000x256 S256x256 S20000x256 [1] [0] [0] [1] [] []
  dot_S20000x256_S256x128_S20000x128_1_0_0_1_n_n_wf : DotDims.WF S20000x256 S256x128 S20000x128 [1] [0] [0] [1] [] []
  dot_S20000x128_S128x4_S20000x4_1_0_0_1_n_n_wf : DotDims.WF S20000x128 S128x4 S20000x4 [1] [0] [0] [1] [] []
  dot_S20000x128_S128x2_S20000x2_1_0_0_1_n_n_wf : DotDims.WF S20000x128 S128x2 S20000x2 [1] [0] [0] [1] [] []
  dot_S20000x128_S128x1_S20000x1_1_0_0_1_n_n_wf : DotDims.WF S20000x128 S128x1 S20000x1 [1] [0] [0] [1] [] []
  dot_S20000x263_S263x128_S20000x128_1_0_0_1_n_n_wf : DotDims.WF S20000x263 S263x128 S20000x128 [1] [0] [0] [1] [] []

variable [Facts₀]

def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf
def dot_S20000x128_S128x4_S20000x4_1_0_0_1_n_n : DotDims S20000x128 S128x4 S20000x4 where
  lhsContracting := [1]
  rhsContracting := [0]
  lhsNonContracting := [0]
  rhsNonContracting := [1]
  lhsBatch := []
  rhsBatch := []
  wf := dot_S20000x128_S128x4_S20000x4_1_0_0_1_n_n_wf
def dot_S20000x128_S128x2_S20000x2_1_0_0_1_n_n : DotDims S20000x128 S128x2 S20000x2 where
  lhsContracting := [1]
  rhsContracting := [0]
  lhsNonContracting := [0]
  rhsNonContracting := [1]
  lhsBatch := []
  rhsBatch := []
  wf := dot_S20000x128_S128x2_S20000x2_1_0_0_1_n_n_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf
def dot_S20000x263_S263x128_S20000x128_1_0_0_1_n_n : DotDims S20000x263 S263x128 S20000x128 where
  lhsContracting := [1]
  rhsContracting := [0]
  lhsNonContracting := [0]
  rhsNonContracting := [1]
  lhsBatch := []
  rhsBatch := []
  wf := dot_S20000x263_S263x128_S20000x128_1_0_0_1_n_n_wf

class Facts : Prop extends Facts₀ where

variable [Facts]
-- ==== Proof.Spec.lean ====
/-
  A detection head, one candidate row at a time, over the extended reals.

  A row of 512 features goes through an affine map to 256 channels, a normalisation over those channels followed
  by a gain, a shift and a clamp at zero, and a second affine map: the trunk. Three small heads (affine, clamp,
  affine, logistic) read the trunk: four box coordinates, two scales (the logistic value stretched to an interval)
  and one context score. The confidence reads the trunk joined with those seven numbers: affine on the 263 joined
  entries, clamp, affine, logistic.

  The normalisation is a parameter `N`, because it is written in two ways. One way (`normK`) takes the variance as
  the mean of the squares less the square of the mean and multiplies by the reciprocal square root. The other
  (`normR`) takes the variance as the mean of the squared deviations — the count of summands computed as
  256 less the number read from the integer word zero, and the quotient guarded by a test that this count is
  positive — and divides by the square root. Likewise the hidden layer of the confidence is written in two ways:
  as one sum over the 263 joined entries (`hiddenJoin`), or as the sum over the 256 trunk entries plus the sum over
  the seven head outputs (`hiddenSplit`); these two agree on every extended real (`hiddenSplit_eq_hiddenJoin`),
  since a finite sum may be cut in two at any place.

  Float literals stay the words they are written as; nothing here evaluates one.
-/
import Idealize.ShloMosaic.PureOps.Ideal
import Idealize.ShloMosaic.Lib.ValueIdx

noncomputable section

namespace Cert.DetHead

open Idealize.ShloMosaic

/-- The literal 256, the number of normalised channels. -/
def c256 : EReal := Ideal.ofBits .f32 0x43800000#32
/-- The literal added to the variance before the square root. -/
def cEps : EReal := Ideal.ofBits .f32 0x3727C5AC#32
/-- The width of the interval the scales are stretched to. -/
def cSpan : EReal := Ideal.ofBits .f32 0x3DA3D70A#32
/-- The lower end of that interval. -/
def cMin : EReal := Ideal.ofBits .f32 0x3CA3D70A#32
/-- The word put where the count of summands would not be positive (never reached). -/
def cNaN : EReal := Ideal.ofBits .f32 0x7FC00000#32
/-- The count of summands as the second normalisation computes it: 256 less the integer word zero read as a number. -/
def cnt : EReal := c256 - (((0#32 : BitVec 32).toInt : ℝ) : EReal)

/-- An affine map on a row: entry `q` is the sum over `k` of `x k · W k q`, plus `b q`. -/
def affine {K M : Nat} (x : Fin K → EReal) (W : Fin K → Fin M → EReal) (b : Fin M → EReal) : Fin M → EReal :=
  fun q => (∑ k : Fin K, x k * W k q) + b q

/-- The clamp at zero, entry by entry. -/
def relu {M : Nat} (x : Fin M → EReal) : Fin M → EReal := fun q => max (x q) 0

/-- The logistic function `1 / (1 + exp (−z))`. -/
def sigm (z : EReal) : EReal := Ideal.div 1 (1 + Ideal.exp (-z))

/-- The mean of 256 entries. -/
def mean (x : Fin 256 → EReal) : EReal := Ideal.div (∑ k : Fin 256, x k) c256

/-- The variance as the mean of the squares less the square of the mean. -/
def varK (x : Fin 256 → EReal) : EReal := Ideal.div (∑ k : Fin 256, x k * x k) c256 - mean x * mean x

/-- The variance as the mean of the squared deviations, over the computed count and under its guard. -/
def varR (x : Fin 256 → EReal) : EReal :=
  Scalar.select (Ideal.cmp .ogt cnt 0) (Ideal.div (∑ k : Fin 256, (x k - mean x) * (x k - mean x)) cnt) cNaN

/-- Normalise by the reciprocal square root of `varK + ε`, then gain, shift and clamp. -/
def normK (x g β : Fin 256 → EReal) : Fin 256 → EReal :=
  fun q => max ((x q - mean x) * Ideal.rsqrt (varK x + cEps) * g q + β q) 0

/-- Normalise by dividing by the square root of `varR + ε`, then gain, shift and clamp. -/
def normR (x g β : Fin 256 → EReal) : Fin 256 → EReal :=
  fun q => max (Ideal.div (x q - mean x) (Ideal.sqrt (varR x + cEps)) * g q + β q) 0

/-- The head's parameters, each matrix as a function of (row, column) and each vector of its position. -/
structure Params where
  W1 : Fin 512 → Fin 256 → EReal
  b1 : Fin 256 → EReal
  g : Fin 256 → EReal
  β : Fin 256 → EReal
  W2 : Fin 256 → Fin 256 → EReal
  b2 : Fin 256 → EReal
  lW1 : Fin 256 → Fin 128 → EReal
  lb1 : Fin 128 → EReal
  lW2 : Fin 128 → Fin 4 → EReal
  lb2 : Fin 4 → EReal
  sW1 : Fin 256 → Fin 128 → EReal
  sb1 : Fin 128 → EReal
  sW2 : Fin 128 → Fin 2 → EReal
  sb2 : Fin 2 → EReal
  cW1 : Fin 256 → Fin 128 → EReal
  cb1 : Fin 128 → EReal
  cW2 : Fin 128 → Fin 1 → EReal
  cb2 : Fin 1 → EReal
  fW1 : Fin 263 → Fin 128 → EReal
  fb1 : Fin 128 → EReal
  fW2 : Fin 128 → Fin 1 → EReal
  fb2 : Fin 1 → EReal

/-- A normalisation with gain, shift and clamp: the first layer's output, the gain and the shift to 256 channels. -/
abbrev Norm := (Fin 256 → EReal) → (Fin 256 → EReal) → (Fin 256 → EReal) → (Fin 256 → EReal)

/-- The first affine layer of a feature row. -/
def first (P : Params) (f : Fin 512 → EReal) : Fin 256 → EReal := affine f P.W1 P.b1

/-- The trunk of a feature row. -/
def trunk (N : Norm) (P : Params) (f : Fin 512 → EReal) : Fin 256 → EReal :=
  affine (N (first P f) P.g P.β) P.W2 P.b2

/-- A head before its logistic: affine to 128, clamp, affine to `M`. -/
def head {M : Nat} (h : Fin 256 → EReal) (Wa : Fin 256 → Fin 128 → EReal) (ba : Fin 128 → EReal)
    (Wb : Fin 128 → Fin M → EReal) (bb : Fin M → EReal) : Fin M → EReal :=
  affine (relu (affine h Wa ba)) Wb bb

/-- The four box coordinates of a row. -/
def boxes (N : Norm) (P : Params) (f : Fin 512 → EReal) : Fin 4 → EReal :=
  fun q => sigm (head (trunk N P f) P.lW1 P.lb1 P.lW2 P.lb2 q)

/-- The two scales of a row. -/
def scales (N : Norm) (P : Params) (f : Fin 512 → EReal) : Fin 2 → EReal :=
  fun q => sigm (head (trunk N P f) P.sW1 P.sb1 P.sW2 P.sb2 q) * cSpan + cMin

/-- The context score of a row. -/
def ctx (N : Norm) (P : Params) (f : Fin 512 → EReal) : Fin 1 → EReal :=
  fun q => sigm (head (trunk N P f) P.cW1 P.cb1 P.cW2 P.cb2 q)

/-- The seven head outputs side by side: boxes, scales, context. -/
def combined (N : Norm) (P : Params) (f : Fin 512 → EReal) : Fin 7 → EReal :=
  fun k => if h4 : k.val < 4 then boxes N P f ⟨k.val, h4⟩
    else if h6 : k.val < 6 then scales N P f ⟨k.val - 4, by omega⟩
    else ctx N P f ⟨k.val - 6, by omega⟩

/-- The trunk joined with the seven head outputs. -/
def joined (N : Norm) (P : Params) (f : Fin 512 → EReal) : Fin 263 → EReal :=
  fun k => if h : k.val < 256 then trunk N P f ⟨k.val, h⟩ else combined N P f ⟨k.val - 256, by omega⟩

/-- The confidence's hidden layer as one sum over the 263 joined entries. -/
def hiddenJoin (N : Norm) (P : Params) (f : Fin 512 → EReal) : Fin 128 → EReal :=
  affine (joined N P f) P.fW1 P.fb1

/-- The confidence's hidden layer as the trunk's part plus the head outputs' part. -/
def hiddenSplit (N : Norm) (P : Params) (f : Fin 512 → EReal) : Fin 128 → EReal :=
  fun q => ((∑ k : Fin 256, trunk N P f k * P.fW1 ⟨k.val, by omega⟩ q)
    + (∑ k : Fin 7, combined N P f k * P.fW1 ⟨256 + k.val, by omega⟩ q)) + P.fb1 q

/-- The confidence from its hidden layer. -/
def conf (P : Params) (hid : Fin 128 → EReal) : Fin 1 → EReal :=
  fun q => sigm (affine (relu hid) P.fW2 P.fb2 q)

/-- A sum over 263 places is the sum over the first 256 plus the sum over the last seven. -/
theorem sum_263 (F : Fin 263 → EReal) :
    (∑ k : Fin 263, F k) = (∑ k : Fin 256, F ⟨k.val, by omega⟩) + (∑ k : Fin 7, F ⟨256 + k.val, by omega⟩) := by
  have h := Fin.sum_univ_add (M := EReal) (a := 256) (b := 7) F
  refine h.trans ?_
  congr 1

/-- The two ways of writing the confidence's hidden layer agree. -/
theorem hiddenSplit_eq_hiddenJoin (N : Norm) (P : Params) (f : Fin 512 → EReal) :
    hiddenSplit N P f = hiddenJoin N P f := by
  funext q
  unfold hiddenSplit hiddenJoin affine
  rw [sum_263]
  congr 1

/-! ## Arrays as rows and parameters -/

/-- A two-axis array of extended reals. -/
abbrev Arr2 (a b : Nat) := (⟨2, ![a, b]⟩ : Shape).Idx → EReal
/-- A one-axis array of extended reals. -/
abbrev Arr1 (a : Nat) := (⟨1, ![a]⟩ : Shape).Idx → EReal

/-- A two-axis array as a function of (row, column). -/
def mat {a b : Nat} (A : Arr2 a b) : Fin a → Fin b → EReal := fun k q => A (ValueIdx.ix2 k q)
/-- A one-axis array as a function of its position. -/
def vec {a : Nat} (A : Arr1 a) : Fin a → EReal := fun q => A (ValueIdx.ix1 q)
/-- Row `r` of a two-axis array. -/
def rowOf {n K : Nat} (A : Arr2 n K) (r : Fin n) : Fin K → EReal := fun k => A (ValueIdx.ix2 r k)

/-- The head's parameters read from its twenty-two parameter arrays, in the order the programs take them. -/
def paramsOf (A1 : Arr2 512 256) (A2 A3 A4 : Arr1 256) (A5 : Arr2 256 256) (A6 : Arr1 256)
    (A7 : Arr2 256 128) (A8 : Arr1 128) (A9 : Arr2 128 4) (A10 : Arr1 4)
    (A11 : Arr2 256 128) (A12 : Arr1 128) (A13 : Arr2 128 2) (A14 : Arr1 2)
    (A15 : Arr2 256 128) (A16 : Arr1 128) (A17 : Arr2 128 1) (A18 : Arr1 1)
    (A19 : Arr2 263 128) (A20 : Arr1 128) (A21 : Arr2 128 1) (A22 : Arr1 1) : Params where
  W1 := mat A1
  b1 := vec A2
  g := vec A3
  β := vec A4
  W2 := mat A5
  b2 := vec A6
  lW1 := mat A7
  lb1 := vec A8
  lW2 := mat A9
  lb2 := vec A10
  sW1 := mat A11
  sb1 := vec A12
  sW2 := mat A13
  sb2 := vec A14
  cW1 := mat A15
  cb1 := vec A16
  cW2 := mat A17
  cb2 := vec A18
  fW1 := mat A19
  fb1 := vec A20
  fW2 := mat A21
  fb2 := vec A22

end Cert.DetHead

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.KLayers.lean ====
/-
  The kernel's layers on a block of rows, read at an entry.

  A block of `n` rows goes through the same few kinds of layer: a matrix product into a zero accumulator, a bias row
  broadcast down the block, a clamp at zero, a logistic, and one normalisation over 256 channels. Each is written
  here as the vector operations it consists of, and read at entry (p, q) as the row-level function of Spec applied to
  row p of the block: the matrix product is the sum over the contracted axis, a row broadcast reads the row, a column
  broadcast reads the column's entry of the same row, a lane reduction is the sum over the row, and every other
  operation acts entry by entry.
-/
import proofs.«169133_g884763263511_cont_9to1_m_545_24_alg».proof.Proof.Spec
import proofs.«169133_g884763263511_cont_9to1_m_545_24_alg».proof.Proof.LibDotEntry
import Idealize.ShloMosaic.Lib.ValueIdx
import Idealize.ShloMosaic.Lib.ValueLayout
import Idealize.ShloMosaic.Lib.Pipeline.Value
import Idealize.ShloMosaic.PureOps.Ideal.Laws

noncomputable section

namespace Cert.DetHead.K

open Idealize.ShloMosaic Idealize.ShloMosaic.TcCoe Idealize.SL.Sem Idealize.ShloMosaic.ValueIdx Cert.DetHead

/-- The one row of a [1, M] array. -/
def rowVec {M : Nat} (b : Arr2 1 M) : Fin M → EReal := fun q => b (ix2 (0 : Fin 1) q)

variable {n : Nat}

/-! ## Layout operations at an entry -/

/-- A vector of `n` entries cast to a column reads, at (p, 0), entry p. -/
theorem cast_col (v : Arr1 n) (h : (⟨1, ![n]⟩ : Shape).ShapeCasts ⟨2, ![n, 1]⟩) (p : Fin n) (z : Fin 1) :
    shapeCast ⟨2, ![n, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column broadcast across `M` lanes reads, at (p, c), the column's entry of row p. -/
theorem bcast_col {M : Nat} (v : Arr2 n 1) (h : (⟨2, ![n, 1]⟩ : Shape).Broadcasts ⟨2, ![n, M]⟩) (p : Fin n) (c : Fin M) :
    broadcastTo ⟨2, ![n, M]⟩ v h (ix2 p c) = v (ix2 p (0 : Fin 1)) := by
  refine broadcastTo_apply v h (ix2 p c) (ix2 p (0 : Fin 1)) fun ax => ?_
  match ax with
  | ⟨0, _⟩ =>
    show p.val = if n = 1 then 0 else p.val
    split
    · have := p.isLt; omega
    · rfl
  | ⟨1, _⟩ => rfl

/-- A row (cast to its own shape) broadcast down `n` rows reads, at (p, c), the row's entry c. -/
theorem bcast_row {M : Nat} (v : Arr2 1 M) (hsc : (⟨2, ![1, M]⟩ : Shape).ShapeCasts ⟨2, ![1, M]⟩)
    (h : (⟨2, ![1, M]⟩ : Shape).Broadcasts ⟨2, ![n, M]⟩) (p : Fin n) (c : Fin M) :
    broadcastTo ⟨2, ![n, M]⟩ (shapeCast ⟨2, ![1, M]⟩ v hsc) h (ix2 p c) = rowVec v c := by
  rw [shapeCast_self]
  exact broadcastTo_1b_ab_apply v h p c

/-- A lane sum of a block reads, at row p, the sum of that row. -/
theorem rowsum {K : Nat} (x : FVec Ideal ⟨2, ![n, K]⟩ .f32) (h : (⟨2, ![n, K]⟩ : Shape).Reduces [1] ⟨1, ![n]⟩)
    (hφ : FKind.Formats .f32) (hacc : (0x00000000#32 : BitVec 32) = FKind.add.neutral .f32 hφ) (p : Fin n) :
    multiReduction .add [1] ⟨1, ![n]⟩ x 0x00000000#32 h hφ hacc (ix1 p) = ∑ k : Fin K, x (ix2 p k) := by
  refine (Ideal.multiReduction_add_single x _ h hφ hacc (ix1 p)).trans ?_
  refine Finset.sum_congr rfl fun k _ => congrArg x ?_
  funext a
  apply Fin.ext
  match a with
  | ⟨0, _⟩ => rfl
  | ⟨1, _⟩ => rfl

/-! ## The layers as vector operations -/

/-- A matrix product into a zero accumulator. -/
def mmV {K M : Nat} (D : DotDims ⟨2, ![n, K]⟩ ⟨2, ![K, M]⟩ ⟨2, ![n, M]⟩) (x : FVec Ideal ⟨2, ![n, K]⟩ .f32)
    (W : FVec Ideal ⟨2, ![K, M]⟩ .f32) : FVec Ideal ⟨2, ![n, M]⟩ .f32 :=
  matmul D none x W (constant ⟨2, ![n, M]⟩ .f32 0x00000000#32)

/-- Adding a bias row to every row of a block. -/
def biasV {M : Nat} (y : FVec Ideal ⟨2, ![n, M]⟩ .f32) (b : FVec Ideal ⟨2, ![1, M]⟩ .f32)
    (hsc : (⟨2, ![1, M]⟩ : Shape).ShapeCasts ⟨2, ![1, M]⟩) (hbc : (⟨2, ![1, M]⟩ : Shape).Broadcasts ⟨2, ![n, M]⟩) :
    FVec Ideal ⟨2, ![n, M]⟩ .f32 :=
  addf y (broadcastTo ⟨2, ![n, M]⟩ (shapeCast ⟨2, ![1, M]⟩ b hsc) hbc)

/-- The clamp at zero of a block. -/
def reluV {M : Nat} (y : FVec Ideal ⟨2, ![n, M]⟩ .f32) : FVec Ideal ⟨2, ![n, M]⟩ .f32 :=
  maximumf y (broadcast ⟨2, ![n, M]⟩ (Scalar.ofBits (F := Ideal) .f32 0x00000000#32))

/-- The mean over the 256 lanes of each row, as a column. -/
def muV (x : FVec Ideal ⟨2, ![n, 256]⟩ .f32) (hred : (⟨2, ![n, 256]⟩ : Shape).Reduces [1] ⟨1, ![n]⟩)
    (hcast : (⟨1, ![n]⟩ : Shape).ShapeCasts ⟨2, ![n, 1]⟩) : FVec Ideal ⟨2, ![n, 1]⟩ .f32 :=
  divf (shapeCast ⟨2, ![n, 1]⟩ (multiReduction .add [1] ⟨1, ![n]⟩ x 0x00000000#32 hred (.inl rfl) rfl) hcast)
    (broadcast ⟨2, ![n, 1]⟩ (Scalar.ofBits (F := Ideal) .f32 0x43800000#32))

/-- The normalisation of a block with gain, shift and clamp, variance as mean of squares less squared mean. -/
def normV (x : FVec Ideal ⟨2, ![n, 256]⟩ .f32) (g β : FVec Ideal ⟨2, ![1, 256]⟩ .f32)
    (hred : (⟨2, ![n, 256]⟩ : Shape).Reduces [1] ⟨1, ![n]⟩) (hcast : (⟨1, ![n]⟩ : Shape).ShapeCasts ⟨2, ![n, 1]⟩)
    (hbcol : (⟨2, ![n, 1]⟩ : Shape).Broadcasts ⟨2, ![n, 256]⟩)
    (hsc : (⟨2, ![1, 256]⟩ : Shape).ShapeCasts ⟨2, ![1, 256]⟩) (hbrow : (⟨2, ![1, 256]⟩ : Shape).Broadcasts ⟨2, ![n, 256]⟩) :
    FVec Ideal ⟨2, ![n, 256]⟩ .f32 :=
  reluV (biasV (mulf (mulf (subf x (broadcastTo ⟨2, ![n, 256]⟩ (muV x hred hcast) hbcol))
      (broadcastTo ⟨2, ![n, 256]⟩ (rsqrt (addf (subf (muV (mulf x x) hred hcast) (mulf (muV x hred hcast) (muV x hred hcast)))
        (broadcast ⟨2, ![n, 1]⟩ (Scalar.ofBits (F := Ideal) .f32 0x3727C5AC#32)))) hbcol))
      (broadcastTo ⟨2, ![n, 256]⟩ (shapeCast ⟨2, ![1, 256]⟩ g hsc) hbrow)) β hsc hbrow)

/-! ## The layers at an entry -/

/-- A matrix product into a zero accumulator, at (p, q): the sum over the contracted axis. -/
theorem mmV_apply {K M : Nat} (D : DotDims ⟨2, ![n, K]⟩ ⟨2, ![K, M]⟩ ⟨2, ![n, M]⟩)
    (hr : D.contr.rank = 1) (hs : D.contr.size ⟨0, by omega⟩ = K)
    (hl0 : ∀ (i : (⟨2, ![n, M]⟩ : Shape).Idx) (c : D.contr.Idx), (D.lhsIdx i c 0).val = (i 0).val)
    (hl1 : ∀ (i : (⟨2, ![n, M]⟩ : Shape).Idx) (c : D.contr.Idx), (D.lhsIdx i c 1).val = (c ⟨0, by omega⟩).val)
    (hr0 : ∀ (i : (⟨2, ![n, M]⟩ : Shape).Idx) (c : D.contr.Idx), (D.rhsIdx i c 0).val = (c ⟨0, by omega⟩).val)
    (hr1 : ∀ (i : (⟨2, ![n, M]⟩ : Shape).Idx) (c : D.contr.Idx), (D.rhsIdx i c 1).val = (i 1).val)
    (x : FVec Ideal ⟨2, ![n, K]⟩ .f32) (W : FVec Ideal ⟨2, ![K, M]⟩ .f32) (p : Fin n) (q : Fin M) :
    mmV D x W (ix2 p q) = ∑ k : Fin K, rowOf x p k * mat W k q :=
  Cert.Lib.DotEntry.matmul_zero_ix2 D hr hs hl0 hl1 hr0 hr1 x W p q

/-- A bias row added to a block, at (p, q). -/
theorem biasV_apply {M : Nat} (y : FVec Ideal ⟨2, ![n, M]⟩ .f32) (b : FVec Ideal ⟨2, ![1, M]⟩ .f32)
    (hsc : (⟨2, ![1, M]⟩ : Shape).ShapeCasts ⟨2, ![1, M]⟩) (hbc : (⟨2, ![1, M]⟩ : Shape).Broadcasts ⟨2, ![n, M]⟩)
    (p : Fin n) (q : Fin M) : biasV y b hsc hbc (ix2 p q) = y (ix2 p q) + rowVec b q := by
  show y (ix2 p q) + broadcastTo ⟨2, ![n, M]⟩ (shapeCast ⟨2, ![1, M]⟩ b hsc) hbc (ix2 p q) = _
  rw [bcast_row]

/-- The clamp at zero of a block, at an index. -/
theorem reluV_apply {M : Nat} (y : FVec Ideal ⟨2, ![n, M]⟩ .f32) (j : (⟨2, ![n, M]⟩ : Shape).Idx) :
    reluV y j = max (y j) 0 := by
  show max (y j) (Ideal.ofBits .f32 0x00000000#32) = _
  rw [Ideal.ofBits_zero_f32]

/-- The mean column, at (p, 0): the mean of row p. -/
theorem muV_apply (x : FVec Ideal ⟨2, ![n, 256]⟩ .f32) (hred : (⟨2, ![n, 256]⟩ : Shape).Reduces [1] ⟨1, ![n]⟩)
    (hcast : (⟨1, ![n]⟩ : Shape).ShapeCasts ⟨2, ![n, 1]⟩) (p : Fin n) (z : Fin 1) :
    muV x hred hcast (ix2 p z) = mean (rowOf x p) := by
  show Ideal.div (shapeCast ⟨2, ![n, 1]⟩ (multiReduction .add [1] ⟨1, ![n]⟩ x 0x00000000#32 hred (.inl rfl) rfl) hcast (ix2 p z))
    (Ideal.ofBits .f32 0x43800000#32) = _
  rw [cast_col]
  exact congrArg (fun s => Ideal.div s (Ideal.ofBits .f32 0x43800000#32)) (rowsum x hred (.inl rfl) rfl p)

/-- The normalisation of a block, at (p, q): Spec's `normK` of row p. -/
theorem normV_apply (x : FVec Ideal ⟨2, ![n, 256]⟩ .f32) (g β : FVec Ideal ⟨2, ![1, 256]⟩ .f32)
    (hred : (⟨2, ![n, 256]⟩ : Shape).Reduces [1] ⟨1, ![n]⟩) (hcast : (⟨1, ![n]⟩ : Shape).ShapeCasts ⟨2, ![n, 1]⟩)
    (hbcol : (⟨2, ![n, 1]⟩ : Shape).Broadcasts ⟨2, ![n, 256]⟩)
    (hsc : (⟨2, ![1, 256]⟩ : Shape).ShapeCasts ⟨2, ![1, 256]⟩) (hbrow : (⟨2, ![1, 256]⟩ : Shape).Broadcasts ⟨2, ![n, 256]⟩)
    (p : Fin n) (q : Fin 256) :
    normV x g β hred hcast hbcol hsc hbrow (ix2 p q) = normK (rowOf x p) (rowVec g) (rowVec β) q := by
  unfold normV
  rw [reluV_apply, biasV_apply]
  show max ((x (ix2 p q) - broadcastTo ⟨2, ![n, 256]⟩ (muV x hred hcast) hbcol (ix2 p q))
      * broadcastTo ⟨2, ![n, 256]⟩ (rsqrt (addf (subf (muV (mulf x x) hred hcast) (mulf (muV x hred hcast) (muV x hred hcast)))
        (broadcast ⟨2, ![n, 1]⟩ (Scalar.ofBits (F := Ideal) .f32 0x3727C5AC#32)))) hbcol (ix2 p q)
      * broadcastTo ⟨2, ![n, 256]⟩ (shapeCast ⟨2, ![1, 256]⟩ g hsc) hbrow (ix2 p q) + rowVec β q) 0 = _
  rw [bcast_col, bcast_col, bcast_row]
  show max ((x (ix2 p q) - muV x hred hcast (ix2 p 0))
      * Ideal.rsqrt ((muV (mulf x x) hred hcast (ix2 p 0) - muV x hred hcast (ix2 p 0) * muV x hred hcast (ix2 p 0))
        + Ideal.ofBits .f32 0x3727C5AC#32)
      * rowVec g q + rowVec β q) 0 = _
  rw [muV_apply, muV_apply]
  rfl

end Cert.DetHead.K

end
-- ==== Proof.KBlockSpec.lean ====
/-
  What one grid point's block of each output holds, stated against Spec.

  At a grid point the kernel reads a block of 4000 feature rows and the whole of every parameter (each bias as a
  one-row array) and leaves, in each of the four output blocks, row by row, the head's output for that feature row:
  the boxes, the scales, the context score and the confidence (with the normalisation in its reciprocal-square-root
  form and the confidence's hidden layer in its two-sum form). `blockParams` reads the head's parameters off the
  blocks; the four propositions say what the four output blocks hold at every index.
-/
import proofs.«169133_g884763263511_cont_9to1_m_545_24_alg».proof.Proof.Gen.KernelIdeal.Frame
import proofs.«169133_g884763263511_cont_9to1_m_545_24_alg».proof.Proof.KLayers

noncomputable section

namespace Cert.DetHead.K

open Idealize.ShloMosaic Idealize.ShloMosaic.TcCoe Idealize.SL.Sem Idealize.ShloMosaic.ValueIdx Cert.DetHead
open Cert.KernelIdeal Cert.KernelIdeal.Gen

variable [Cert.KernelIdeal.Facts]

/-- The head's parameters read off the blocks a grid point holds: matrices whole, each bias the one row of its block. -/
def blockParams (x1 : Arr2 512 256) (x2 x3 x4 : Arr2 1 256) (x5 : Arr2 256 256) (x6 : Arr2 1 256)
    (x7 : Arr2 256 128) (x8 : Arr2 1 128) (x9 : Arr2 128 4) (x10 : Arr2 1 4)
    (x11 : Arr2 256 128) (x12 : Arr2 1 128) (x13 : Arr2 128 2) (x14 : Arr2 1 2)
    (x15 : Arr2 256 128) (x16 : Arr2 1 128) (x17 : Arr2 128 1) (x18 : Arr2 1 1)
    (x19 : Arr2 263 128) (x20 : Arr2 1 128) (x21 : Arr2 128 1) (x22 : Arr2 1 1) : Params where
  W1 := mat x1
  b1 := rowVec x2
  g := rowVec x3
  β := rowVec x4
  W2 := mat x5
  b2 := rowVec x6
  lW1 := mat x7
  lb1 := rowVec x8
  lW2 := mat x9
  lb2 := rowVec x10
  sW1 := mat x11
  sb1 := rowVec x12
  sW2 := mat x13
  sb2 := rowVec x14
  cW1 := mat x15
  cb1 := rowVec x16
  cW2 := mat x17
  cb2 := rowVec x18
  fW1 := mat x19
  fb1 := rowVec x20
  fW2 := mat x21
  fb2 := rowVec x22

/-- The boxes' output block: at (p, q), box coordinate q of feature row p of the block. -/
def BoxesBlock : Prop := ∀ (x0 : Vec Ideal S4000x512 .f32) (x1 : Vec Ideal S512x256 .f32) (x2 : Vec Ideal S1x256 .f32) (x3 : Vec Ideal S1x256 .f32) (x4 : Vec Ideal S1x256 .f32) (x5 : Vec Ideal S256x256 .f32) (x6 : Vec Ideal S1x256 .f32) (x7 : Vec Ideal S256x128 .f32) (x8 : Vec Ideal S1x128 .f32) (x9 : Vec Ideal S128x4 .f32) (x10 : Vec Ideal S1x4 .f32) (x11 : Vec Ideal S256x128 .f32) (x12 : Vec Ideal S1x128 .f32) (x13 : Vec Ideal S128x2 .f32) (x14 : Vec Ideal S1x2 .f32) (x15 : Vec Ideal S256x128 .f32) (x16 : Vec Ideal S1x128 .f32) (x17 : Vec Ideal S128x1 .f32) (x18 : Vec Ideal S1x1 .f32) (x19 : Vec Ideal S263x128 .f32) (x20 : Vec Ideal S1x128 .f32) (x21 : Vec Ideal S128x1 .f32) (x22 : Vec Ideal S1x1 .f32) (p : Fin 4000) (q : Fin 4),
  out0_23 (F := Ideal) x0 x1 x2 x3 x4 x5 x6 x7 x8 x9 x10 x11 x12 x13 x14 x15 x16 x17 x18 x19 x20 x21 x22 (ix2 p q) = boxes normK (blockParams x1 x2 x3 x4 x5 x6 x7 x8 x9 x10 x11 x12 x13 x14 x15 x16 x17 x18 x19 x20 x21 x22) (rowOf x0 p) q

/-- The scales' output block. -/
def ScalesBlock : Prop := ∀ (x0 : Vec Ideal S4000x512 .f32) (x1 : Vec Ideal S512x256 .f32) (x2 : Vec Ideal S1x256 .f32) (x3 : Vec Ideal S1x256 .f32) (x4 : Vec Ideal S1x256 .f32) (x5 : Vec Ideal S256x256 .f32) (x6 : Vec Ideal S1x256 .f32) (x7 : Vec Ideal S256x128 .f32) (x8 : Vec Ideal S1x128 .f32) (x9 : Vec Ideal S128x4 .f32) (x10 : Vec Ideal S1x4 .f32) (x11 : Vec Ideal S256x128 .f32) (x12 : Vec Ideal S1x128 .f32) (x13 : Vec Ideal S128x2 .f32) (x14 : Vec Ideal S1x2 .f32) (x15 : Vec Ideal S256x128 .f32) (x16 : Vec Ideal S1x128 .f32) (x17 : Vec Ideal S128x1 .f32) (x18 : Vec Ideal S1x1 .f32) (x19 : Vec Ideal S263x128 .f32) (x20 : Vec Ideal S1x128 .f32) (x21 : Vec Ideal S128x1 .f32) (x22 : Vec Ideal S1x1 .f32) (p : Fin 4000) (q : Fin 2),
  out0_24 (F := Ideal) x0 x1 x2 x3 x4 x5 x6 x7 x8 x9 x10 x11 x12 x13 x14 x15 x16 x17 x18 x19 x20 x21 x22 (ix2 p q) = scales normK (blockParams x1 x2 x3 x4 x5 x6 x7 x8 x9 x10 x11 x12 x13 x14 x15 x16 x17 x18 x19 x20 x21 x22) (rowOf x0 p) q

/-- The context scores' output block. -/
def CtxBlock : Prop := ∀ (x0 : Vec Ideal S4000x512 .f32) (x1 : Vec Ideal S512x256 .f32) (x2 : Vec Ideal S1x256 .f32) (x3 : Vec Ideal S1x256 .f32) (x4 : Vec Ideal S1x256 .f32) (x5 : Vec Ideal S256x256 .f32) (x6 : Vec Ideal S1x256 .f32) (x7 : Vec Ideal S256x128 .f32) (x8 : Vec Ideal S1x128 .f32) (x9 : Vec Ideal S128x4 .f32) (x10 : Vec Ideal S1x4 .f32) (x11 : Vec Ideal S256x128 .f32) (x12 : Vec Ideal S1x128 .f32) (x13 : Vec Ideal S128x2 .f32) (x14 : Vec Ideal S1x2 .f32) (x15 : Vec Ideal S256x128 .f32) (x16 : Vec Ideal S1x128 .f32) (x17 : Vec Ideal S128x1 .f32) (x18 : Vec Ideal S1x1 .f32) (x19 : Vec Ideal S263x128 .f32) (x20 : Vec Ideal S1x128 .f32) (x21 : Vec Ideal S128x1 .f32) (x22 : Vec Ideal S1x1 .f32) (p : Fin 4000) (q : Fin 1),
  out0_25 (F := Ideal) x0 x1 x2 x3 x4 x5 x6 x7 x8 x9 x10 x11 x12 x13 x14 x15 x16 x17 x18 x19 x20 x21 x22 (ix2 p q) = ctx normK (blockParams x1 x2 x3 x4 x5 x6 x7 x8 x9 x10 x11 x12 x13 x14 x15 x16 x17 x18 x19 x20 x21 x22) (rowOf x0 p) q

/-- The confidences' output block. -/
def ConfBlock : Prop := ∀ (x0 : Vec Ideal S4000x512 .f32) (x1 : Vec Ideal S512x256 .f32) (x2 : Vec Ideal S1x256 .f32) (x3 : Vec Ideal S1x256 .f32) (x4 : Vec Ideal S1x256 .f32) (x5 : Vec Ideal S256x256 .f32) (x6 : Vec Ideal S1x256 .f32) (x7 : Vec Ideal S256x128 .f32) (x8 : Vec Ideal S1x128 .f32) (x9 : Vec Ideal S128x4 .f32) (x10 : Vec Ideal S1x4 .f32) (x11 : Vec Ideal S256x128 .f32) (x12 : Vec Ideal S1x128 .f32) (x13 : Vec Ideal S128x2 .f32) (x14 : Vec Ideal S1x2 .f32) (x15 : Vec Ideal S256x128 .f32) (x16 : Vec Ideal S1x128 .f32) (x17 : Vec Ideal S128x1 .f32) (x18 : Vec Ideal S1x1 .f32) (x19 : Vec Ideal S263x128 .f32) (x20 : Vec Ideal S1x128 .f32) (x21 : Vec Ideal S128x1 .f32) (x22 : Vec Ideal S1x1 .f32) (p : Fin 4000) (q : Fin 1),
  out0_26 (F := Ideal) x0 x1 x2 x3 x4 x5 x6 x7 x8 x9 x10 x11 x12 x13 x14 x15 x16 x17 x18 x19 x20 x21 x22 (ix2 p q)
    = conf (blockParams x1 x2 x3 x4 x5 x6 x7 x8 x9 x10 x11 x12 x13 x14 x15 x16 x17 x18 x19 x20 x21 x22) (hiddenSplit normK (blockParams x1 x2 x3 x4 x5 x6 x7 x8 x9 x10 x11 x12 x13 x14 x15 x16 x17 x18 x19 x20 x21 x22) (rowOf x0 p)) q

end Cert.DetHead.K

end
-- ==== Proof.KHead.lean ====
/-
  The head on a block of 2000 rows, as the kernel writes it, read row by row.

  The trunk, the three small heads, the seven head outputs side by side and the confidence are written here as the
  vector operations the kernel applies to a block of 2000 feature rows and the parameter blocks, and each is read at
  row p as Spec's function of row p of the feature block: every layer acts on each row by itself, so the reading
  of a composition is the composition of the readings.
-/
import proofs.«169133_g884763263511_cont_9to1_m_545_24_alg».proof.Proof.KBlockSpec

noncomputable section

namespace Cert.DetHead.K

open Idealize.ShloMosaic Idealize.ShloMosaic.TcCoe Idealize.SL.Sem Idealize.ShloMosaic.ValueIdx Cert.DetHead
open Cert.KernelIdeal Cert.KernelIdeal.Gen

variable [Cert.KernelIdeal.Facts]

/-- The seven matrix products' dimension records. -/
abbrev D512 := dot_S2000x512_S512x256_S2000x256_1_0_0_1_n_n
abbrev D256 := dot_S2000x256_S256x256_S2000x256_1_0_0_1_n_n
abbrev Dh := dot_S2000x256_S256x128_S2000x128_1_0_0_1_n_n
abbrev D4 := dot_S2000x128_S128x4_S2000x4_1_0_0_1_n_n
abbrev D2 := dot_S2000x128_S128x2_S2000x2_1_0_0_1_n_n
abbrev D1 := dot_S2000x128_S128x1_S2000x1_1_0_0_1_n_n
abbrev D7 := dot_S2000x7_S7x128_S2000x128_1_0_0_1_n_n

/-! ## Rows of the layers -/

theorem row_lin512 (x : Vec Ideal S2000x512 .f32) (W : Vec Ideal S512x256 .f32) (b : Vec Ideal S1x256 .f32) (p : Fin 2000) :
    rowOf (biasV (mmV D512 x W) b shapeCasts_S1x256_S1x256 broadcasts_S1x256_S2000x256) p = affine (rowOf x p) (mat W) (rowVec b) := by
  funext q
  show biasV (mmV D512 x W) b shapeCasts_S1x256_S1x256 broadcasts_S1x256_S2000x256 (ix2 p q) = _
  rw [biasV_apply, mmV_apply D512 rfl rfl (fun _ _ => rfl) (fun _ _ => rfl) (fun _ _ => rfl) (fun _ _ => rfl)]
  rfl

theorem row_lin256 (x : FVec Ideal S2000x256 .f32) (W : Vec Ideal S256x256 .f32) (b : Vec Ideal S1x256 .f32) (p : Fin 2000) :
    rowOf (biasV (mmV D256 x W) b shapeCasts_S1x256_S1x256 broadcasts_S1x256_S2000x256) p = affine (rowOf x p) (mat W) (rowVec b) := by
  funext q
  show biasV (mmV D256 x W) b shapeCasts_S1x256_S1x256 broadcasts_S1x256_S2000x256 (ix2 p q) = _
  rw [biasV_apply, mmV_apply D256 rfl rfl (fun _ _ => rfl) (fun _ _ => rfl) (fun _ _ => rfl) (fun _ _ => rfl)]
  rfl

theorem row_mmh (x : FVec Ideal S2000x256 .f32) (W : Vec Ideal S256x128 .f32) (p : Fin 2000) (q : Fin 128) :
    mmV Dh x W (ix2 p q) = ∑ k : Fin 256, rowOf x p k * mat W k q :=
  mmV_apply Dh rfl rfl (fun _ _ => rfl) (fun _ _ => rfl) (fun _ _ => rfl) (fun _ _ => rfl) x W p q

theorem row_mm7 (x : FVec Ideal S2000x7 .f32) (W : Vec Ideal S7x128 .f32) (p : Fin 2000) (q : Fin 128) :
    mmV D7 x W (ix2 p q) = ∑ k : Fin 7, rowOf x p k * mat W k q :=
  mmV_apply D7 rfl rfl (fun _ _ => rfl) (fun _ _ => rfl) (fun _ _ => rfl) (fun _ _ => rfl) x W p q

theorem row_linh (x : FVec Ideal S2000x256 .f32) (W : Vec Ideal S256x128 .f32) (b : Vec Ideal S1x128 .f32) (p : Fin 2000) :
    rowOf (biasV (mmV Dh x W) b shapeCasts_S1x128_S1x128 broadcasts_S1x128_S2000x128) p = affine (rowOf x p) (mat W) (rowVec b) := by
  funext q
  show biasV (mmV Dh x W) b shapeCasts_S1x128_S1x128 broadcasts_S1x128_S2000x128 (ix2 p q) = _
  rw [biasV_apply, row_mmh]
  rfl

theorem row_lin4 (x : FVec Ideal S2000x128 .f32) (W : Vec Ideal S128x4 .f32) (b : Vec Ideal S1x4 .f32) (p : Fin 2000) :
    rowOf (biasV (mmV D4 x W) b shapeCasts_S1x4_S1x4 broadcasts_S1x4_S2000x4) p = affine (rowOf x p) (mat W) (rowVec b) := by
  funext q
  show biasV (mmV D4 x W) b shapeCasts_S1x4_S1x4 broadcasts_S1x4_S2000x4 (ix2 p q) = _
  rw [biasV_apply, mmV_apply D4 rfl rfl (fun _ _ => rfl) (fun _ _ => rfl) (fun _ _ => rfl) (fun _ _ => rfl)]
  rfl

theorem row_lin2 (x : FVec Ideal S2000x128 .f32) (W : Vec Ideal S128x2 .f32) (b : Vec Ideal S1x2 .f32) (p : Fin 2000) :
    rowOf (biasV (mmV D2 x W) b shapeCasts_S1x2_S1x2 broadcasts_S1x2_S2000x2) p = affine (rowOf x p) (mat W) (rowVec b) := by
  funext q
  show biasV (mmV D2 x W) b shapeCasts_S1x2_S1x2 broadcasts_S1x2_S2000x2 (ix2 p q) = _
  rw [biasV_apply, mmV_apply D2 rfl rfl (fun _ _ => rfl) (fun _ _ => rfl) (fun _ _ => rfl) (fun _ _ => rfl)]
  rfl

theorem row_lin1 (x : FVec Ideal S2000x128 .f32) (W : Vec Ideal S128x1 .f32) (b : Vec Ideal S1x1 .f32) (p : Fin 2000) :
    rowOf (biasV (mmV D1 x W) b shapeCasts_S1x1_S1x1 broadcasts_S1x1_S2000x1) p = affine (rowOf x p) (mat W) (rowVec b) := by
  funext q
  show biasV (mmV D1 x W) b shapeCasts_S1x1_S1x1 broadcasts_S1x1_S2000x1 (ix2 p q) = _
  rw [biasV_apply, mmV_apply D1 rfl rfl (fun _ _ => rfl) (fun _ _ => rfl) (fun _ _ => rfl) (fun _ _ => rfl)]
  rfl

theorem row_relu {M : Nat} (y : FVec Ideal ⟨2, ![2000, M]⟩ .f32) (p : Fin 2000) : rowOf (reluV y) p = relu (rowOf y p) :=
  funext fun q => reluV_apply y (ix2 p q)

theorem row_norm (x : FVec Ideal S2000x256 .f32) (g β : Vec Ideal S1x256 .f32) (p : Fin 2000) :
    rowOf (normV x g β reduces_S2000x256_S2000 shapeCasts_S2000_S2000x1 broadcasts_S2000x1_S2000x256
      shapeCasts_S1x256_S1x256 broadcasts_S1x256_S2000x256) p = normK (rowOf x p) (rowVec g) (rowVec β) :=
  funext fun q => normV_apply x g β _ _ _ _ _ p q

/-! ## The trunk and the heads -/

/-- The trunk of a block. -/
def trunkV (x0 : Vec Ideal S2000x512 .f32) (x1 : Vec Ideal S512x256 .f32) (x2 x3 x4 : Vec Ideal S1x256 .f32)
    (x5 : Vec Ideal S256x256 .f32) (x6 : Vec Ideal S1x256 .f32) : FVec Ideal S2000x256 .f32 :=
  biasV (mmV D256 (normV (biasV (mmV D512 x0 x1) x2 shapeCasts_S1x256_S1x256 broadcasts_S1x256_S2000x256) x3 x4
    reduces_S2000x256_S2000 shapeCasts_S2000_S2000x1 broadcasts_S2000x1_S2000x256 shapeCasts_S1x256_S1x256 broadcasts_S1x256_S2000x256) x5)
    x6 shapeCasts_S1x256_S1x256 broadcasts_S1x256_S2000x256

theorem row_trunk (x0 : Vec Ideal S2000x512 .f32) (x1 : Vec Ideal S512x256 .f32) (x2 x3 x4 : Vec Ideal S1x256 .f32)
    (x5 : Vec Ideal S256x256 .f32) (x6 : Vec Ideal S1x256 .f32) (p : Fin 2000) :
    rowOf (trunkV x0 x1 x2 x3 x4 x5 x6) p
      = affine (normK (affine (rowOf x0 p) (mat x1) (rowVec x2)) (rowVec x3) (rowVec x4)) (mat x5) (rowVec x6) := by
  unfold trunkV
  rw [row_lin256, row_norm, row_lin512]

/-- A head's hidden layer after its clamp. -/
def hidV (h : FVec Ideal S2000x256 .f32) (Wa : Vec Ideal S256x128 .f32) (ba : Vec Ideal S1x128 .f32) : FVec Ideal S2000x128 .f32 :=
  reluV (biasV (mmV Dh h Wa) ba shapeCasts_S1x128_S1x128 broadcasts_S1x128_S2000x128)

theorem row_hid (h : FVec Ideal S2000x256 .f32) (Wa : Vec Ideal S256x128 .f32) (ba : Vec Ideal S1x128 .f32) (p : Fin 2000) :
    rowOf (hidV h Wa ba) p = relu (affine (rowOf h p) (mat Wa) (rowVec ba)) := by
  unfold hidV
  rw [row_relu, row_linh]

/-- The boxes of a block from its trunk. -/
def boxesV (h : FVec Ideal S2000x256 .f32) (Wa : Vec Ideal S256x128 .f32) (ba : Vec Ideal S1x128 .f32)
    (Wb : Vec Ideal S128x4 .f32) (bb : Vec Ideal S1x4 .f32) : FVec Ideal S2000x4 .f32 :=
  logistic (biasV (mmV D4 (hidV h Wa ba) Wb) bb shapeCasts_S1x4_S1x4 broadcasts_S1x4_S2000x4)

theorem boxesV_apply (h : FVec Ideal S2000x256 .f32) (Wa : Vec Ideal S256x128 .f32) (ba : Vec Ideal S1x128 .f32)
    (Wb : Vec Ideal S128x4 .f32) (bb : Vec Ideal S1x4 .f32) (p : Fin 2000) (q : Fin 4) :
    boxesV h Wa ba Wb bb (ix2 p q) = sigm (head (rowOf h p) (mat Wa) (rowVec ba) (mat Wb) (rowVec bb) q) := by
  show sigm (rowOf (biasV (mmV D4 (hidV h Wa ba) Wb) bb shapeCasts_S1x4_S1x4 broadcasts_S1x4_S2000x4) p q) = _
  rw [row_lin4, row_hid]
  rfl

/-- The scales of a block from its trunk. -/
def scalesV (h : FVec Ideal S2000x256 .f32) (Wa : Vec Ideal S256x128 .f32) (ba : Vec Ideal S1x128 .f32)
    (Wb : Vec Ideal S128x2 .f32) (bb : Vec Ideal S1x2 .f32) : FVec Ideal S2000x2 .f32 :=
  addf (mulf (logistic (biasV (mmV D2 (hidV h Wa ba) Wb) bb shapeCasts_S1x2_S1x2 broadcasts_S1x2_S2000x2))
    (broadcast S2000x2 (Scalar.ofBits (F := Ideal) .f32 0x3DA3D70A#32))) (broadcast S2000x2 (Scalar.ofBits (F := Ideal) .f32 0x3CA3D70A#32))

theorem scalesV_apply (h : FVec Ideal S2000x256 .f32) (Wa : Vec Ideal S256x128 .f32) (ba : Vec Ideal S1x128 .f32)
    (Wb : Vec Ideal S128x2 .f32) (bb : Vec Ideal S1x2 .f32) (p : Fin 2000) (q : Fin 2) :
    scalesV h Wa ba Wb bb (ix2 p q) = sigm (head (rowOf h p) (mat Wa) (rowVec ba) (mat Wb) (rowVec bb) q) * cSpan + cMin := by
  show sigm (rowOf (biasV (mmV D2 (hidV h Wa ba) Wb) bb shapeCasts_S1x2_S1x2 broadcasts_S1x2_S2000x2) p q) * cSpan + cMin = _
  rw [row_lin2, row_hid]
  rfl

/-- The context score of a block from its trunk. -/
def ctxV (h : FVec Ideal S2000x256 .f32) (Wa : Vec Ideal S256x128 .f32) (ba : Vec Ideal S1x128 .f32)
    (Wb : Vec Ideal S128x1 .f32) (bb : Vec Ideal S1x1 .f32) : FVec Ideal S2000x1 .f32 :=
  logistic (biasV (mmV D1 (hidV h Wa ba) Wb) bb shapeCasts_S1x1_S1x1 broadcasts_S1x1_S2000x1)

theorem ctxV_apply (h : FVec Ideal S2000x256 .f32) (Wa : Vec Ideal S256x128 .f32) (ba : Vec Ideal S1x128 .f32)
    (Wb : Vec Ideal S128x1 .f32) (bb : Vec Ideal S1x1 .f32) (p : Fin 2000) (q : Fin 1) :
    ctxV h Wa ba Wb bb (ix2 p q) = sigm (head (rowOf h p) (mat Wa) (rowVec ba) (mat Wb) (rowVec bb) q) := by
  show sigm (rowOf (biasV (mmV D1 (hidV h Wa ba) Wb) bb shapeCasts_S1x1_S1x1 broadcasts_S1x1_S2000x1) p q) = _
  rw [row_lin1, row_hid]
  rfl

/-! ## The seven head outputs side by side -/

/-- Boxes, scales and context score of a block joined along the lanes. -/
def combV (b : FVec Ideal S2000x4 .f32) (s : FVec Ideal S2000x2 .f32) (c : FVec Ideal S2000x1 .f32) : FVec Ideal S2000x7 .f32 :=
  concatenate S2000x7 1 [⟨S2000x4, b⟩, ⟨S2000x2, s⟩, ⟨S2000x1, c⟩] concatenates_S2000x4_S2000x2_S2000x1_S2000x7_d1

theorem combV_apply (b : FVec Ideal S2000x4 .f32) (s : FVec Ideal S2000x2 .f32) (c : FVec Ideal S2000x1 .f32) (p : Fin 2000) (k : Fin 7) :
    combV b s c (ix2 p k) = if h4 : k.val < 4 then b (ix2 p ⟨k.val, h4⟩)
      else if h6 : k.val < 6 then s (ix2 p ⟨k.val - 4, by omega⟩) else c (ix2 p ⟨k.val - 6, by omega⟩) := by
  unfold combV
  split
  · rename_i h4
    refine concatenate_apply_piece (t := S2000x7) (1 : Fin 2) [⟨S2000x4, b⟩, ⟨S2000x2, s⟩, ⟨S2000x1, c⟩] concatenates_S2000x4_S2000x2_S2000x1_S2000x7_d1 (ix2 p k) 0 (by show 0 < 3; omega)
      S2000x4 b rfl rfl 0 rfl (ix2 p ⟨k.val, h4⟩) (fun a ha => ?_) (Nat.zero_add _)
    match a with
    | ⟨0, _⟩ => rfl
    | ⟨1, _⟩ => exact absurd rfl ha
  · rename_i h4
    split
    · rename_i h6
      refine concatenate_apply_piece (t := S2000x7) (1 : Fin 2) [⟨S2000x4, b⟩, ⟨S2000x2, s⟩, ⟨S2000x1, c⟩] concatenates_S2000x4_S2000x2_S2000x1_S2000x7_d1 (ix2 p k) 1 (by show 1 < 3; omega)
        S2000x2 s rfl rfl 4 rfl (ix2 p ⟨k.val - 4, by omega⟩) (fun a ha => ?_) (by show 4 + (k.val - 4) = k.val; omega)
      match a with
      | ⟨0, _⟩ => rfl
      | ⟨1, _⟩ => exact absurd rfl ha
    · rename_i h6
      refine concatenate_apply_piece (t := S2000x7) (1 : Fin 2) [⟨S2000x4, b⟩, ⟨S2000x2, s⟩, ⟨S2000x1, c⟩] concatenates_S2000x4_S2000x2_S2000x1_S2000x7_d1 (ix2 p k) 2 (by show 2 < 3; omega)
        S2000x1 c rfl rfl 6 rfl (ix2 p ⟨k.val - 6, by omega⟩) (fun a ha => ?_) (by show 6 + (k.val - 6) = k.val; omega)
      match a with
      | ⟨0, _⟩ => rfl
      | ⟨1, _⟩ => exact absurd rfl ha

/-! ## The confidence -/

/-- The confidence of a block from its trunk, the seven head outputs, the two parts of the joined weights and the rest. -/
def confV (h : FVec Ideal S2000x256 .f32) (cmb : FVec Ideal S2000x7 .f32) (fa : Vec Ideal S256x128 .f32) (fb : Vec Ideal S7x128 .f32)
    (fb1 : Vec Ideal S1x128 .f32) (fW2 : Vec Ideal S128x1 .f32) (fb2 : Vec Ideal S1x1 .f32) : FVec Ideal S2000x1 .f32 :=
  logistic (biasV (mmV D1 (reluV (biasV (addf (mmV Dh h fa) (mmV D7 cmb fb)) fb1 shapeCasts_S1x128_S1x128 broadcasts_S1x128_S2000x128))
    fW2) fb2 shapeCasts_S1x1_S1x1 broadcasts_S1x1_S2000x1)

theorem confV_apply (h : FVec Ideal S2000x256 .f32) (cmb : FVec Ideal S2000x7 .f32) (fa : Vec Ideal S256x128 .f32) (fb : Vec Ideal S7x128 .f32)
    (fb1 : Vec Ideal S1x128 .f32) (fW2 : Vec Ideal S128x1 .f32) (fb2 : Vec Ideal S1x1 .f32) (p : Fin 2000) (q : Fin 1) :
    confV h cmb fa fb fb1 fW2 fb2 (ix2 p q)
      = sigm (affine (relu fun j => ((∑ k : Fin 256, rowOf h p k * mat fa k j) + (∑ k : Fin 7, rowOf cmb p k * mat fb k j)) + rowVec fb1 j)
          (mat fW2) (rowVec fb2) q) := by
  show sigm (rowOf (biasV (mmV D1 (reluV (biasV (addf (mmV Dh h fa) (mmV D7 cmb fb)) fb1 shapeCasts_S1x128_S1x128 broadcasts_S1x128_S2000x128))
    fW2) fb2 shapeCasts_S1x1_S1x1 broadcasts_S1x1_S2000x1) p q) = _
  rw [row_lin1, row_relu]
  congr 3
  funext j
  show biasV (addf (mmV Dh h fa) (mmV D7 cmb fb)) fb1 shapeCasts_S1x128_S1x128 broadcasts_S1x128_S2000x128 (ix2 p j) = _
  rw [biasV_apply]
  show (mmV Dh h fa (ix2 p j) + mmV D7 cmb fb (ix2 p j)) + rowVec fb1 j = _
  rw [row_mmh, row_mm7]

end Cert.DetHead.K

end
-- ==== Proof.KHalf.lean ====
/-
  The two halves of a grid point's feature block, and what each half's rows give.

  The kernel handles a block of 4000 feature rows as two halves of 2000 rows: rows 0 to 1999 and rows 2000 to 3999.
  Row p of a half is row p, or row 2000 + p, of the block; and the head's outputs on a half's row are Spec's functions
  of that row with the parameters read off the parameter blocks.
-/
import proofs.«169133_g884763263511_cont_9to1_m_545_24_alg».proof.Proof.KHead

noncomputable section

namespace Cert.DetHead.K

open Idealize.ShloMosaic Idealize.ShloMosaic.TcCoe Idealize.SL.Sem Idealize.ShloMosaic.ValueIdx Cert.DetHead
open Cert.KernelIdeal Cert.KernelIdeal.Gen

variable [Cert.KernelIdeal.Facts]

/-- The zero offsets, as a function. -/
theorem hz : (![0, 0] : Fin 2 → Nat) = fun _ => 0 := funext fun a => by fin_cases a <;> rfl

/-- Row p of the lower half of the feature block is row p of the block. -/
theorem row_lo (x0 : Vec Ideal S4000x512 .f32) (p : Fin 2000) :
    rowOf (View.ld x0 r0_0) p = rowOf x0 (⟨p.val, by omega⟩ : Fin 4000) := by
  funext k
  show x0 (r0_0.emb (ix2 p k)) = x0 (ix2 (⟨p.val, by omega⟩ : Fin 4000) k)
  refine congrArg x0 (funext fun a => Fin.ext ?_)
  match a with
  | ⟨0, _⟩ => show 0 + 1 * p.val = p.val; omega
  | ⟨1, _⟩ => show 0 + 1 * k.val = k.val; omega

/-- Row p of the upper half of the feature block is row 2000 + p of the block. -/
theorem row_hi (x0 : Vec Ideal S4000x512 .f32) (p : Fin 2000) :
    rowOf (View.ld x0 r0_17) p = rowOf x0 (⟨2000 + p.val, by omega⟩ : Fin 4000) := by
  funext k
  show x0 (r0_17.emb (ix2 p k)) = x0 (ix2 (⟨2000 + p.val, by omega⟩ : Fin 4000) k)
  refine congrArg x0 (funext fun a => Fin.ext ?_)
  match a with
  | ⟨0, _⟩ => show 2000 + 1 * p.val = 2000 + p.val; omega
  | ⟨1, _⟩ => show 0 + 1 * k.val = k.val; omega

/-- The boxes of a half, at (p, q). -/
theorem boxes_half (a0 : Vec Ideal S2000x512 .f32) (x1 : Vec Ideal S512x256 .f32) (x2 : Vec Ideal S1x256 .f32) (x3 : Vec Ideal S1x256 .f32) (x4 : Vec Ideal S1x256 .f32) (x5 : Vec Ideal S256x256 .f32) (x6 : Vec Ideal S1x256 .f32) (x7 : Vec Ideal S256x128 .f32) (x8 : Vec Ideal S1x128 .f32) (x9 : Vec Ideal S128x4 .f32) (x10 : Vec Ideal S1x4 .f32) (x11 : Vec Ideal S256x128 .f32) (x12 : Vec Ideal S1x128 .f32) (x13 : Vec Ideal S128x2 .f32) (x14 : Vec Ideal S1x2 .f32) (x15 : Vec Ideal S256x128 .f32) (x16 : Vec Ideal S1x128 .f32) (x17 : Vec Ideal S128x1 .f32) (x18 : Vec Ideal S1x1 .f32) (x19 : Vec Ideal S263x128 .f32) (x20 : Vec Ideal S1x128 .f32) (x21 : Vec Ideal S128x1 .f32) (x22 : Vec Ideal S1x1 .f32) (p : Fin 2000) (q : Fin 4) :
    boxesV (trunkV a0 x1 x2 x3 x4 x5 x6) x7 x8 x9 x10 (ix2 p q) = boxes normK (blockParams x1 x2 x3 x4 x5 x6 x7 x8 x9 x10 x11 x12 x13 x14 x15 x16 x17 x18 x19 x20 x21 x22) (rowOf a0 p) q := by
  rw [boxesV_apply, row_trunk]
  rfl

/-- The scales of a half, at (p, q). -/
theorem scales_half (a0 : Vec Ideal S2000x512 .f32) (x1 : Vec Ideal S512x256 .f32) (x2 : Vec Ideal S1x256 .f32) (x3 : Vec Ideal S1x256 .f32) (x4 : Vec Ideal S1x256 .f32) (x5 : Vec Ideal S256x256 .f32) (x6 : Vec Ideal S1x256 .f32) (x7 : Vec Ideal S256x128 .f32) (x8 : Vec Ideal S1x128 .f32) (x9 : Vec Ideal S128x4 .f32) (x10 : Vec Ideal S1x4 .f32) (x11 : Vec Ideal S256x128 .f32) (x12 : Vec Ideal S1x128 .f32) (x13 : Vec Ideal S128x2 .f32) (x14 : Vec Ideal S1x2 .f32) (x15 : Vec Ideal S256x128 .f32) (x16 : Vec Ideal S1x128 .f32) (x17 : Vec Ideal S128x1 .f32) (x18 : Vec Ideal S1x1 .f32) (x19 : Vec Ideal S263x128 .f32) (x20 : Vec Ideal S1x128 .f32) (x21 : Vec Ideal S128x1 .f32) (x22 : Vec Ideal S1x1 .f32) (p : Fin 2000) (q : Fin 2) :
    scalesV (trunkV a0 x1 x2 x3 x4 x5 x6) x11 x12 x13 x14 (ix2 p q) = scales normK (blockParams x1 x2 x3 x4 x5 x6 x7 x8 x9 x10 x11 x12 x13 x14 x15 x16 x17 x18 x19 x20 x21 x22) (rowOf a0 p) q := by
  rw [scalesV_apply, row_trunk]
  rfl

/-- The context score of a half, at (p, q). -/
theorem ctx_half (a0 : Vec Ideal S2000x512 .f32) (x1 : Vec Ideal S512x256 .f32) (x2 : Vec Ideal S1x256 .f32) (x3 : Vec Ideal S1x256 .f32) (x4 : Vec Ideal S1x256 .f32) (x5 : Vec Ideal S256x256 .f32) (x6 : Vec Ideal S1x256 .f32) (x7 : Vec Ideal S256x128 .f32) (x8 : Vec Ideal S1x128 .f32) (x9 : Vec Ideal S128x4 .f32) (x10 : Vec Ideal S1x4 .f32) (x11 : Vec Ideal S256x128 .f32) (x12 : Vec Ideal S1x128 .f32) (x13 : Vec Ideal S128x2 .f32) (x14 : Vec Ideal S1x2 .f32) (x15 : Vec Ideal S256x128 .f32) (x16 : Vec Ideal S1x128 .f32) (x17 : Vec Ideal S128x1 .f32) (x18 : Vec Ideal S1x1 .f32) (x19 : Vec Ideal S263x128 .f32) (x20 : Vec Ideal S1x128 .f32) (x21 : Vec Ideal S128x1 .f32) (x22 : Vec Ideal S1x1 .f32) (p : Fin 2000) (q : Fin 1) :
    ctxV (trunkV a0 x1 x2 x3 x4 x5 x6) x15 x16 x17 x18 (ix2 p q) = ctx normK (blockParams x1 x2 x3 x4 x5 x6 x7 x8 x9 x10 x11 x12 x13 x14 x15 x16 x17 x18 x19 x20 x21 x22) (rowOf a0 p) q := by
  rw [ctxV_apply, row_trunk]
  rfl

end Cert.DetHead.K

end
-- ==== Proof.KOut23.lean ====
/-
  What a grid point leaves in the boxes output block.

  The block's 4000 rows are stored as two pieces of 2000 rows; each piece holds, row by row, the boxes of the
  corresponding feature row, so the whole block holds at (p, q) the boxes of feature row p of the block.
-/
import proofs.«169133_g884763263511_cont_9to1_m_545_24_alg».proof.Proof.KHalf

noncomputable section

namespace Cert.DetHead.K

open Idealize.ShloMosaic Idealize.ShloMosaic.TcCoe Idealize.SL.Sem Idealize.ShloMosaic.ValueIdx Cert.DetHead
open Cert.KernelIdeal Cert.KernelIdeal.Gen

variable [Cert.KernelIdeal.Facts]

theorem boxesBlock : BoxesBlock := by
  intro x0 x1 x2 x3 x4 x5 x6 x7 x8 x9 x10 x11 x12 x13 x14 x15 x16 x17 x18 x19 x20 x21 x22 p q
  unfold out0_23
  simp only [View.ld_unit_zero (S := S512x256) hz, View.ld_unit_zero (S := S1x256) hz, View.ld_unit_zero (S := S256x256) hz, View.ld_unit_zero (S := S256x128) hz, View.ld_unit_zero (S := S1x128) hz, View.ld_unit_zero (S := S128x4) hz, View.ld_unit_zero (S := S1x4) hz, View.ld_unit_zero (S := S128x2) hz, View.ld_unit_zero (S := S1x2) hz, View.ld_unit_zero (S := S128x1) hz, View.ld_unit_zero (S := S1x1) hz]
  refine View.canon_apply_of_pieces (Val := Elt Ideal) (e := .f32)
    (fun y : S4000x4.Idx => boxes normK (blockParams x1 x2 x3 x4 x5 x6 x7 x8 x9 x10 x11 x12 x13 x14 x15 x16 x17 x18 x19 x20 x21 x22) (rowOf x0 (y 0)) (y 1)) _ ?_ (ix2 p q) (cover0_23 _ _ (ix2 p q))
  intro pc hpc x
  simp only [List.mem_cons, List.not_mem_nil, or_false] at hpc
  rcases hpc with rfl | rfl
  · obtain ⟨a, b, rfl⟩ : ∃ (a : Fin 2000) (b : Fin 4), x = ix2 a b := ⟨x 0, x 1, eq_ix2 x⟩
    have e0 : (r0_18.emb (ix2 a b)) 0 = (⟨2000 + a.val, by omega⟩ : Fin 4000) :=
      Fin.ext (by show 2000 + 1 * a.val = 2000 + a.val; omega)
    have e1 : (r0_18.emb (ix2 a b)) 1 = b := Fin.ext (by show 0 + 1 * b.val = b.val; omega)
    show _ = boxes normK (blockParams x1 x2 x3 x4 x5 x6 x7 x8 x9 x10 x11 x12 x13 x14 x15 x16 x17 x18 x19 x20 x21 x22) (rowOf x0 ((r0_18.emb (ix2 a b)) 0)) ((r0_18.emb (ix2 a b)) 1)
    rw [e0, e1, ← row_hi]
    exact boxes_half (View.ld x0 r0_17) x1 x2 x3 x4 x5 x6 x7 x8 x9 x10 x11 x12 x13 x14 x15 x16 x17 x18 x19 x20 x21 x22 a b
  · obtain ⟨a, b, rfl⟩ : ∃ (a : Fin 2000) (b : Fin 4), x = ix2 a b := ⟨x 0, x 1, eq_ix2 x⟩
    have e0 : (r0_14.emb (ix2 a b)) 0 = (⟨a.val, by omega⟩ : Fin 4000) :=
      Fin.ext (by show 0 + 1 * a.val = a.val; omega)
    have e1 : (r0_14.emb (ix2 a b)) 1 = b := Fin.ext (by show 0 + 1 * b.val = b.val; omega)
    show _ = boxes normK (blockParams x1 x2 x3 x4 x5 x6 x7 x8 x9 x10 x11 x12 x13 x14 x15 x16 x17 x18 x19 x20 x21 x22) (rowOf x0 ((r0_14.emb (ix2 a b)) 0)) ((r0_14.emb (ix2 a b)) 1)
    rw [e0, e1, ← row_lo]
    exact boxes_half (View.ld x0 r0_0) x1 x2 x3 x4 x5 x6 x7 x8 x9 x10 x11 x12 x13 x14 x15 x16 x17 x18 x19 x20 x21 x22 a b

end Cert.DetHead.K

end
-- ==== Proof.KOut24.lean ====
/-
  What a grid point leaves in the scales output block.

  The block's 4000 rows are stored as two pieces of 2000 rows; each piece holds, row by row, the scales of the
  corresponding feature row, so the whole block holds at (p, q) the scales of feature row p of the block.
-/
import proofs.«169133_g884763263511_cont_9to1_m_545_24_alg».proof.Proof.KHalf

noncomputable section

namespace Cert.DetHead.K

open Idealize.ShloMosaic Idealize.ShloMosaic.TcCoe Idealize.SL.Sem Idealize.ShloMosaic.ValueIdx Cert.DetHead
open Cert.KernelIdeal Cert.KernelIdeal.Gen

variable [Cert.KernelIdeal.Facts]

theorem scalesBlock : ScalesBlock := by
  intro x0 x1 x2 x3 x4 x5 x6 x7 x8 x9 x10 x11 x12 x13 x14 x15 x16 x17 x18 x19 x20 x21 x22 p q
  unfold out0_24
  simp only [View.ld_unit_zero (S := S512x256) hz, View.ld_unit_zero (S := S1x256) hz, View.ld_unit_zero (S := S256x256) hz, View.ld_unit_zero (S := S256x128) hz, View.ld_unit_zero (S := S1x128) hz, View.ld_unit_zero (S := S128x4) hz, View.ld_unit_zero (S := S1x4) hz, View.ld_unit_zero (S := S128x2) hz, View.ld_unit_zero (S := S1x2) hz, View.ld_unit_zero (S := S128x1) hz, View.ld_unit_zero (S := S1x1) hz]
  refine View.canon_apply_of_pieces (Val := Elt Ideal) (e := .f32)
    (fun y : S4000x2.Idx => scales normK (blockParams x1 x2 x3 x4 x5 x6 x7 x8 x9 x10 x11 x12 x13 x14 x15 x16 x17 x18 x19 x20 x21 x22) (rowOf x0 (y 0)) (y 1)) _ ?_ (ix2 p q) (cover0_24 _ _ (ix2 p q))
  intro pc hpc x
  simp only [List.mem_cons, List.not_mem_nil, or_false] at hpc
  rcases hpc with rfl | rfl
  · obtain ⟨a, b, rfl⟩ : ∃ (a : Fin 2000) (b : Fin 2), x = ix2 a b := ⟨x 0, x 1, eq_ix2 x⟩
    have e0 : (r0_19.emb (ix2 a b)) 0 = (⟨2000 + a.val, by omega⟩ : Fin 4000) :=
      Fin.ext (by show 2000 + 1 * a.val = 2000 + a.val; omega)
    have e1 : (r0_19.emb (ix2 a b)) 1 = b := Fin.ext (by show 0 + 1 * b.val = b.val; omega)
    show _ = scales normK (blockParams x1 x2 x3 x4 x5 x6 x7 x8 x9 x10 x11 x12 x13 x14 x15 x16 x17 x18 x19 x20 x21 x22) (rowOf x0 ((r0_19.emb (ix2 a b)) 0)) ((r0_19.emb (ix2 a b)) 1)
    rw [e0, e1, ← row_hi]
    exact scales_half (View.ld x0 r0_17) x1 x2 x3 x4 x5 x6 x7 x8 x9 x10 x11 x12 x13 x14 x15 x16 x17 x18 x19 x20 x21 x22 a b
  · obtain ⟨a, b, rfl⟩ : ∃ (a : Fin 2000) (b : Fin 2), x = ix2 a b := ⟨x 0, x 1, eq_ix2 x⟩
    have e0 : (r0_15.emb (ix2 a b)) 0 = (⟨a.val, by omega⟩ : Fin 4000) :=
      Fin.ext (by show 0 + 1 * a.val = a.val; omega)
    have e1 : (r0_15.emb (ix2 a b)) 1 = b := Fin.ext (by show 0 + 1 * b.val = b.val; omega)
    show _ = scales normK (blockParams x1 x2 x3 x4 x5 x6 x7 x8 x9 x10 x11 x12 x13 x14 x15 x16 x17 x18 x19 x20 x21 x22) (rowOf x0 ((r0_15.emb (ix2 a b)) 0)) ((r0_15.emb (ix2 a b)) 1)
    rw [e0, e1, ← row_lo]
    exact scales_half (View.ld x0 r0_0) x1 x2 x3 x4 x5 x6 x7 x8 x9 x10 x11 x12 x13 x14 x15 x16 x17 x18 x19 x20 x21 x22 a b

end Cert.DetHead.K

end
-- ==== Proof.KOut25.lean ====
/-
  What a grid point leaves in the context score output block.

  The block's 4000 rows are stored as two pieces of 2000 rows; each piece holds, row by row, the context score of the
  corresponding feature row, so the whole block holds at (p, q) the context score of feature row p of the block.
-/
import proofs.«169133_g884763263511_cont_9to1_m_545_24_alg».proof.Proof.KHalf

noncomputable section

namespace Cert.DetHead.K

open Idealize.ShloMosaic Idealize.ShloMosaic.TcCoe Idealize.SL.Sem Idealize.ShloMosaic.ValueIdx Cert.DetHead
open Cert.KernelIdeal Cert.KernelIdeal.Gen

variable [Cert.KernelIdeal.Facts]

theorem ctxBlock : CtxBlock := by
  intro x0 x1 x2 x3 x4 x5 x6 x7 x8 x9 x10 x11 x12 x13 x14 x15 x16 x17 x18 x19 x20 x21 x22 p q
  unfold out0_25
  simp only [View.ld_unit_zero (S := S512x256) hz, View.ld_unit_zero (S := S1x256) hz, View.ld_unit_zero (S := S256x256) hz, View.ld_unit_zero (S := S256x128) hz, View.ld_unit_zero (S := S1x128) hz, View.ld_unit_zero (S := S128x4) hz, View.ld_unit_zero (S := S1x4) hz, View.ld_unit_zero (S := S128x2) hz, View.ld_unit_zero (S := S1x2) hz, View.ld_unit_zero (S := S128x1) hz, View.ld_unit_zero (S := S1x1) hz]
  refine View.canon_apply_of_pieces (Val := Elt Ideal) (e := .f32)
    (fun y : S4000x1.Idx => ctx normK (blockParams x1 x2 x3 x4 x5 x6 x7 x8 x9 x10 x11 x12 x13 x14 x15 x16 x17 x18 x19 x20 x21 x22) (rowOf x0 (y 0)) (y 1)) _ ?_ (ix2 p q) (cover0_25 _ _ (ix2 p q))
  intro pc hpc x
  simp only [List.mem_cons, List.not_mem_nil, or_false] at hpc
  rcases hpc with rfl | rfl
  · obtain ⟨a, b, rfl⟩ : ∃ (a : Fin 2000) (b : Fin 1), x = ix2 a b := ⟨x 0, x 1, eq_ix2 x⟩
    have e0 : (r0_20.emb (ix2 a b)) 0 = (⟨2000 + a.val, by omega⟩ : Fin 4000) :=
      Fin.ext (by show 2000 + 1 * a.val = 2000 + a.val; omega)
    have e1 : (r0_20.emb (ix2 a b)) 1 = b := Fin.ext (by show 0 + 1 * b.val = b.val; omega)
    show _ = ctx normK (blockParams x1 x2 x3 x4 x5 x6 x7 x8 x9 x10 x11 x12 x13 x14 x15 x16 x17 x18 x19 x20 x21 x22) (rowOf x0 ((r0_20.emb (ix2 a b)) 0)) ((r0_20.emb (ix2 a b)) 1)
    rw [e0, e1, ← row_hi]
    exact ctx_half (View.ld x0 r0_17) x1 x2 x3 x4 x5 x6 x7 x8 x9 x10 x11 x12 x13 x14 x15 x16 x17 x18 x19 x20 x21 x22 a b
  · obtain ⟨a, b, rfl⟩ : ∃ (a : Fin 2000) (b : Fin 1), x = ix2 a b := ⟨x 0, x 1, eq_ix2 x⟩
    have e0 : (r0_16.emb (ix2 a b)) 0 = (⟨a.val, by omega⟩ : Fin 4000) :=
      Fin.ext (by show 0 + 1 * a.val = a.val; omega)
    have e1 : (r0_16.emb (ix2 a b)) 1 = b := Fin.ext (by show 0 + 1 * b.val = b.val; omega)
    show _ = ctx normK (blockParams x1 x2 x3 x4 x5 x6 x7 x8 x9 x10 x11 x12 x13 x14 x15 x16 x17 x18 x19 x20 x21 x22) (rowOf x0 ((r0_16.emb (ix2 a b)) 0)) ((r0_16.emb (ix2 a b)) 1)
    rw [e0, e1, ← row_lo]
    exact ctx_half (View.ld x0 r0_0) x1 x2 x3 x4 x5 x6 x7 x8 x9 x10 x11 x12 x13 x14 x15 x16 x17 x18 x19 x20 x21 x22 a b

end Cert.DetHead.K

end
-- ==== Proof.KConfHalf.lean ====
/-
  The confidence of a half of a grid point's block, read against Spec.

  The confidence's hidden layer takes the trunk against the first 256 rows of the joined weights and the seven head
  outputs against the last seven rows, then adds the bias: Spec's two-sum form, with the seven head outputs read
  through the concatenation as Spec's `combined`.
-/
import proofs.«169133_g884763263511_cont_9to1_m_545_24_alg».proof.Proof.KHalf

noncomputable section

namespace Cert.DetHead.K

open Idealize.ShloMosaic Idealize.ShloMosaic.TcCoe Idealize.SL.Sem Idealize.ShloMosaic.ValueIdx Cert.DetHead
open Cert.KernelIdeal Cert.KernelIdeal.Gen

variable [Cert.KernelIdeal.Facts]

/-- Entry (k, j) of the first 256 rows of the joined weights. -/
theorem fa_entry (x19 : Vec Ideal S263x128 .f32) (k : Fin 256) (j : Fin 128) :
    mat (View.ld x19 r0_12) k j = mat x19 (⟨k.val, by omega⟩ : Fin 263) j := by
  show x19 (r0_12.emb (ix2 k j)) = x19 (ix2 (⟨k.val, by omega⟩ : Fin 263) j)
  refine congrArg x19 (funext fun a => Fin.ext ?_)
  match a with
  | ⟨0, _⟩ => show 0 + 1 * k.val = k.val; omega
  | ⟨1, _⟩ => show 0 + 1 * j.val = j.val; omega

/-- Entry (k, j) of the last seven rows of the joined weights. -/
theorem fb_entry (x19 : Vec Ideal S263x128 .f32) (k : Fin 7) (j : Fin 128) :
    mat (View.ld x19 r0_13) k j = mat x19 (⟨256 + k.val, by omega⟩ : Fin 263) j := by
  show x19 (r0_13.emb (ix2 k j)) = x19 (ix2 (⟨256 + k.val, by omega⟩ : Fin 263) j)
  refine congrArg x19 (funext fun a => Fin.ext ?_)
  match a with
  | ⟨0, _⟩ => show 256 + 1 * k.val = 256 + k.val; omega
  | ⟨1, _⟩ => show 0 + 1 * j.val = j.val; omega

/-- The seven head outputs of a half's row, through the concatenation. -/
theorem comb_half (a0 : Vec Ideal S2000x512 .f32) (x1 : Vec Ideal S512x256 .f32) (x2 : Vec Ideal S1x256 .f32) (x3 : Vec Ideal S1x256 .f32) (x4 : Vec Ideal S1x256 .f32) (x5 : Vec Ideal S256x256 .f32) (x6 : Vec Ideal S1x256 .f32) (x7 : Vec Ideal S256x128 .f32) (x8 : Vec Ideal S1x128 .f32) (x9 : Vec Ideal S128x4 .f32) (x10 : Vec Ideal S1x4 .f32) (x11 : Vec Ideal S256x128 .f32) (x12 : Vec Ideal S1x128 .f32) (x13 : Vec Ideal S128x2 .f32) (x14 : Vec Ideal S1x2 .f32) (x15 : Vec Ideal S256x128 .f32) (x16 : Vec Ideal S1x128 .f32) (x17 : Vec Ideal S128x1 .f32) (x18 : Vec Ideal S1x1 .f32) (x19 : Vec Ideal S263x128 .f32) (x20 : Vec Ideal S1x128 .f32) (x21 : Vec Ideal S128x1 .f32) (x22 : Vec Ideal S1x1 .f32) (p : Fin 2000) (k : Fin 7) :
    combV (boxesV (trunkV a0 x1 x2 x3 x4 x5 x6) x7 x8 x9 x10) (scalesV (trunkV a0 x1 x2 x3 x4 x5 x6) x11 x12 x13 x14)
      (ctxV (trunkV a0 x1 x2 x3 x4 x5 x6) x15 x16 x17 x18) (ix2 p k) = combined normK (blockParams x1 x2 x3 x4 x5 x6 x7 x8 x9 x10 x11 x12 x13 x14 x15 x16 x17 x18 x19 x20 x21 x22) (rowOf a0 p) k := by
  rw [combV_apply]
  unfold combined
  by_cases h4 : k.val < 4
  · rw [dif_pos h4, dif_pos h4]
    exact boxes_half a0 x1 x2 x3 x4 x5 x6 x7 x8 x9 x10 x11 x12 x13 x14 x15 x16 x17 x18 x19 x20 x21 x22 p ⟨k.val, h4⟩
  · rw [dif_neg h4, dif_neg h4]
    by_cases h6 : k.val < 6
    · rw [dif_pos h6, dif_pos h6]
      exact scales_half a0 x1 x2 x3 x4 x5 x6 x7 x8 x9 x10 x11 x12 x13 x14 x15 x16 x17 x18 x19 x20 x21 x22 p ⟨k.val - 4, by omega⟩
    · rw [dif_neg h6, dif_neg h6]
      exact ctx_half a0 x1 x2 x3 x4 x5 x6 x7 x8 x9 x10 x11 x12 x13 x14 x15 x16 x17 x18 x19 x20 x21 x22 p ⟨k.val - 6, by omega⟩

/-- The confidence of a half, at (p, q). -/
theorem conf_half (a0 : Vec Ideal S2000x512 .f32) (x1 : Vec Ideal S512x256 .f32) (x2 : Vec Ideal S1x256 .f32) (x3 : Vec Ideal S1x256 .f32) (x4 : Vec Ideal S1x256 .f32) (x5 : Vec Ideal S256x256 .f32) (x6 : Vec Ideal S1x256 .f32) (x7 : Vec Ideal S256x128 .f32) (x8 : Vec Ideal S1x128 .f32) (x9 : Vec Ideal S128x4 .f32) (x10 : Vec Ideal S1x4 .f32) (x11 : Vec Ideal S256x128 .f32) (x12 : Vec Ideal S1x128 .f32) (x13 : Vec Ideal S128x2 .f32) (x14 : Vec Ideal S1x2 .f32) (x15 : Vec Ideal S256x128 .f32) (x16 : Vec Ideal S1x128 .f32) (x17 : Vec Ideal S128x1 .f32) (x18 : Vec Ideal S1x1 .f32) (x19 : Vec Ideal S263x128 .f32) (x20 : Vec Ideal S1x128 .f32) (x21 : Vec Ideal S128x1 .f32) (x22 : Vec Ideal S1x1 .f32) (p : Fin 2000) (q : Fin 1) :
    confV (trunkV a0 x1 x2 x3 x4 x5 x6)
      (combV (boxesV (trunkV a0 x1 x2 x3 x4 x5 x6) x7 x8 x9 x10) (scalesV (trunkV a0 x1 x2 x3 x4 x5 x6) x11 x12 x13 x14)
        (ctxV (trunkV a0 x1 x2 x3 x4 x5 x6) x15 x16 x17 x18))
      (View.ld x19 r0_12) (View.ld x19 r0_13) x20 x21 x22 (ix2 p q)
      = conf (blockParams x1 x2 x3 x4 x5 x6 x7 x8 x9 x10 x11 x12 x13 x14 x15 x16 x17 x18 x19 x20 x21 x22) (hiddenSplit normK (blockParams x1 x2 x3 x4 x5 x6 x7 x8 x9 x10 x11 x12 x13 x14 x15 x16 x17 x18 x19 x20 x21 x22) (rowOf a0 p)) q := by
  rw [confV_apply]
  show _ = sigm (affine (relu (hiddenSplit normK (blockParams x1 x2 x3 x4 x5 x6 x7 x8 x9 x10 x11 x12 x13 x14 x15 x16 x17 x18 x19 x20 x21 x22) (rowOf a0 p))) (mat x21) (rowVec x22) q)
  refine congrArg (fun hid : Fin 128 → EReal => sigm (affine (relu hid) (mat x21) (rowVec x22) q)) (funext fun j => ?_)
  unfold hiddenSplit
  refine congrArg₂ (· + ·) (congrArg₂ (· + ·) ?_ ?_) rfl
  · refine Finset.sum_congr rfl fun k _ => ?_
    rw [row_trunk, fa_entry]
    rfl
  · refine Finset.sum_congr rfl fun k _ => ?_
    rw [fb_entry]
    refine congrArg₂ (· * ·) ?_ rfl
    exact comb_half a0 x1 x2 x3 x4 x5 x6 x7 x8 x9 x10 x11 x12 x13 x14 x15 x16 x17 x18 x19 x20 x21 x22 p k

end Cert.DetHead.K

end
-- ==== Proof.KOut26.lean ====
/-
  What a grid point leaves in the confidence output block.

  The block's 4000 rows are stored as two pieces of 2000 rows; each piece holds, row by row, the confidence of the
  corresponding feature row, so the whole block holds at (p, q) the confidence of feature row p of the block.
-/
import proofs.«169133_g884763263511_cont_9to1_m_545_24_alg».proof.Proof.KConfHalf

noncomputable section

namespace Cert.DetHead.K

open Idealize.ShloMosaic Idealize.ShloMosaic.TcCoe Idealize.SL.Sem Idealize.ShloMosaic.ValueIdx Cert.DetHead
open Cert.KernelIdeal Cert.KernelIdeal.Gen

variable [Cert.KernelIdeal.Facts]

theorem confBlock : ConfBlock := by
  intro x0 x1 x2 x3 x4 x5 x6 x7 x8 x9 x10 x11 x12 x13 x14 x15 x16 x17 x18 x19 x20 x21 x22 p q
  unfold out0_26
  simp only [View.ld_unit_zero (S := S512x256) hz, View.ld_unit_zero (S := S1x256) hz, View.ld_unit_zero (S := S256x256) hz, View.ld_unit_zero (S := S256x128) hz, View.ld_unit_zero (S := S1x128) hz, View.ld_unit_zero (S := S128x4) hz, View.ld_unit_zero (S := S1x4) hz, View.ld_unit_zero (S := S128x2) hz, View.ld_unit_zero (S := S1x2) hz, View.ld_unit_zero (S := S128x1) hz, View.ld_unit_zero (S := S1x1) hz]
  refine View.canon_apply_of_pieces (Val := Elt Ideal) (e := .f32)
    (fun y : S4000x1.Idx => conf (blockParams x1 x2 x3 x4 x5 x6 x7 x8 x9 x10 x11 x12 x13 x14 x15 x16 x17 x18 x19 x20 x21 x22) (hiddenSplit normK (blockParams x1 x2 x3 x4 x5 x6 x7 x8 x9 x10 x11 x12 x13 x14 x15 x16 x17 x18 x19 x20 x21 x22) (rowOf x0 (y 0))) (y 1)) _ ?_ (ix2 p q) (cover0_26 _ _ (ix2 p q))
  intro pc hpc x
  simp only [List.mem_cons, List.not_mem_nil, or_false] at hpc
  rcases hpc with rfl | rfl
  · obtain ⟨a, b, rfl⟩ : ∃ (a : Fin 2000) (b : Fin 1), x = ix2 a b := ⟨x 0, x 1, eq_ix2 x⟩
    have e0 : (r0_20.emb (ix2 a b)) 0 = (⟨2000 + a.val, by omega⟩ : Fin 4000) :=
      Fin.ext (by show 2000 + 1 * a.val = 2000 + a.val; omega)
    have e1 : (r0_20.emb (ix2 a b)) 1 = b := Fin.ext (by show 0 + 1 * b.val = b.val; omega)
    show _ = conf (blockParams x1 x2 x3 x4 x5 x6 x7 x8 x9 x10 x11 x12 x13 x14 x15 x16 x17 x18 x19 x20 x21 x22) (hiddenSplit normK (blockParams x1 x2 x3 x4 x5 x6 x7 x8 x9 x10 x11 x12 x13 x14 x15 x16 x17 x18 x19 x20 x21 x22) (rowOf x0 ((r0_20.emb (ix2 a b)) 0))) ((r0_20.emb (ix2 a b)) 1)
    rw [e0, e1, ← row_hi]
    exact conf_half (View.ld x0 r0_17) x1 x2 x3 x4 x5 x6 x7 x8 x9 x10 x11 x12 x13 x14 x15 x16 x17 x18 x19 x20 x21 x22 a b
  · obtain ⟨a, b, rfl⟩ : ∃ (a : Fin 2000) (b : Fin 1), x = ix2 a b := ⟨x 0, x 1, eq_ix2 x⟩
    have e0 : (r0_16.emb (ix2 a b)) 0 = (⟨a.val, by omega⟩ : Fin 4000) :=
      Fin.ext (by show 0 + 1 * a.val = a.val; omega)
    have e1 : (r0_16.emb (ix2 a b)) 1 = b := Fin.ext (by show 0 + 1 * b.val = b.val; omega)
    show _ = conf (blockParams x1 x2 x3 x4 x5 x6 x7 x8 x9 x10 x11 x12 x13 x14 x15 x16 x17 x18 x19 x20 x21 x22) (hiddenSplit normK (blockParams x1 x2 x3 x4 x5 x6 x7 x8 x9 x10 x11 x12 x13 x14 x15 x16 x17 x18 x19 x20 x21 x22) (rowOf x0 ((r0_16.emb (ix2 a b)) 0))) ((r0_16.emb (ix2 a b)) 1)
    rw [e0, e1, ← row_lo]
    exact conf_half (View.ld x0 r0_0) x1 x2 x3 x4 x5 x6 x7 x8 x9 x10 x11 x12 x13 x14 x15 x16 x17 x18 x19 x20 x21 x22 a b

end Cert.DetHead.K

end
-- ==== Proof.KBlkParams.lean ====
/-
  The parameter blocks a grid point holds are the parameters themselves.

  Every parameter window has the index map (0, 0) at every grid point and a block as large as its array, so the block
  read at an index is the array read at the same index. A matrix's array is the argument itself. A bias's array is
  the one-row array that a broadcast of the bias vector along a new leading axis wrote before the region; its one
  row read at position q is the vector at q. So the parameters read off the blocks are the parameters read off the
  arguments.
-/
import proofs.«169133_g884763263511_cont_9to1_m_545_24_alg».proof.Proof.Gen.KernelIdeal.Value
import proofs.«169133_g884763263511_cont_9to1_m_545_24_alg».proof.Proof.KBlockSpec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.DetHead.KBlk

open Cert.DetHead Cert.KernelIdeal Cert.KernelIdeal.Gen

variable [Cert.KernelIdeal.Facts]
variable (m : (ℓ : Loc nD τ sig) → Buf (Elt Ideal) ℓ) (ρ : Dev nD → PrngReg)

/-! ## The index maps of the parameter windows, decided over the grid -/

theorem idx_1 : ∀ t : Fin cfg0.N, win0_1.index t (0 : Fin 2) = 0 ∧ win0_1.index t (1 : Fin 2) = 0 :=
  (by decide +kernel : ∀ t : Fin grid0.N, _)

theorem idx_2 : ∀ t : Fin cfg0.N, win0_2.index t (0 : Fin 2) = 0 ∧ win0_2.index t (1 : Fin 2) = 0 :=
  (by decide +kernel : ∀ t : Fin grid0.N, _)

theorem idx_3 : ∀ t : Fin cfg0.N, win0_3.index t (0 : Fin 2) = 0 ∧ win0_3.index t (1 : Fin 2) = 0 :=
  (by decide +kernel : ∀ t : Fin grid0.N, _)

theorem idx_4 : ∀ t : Fin cfg0.N, win0_4.index t (0 : Fin 2) = 0 ∧ win0_4.index t (1 : Fin 2) = 0 :=
  (by decide +kernel : ∀ t : Fin grid0.N, _)

theorem idx_5 : ∀ t : Fin cfg0.N, win0_5.index t (0 : Fin 2) = 0 ∧ win0_5.index t (1 : Fin 2) = 0 :=
  (by decide +kernel : ∀ t : Fin grid0.N, _)

theorem idx_6 : ∀ t : Fin cfg0.N, win0_6.index t (0 : Fin 2) = 0 ∧ win0_6.index t (1 : Fin 2) = 0 :=
  (by decide +kernel : ∀ t : Fin grid0.N, _)

theorem idx_7 : ∀ t : Fin cfg0.N, win0_7.index t (0 : Fin 2) = 0 ∧ win0_7.index t (1 : Fin 2) = 0 :=
  (by decide +kernel : ∀ t : Fin grid0.N, _)

theorem idx_8 : ∀ t : Fin cfg0.N, win0_8.index t (0 : Fin 2) = 0 ∧ win0_8.index t (1 : Fin 2) = 0 :=
  (by decide +kernel : ∀ t : Fin grid0.N, _)

theorem idx_9 : ∀ t : Fin cfg0.N, win0_9.index t (0 : Fin 2) = 0 ∧ win0_9.index t (1 : Fin 2) = 0 :=
  (by decide +kernel : ∀ t : Fin grid0.N, _)

theorem idx_10 : ∀ t : Fin cfg0.N, win0_10.index t (0 : Fin 2) = 0 ∧ win0_10.index t (1 : Fin 2) = 0 :=
  (by decide +kernel : ∀ t : Fin grid0.N, _)

theorem idx_11 : ∀ t : Fin cfg0.N, win0_11.index t (0 : Fin 2) = 0 ∧ win0_11.index t (1 : Fin 2) = 0 :=
  (by decide +kernel : ∀ t : Fin grid0.N, _)

theorem idx_12 : ∀ t : Fin cfg0.N, win0_12.index t (0 : Fin 2) = 0 ∧ win0_12.index t (1 : Fin 2) = 0 :=
  (by decide +kernel : ∀ t : Fin grid0.N, _)

theorem idx_13 : ∀ t : Fin cfg0.N, win0_13.index t (0 : Fin 2) = 0 ∧ win0_13.index t (1 : Fin 2) = 0 :=
  (by decide +kernel : ∀ t : Fin grid0.N, _)

theorem idx_14 : ∀ t : Fin cfg0.N, win0_14.index t (0 : Fin 2) = 0 ∧ win0_14.index t (1 : Fin 2) = 0 :=
  (by decide +kernel : ∀ t : Fin grid0.N, _)

theorem idx_15 : ∀ t : Fin cfg0.N, win0_15.index t (0 : Fin 2) = 0 ∧ win0_15.index t (1 : Fin 2) = 0 :=
  (by decide +kernel : ∀ t : Fin grid0.N, _)

theorem idx_16 : ∀ t : Fin cfg0.N, win0_16.index t (0 : Fin 2) = 0 ∧ win0_16.index t (1 : Fin 2) = 0 :=
  (by decide +kernel : ∀ t : Fin grid0.N, _)

theorem idx_17 : ∀ t : Fin cfg0.N, win0_17.index t (0 : Fin 2) = 0 ∧ win0_17.index t (1 : Fin 2) = 0 :=
  (by decide +kernel : ∀ t : Fin grid0.N, _)

theorem idx_18 : ∀ t : Fin cfg0.N, win0_18.index t (0 : Fin 2) = 0 ∧ win0_18.index t (1 : Fin 2) = 0 :=
  (by decide +kernel : ∀ t : Fin grid0.N, _)

theorem idx_19 : ∀ t : Fin cfg0.N, win0_19.index t (0 : Fin 2) = 0 ∧ win0_19.index t (1 : Fin 2) = 0 :=
  (by decide +kernel : ∀ t : Fin grid0.N, _)

theorem idx_20 : ∀ t : Fin cfg0.N, win0_20.index t (0 : Fin 2) = 0 ∧ win0_20.index t (1 : Fin 2) = 0 :=
  (by decide +kernel : ∀ t : Fin grid0.N, _)

theorem idx_21 : ∀ t : Fin cfg0.N, win0_21.index t (0 : Fin 2) = 0 ∧ win0_21.index t (1 : Fin 2) = 0 :=
  (by decide +kernel : ∀ t : Fin grid0.N, _)

theorem idx_22 : ∀ t : Fin cfg0.N, win0_22.index t (0 : Fin 2) = 0 ∧ win0_22.index t (1 : Fin 2) = 0 :=
  (by decide +kernel : ∀ t : Fin grid0.N, _)

/-! ## The one-row arrays written before the region -/

/-- The one-row array of bias 2 is the bias vector broadcast along a new leading axis. -/
theorem host_0 (c : Dev nD) : (V m c main_call0_v0 : S1x256.Idx → EReal)
    = broadcastInDim S1x256 ![1] bcast_S256_S1x256_1 (m ((c : Thread nD τ).loc main_arg2)) := by
  dsimp only [Gen.V, Gen.hostOps0]; after_results; rfl

/-- The one-row array of bias 3 is the bias vector broadcast along a new leading axis. -/
theorem host_1 (c : Dev nD) : (V m c main_call0_v1 : S1x256.Idx → EReal)
    = broadcastInDim S1x256 ![1] bcast_S256_S1x256_1 (m ((c : Thread nD τ).loc main_arg3)) := by
  dsimp only [Gen.V, Gen.hostOps0]; after_results; rfl

/-- The one-row array of bias 4 is the bias vector broadcast along a new leading axis. -/
theorem host_2 (c : Dev nD) : (V m c main_call0_v2 : S1x256.Idx → EReal)
    = broadcastInDim S1x256 ![1] bcast_S256_S1x256_1 (m ((c : Thread nD τ).loc main_arg4)) := by
  dsimp only [Gen.V, Gen.hostOps0]; after_results; rfl

/-- The one-row array of bias 6 is the bias vector broadcast along a new leading axis. -/
theorem host_3 (c : Dev nD) : (V m c main_call0_v3 : S1x256.Idx → EReal)
    = broadcastInDim S1x256 ![1] bcast_S256_S1x256_1 (m ((c : Thread nD τ).loc main_arg6)) := by
  dsimp only [Gen.V, Gen.hostOps0]; after_results; rfl

/-- The one-row array of bias 8 is the bias vector broadcast along a new leading axis. -/
theorem host_4 (c : Dev nD) : (V m c main_call0_v4 : S1x128.Idx → EReal)
    = broadcastInDim S1x128 ![1] bcast_S128_S1x128_1 (m ((c : Thread nD τ).loc main_arg8)) := by
  dsimp only [Gen.V, Gen.hostOps0]; after_results; rfl

/-- The one-row array of bias 10 is the bias vector broadcast along a new leading axis. -/
theorem host_5 (c : Dev nD) : (V m c main_call0_v5 : S1x4.Idx → EReal)
    = broadcastInDim S1x4 ![1] bcast_S4_S1x4_1 (m ((c : Thread nD τ).loc main_arg10)) := by
  dsimp only [Gen.V, Gen.hostOps0]; after_results; rfl

/-- The one-row array of bias 12 is the bias vector broadcast along a new leading axis. -/
theorem host_6 (c : Dev nD) : (V m c main_call0_v6 : S1x128.Idx → EReal)
    = broadcastInDim S1x128 ![1] bcast_S128_S1x128_1 (m ((c : Thread nD τ).loc main_arg12)) := by
  dsimp only [Gen.V, Gen.hostOps0]; after_results; rfl

/-- The one-row array of bias 14 is the bias vector broadcast along a new leading axis. -/
theorem host_7 (c : Dev nD) : (V m c main_call0_v7 : S1x2.Idx → EReal)
    = broadcastInDim S1x2 ![1] bcast_S2_S1x2_1 (m ((c : Thread nD τ).loc main_arg14)) := by
  dsimp only [Gen.V, Gen.hostOps0]; after_results; rfl

/-- The one-row array of bias 16 is the bias vector broadcast along a new leading axis. -/
theorem host_8 (c : Dev nD) : (V m c main_call0_v8 : S1x128.Idx → EReal)
    = broadcastInDim S1x128 ![1] bcast_S128_S1x128_1 (m ((c : Thread nD τ).loc main_arg16)) := by
  dsimp only [Gen.V, Gen.hostOps0]; after_results; rfl

/-- The one-row array of bias 18 is the bias vector broadcast along a new leading axis. -/
theorem host_9 (c : Dev nD) : (V m c main_call0_v9 : S1x1.Idx → EReal)
    = broadcastInDim S1x1 ![1] bcast_S1_S1x1_1 (m ((c : Thread nD τ).loc main_arg18)) := by
  dsimp only [Gen.V, Gen.hostOps0]; after_results; rfl

/-- The one-row array of bias 20 is the bias vector broadcast along a new leading axis. -/
theorem host_10 (c : Dev nD) : (V m c main_call0_v10 : S1x128.Idx → EReal)
    = broadcastInDim S1x128 ![1] bcast_S128_S1x128_1 (m ((c : Thread nD τ).loc main_arg20)) := by
  dsimp only [Gen.V, Gen.hostOps0]; after_results; rfl

/-- The one-row array of bias 22 is the bias vector broadcast along a new leading axis. -/
theorem host_11 (c : Dev nD) : (V m c main_call0_v11 : S1x1.Idx → EReal)
    = broadcastInDim S1x1 ![1] bcast_S1_S1x1_1 (m ((c : Thread nD τ).loc main_arg22)) := by
  dsimp only [Gen.V, Gen.hostOps0]; after_results; rfl

/-! ## Each parameter block read off its argument -/

/-- The block of window 1 is the whole of matrix 1. -/
theorem blk_1 (c : Dev nD) (t : Fin cfg0.N) :
    (iblk m c 1 t : S512x256.Idx → EReal) = (m ((c : Thread nD τ).loc main_arg1)) := by
  refine funext fun (y : S512x256.Idx) => ?_
  unfold iblk
  rw [View.read_apply]
  show V m c main_arg1 (((cfg0.win 1).blk t).view.emb y) = (m ((c : Thread nD τ).loc main_arg1)) y
  rw [V_main_arg1]
  refine congrArg (m ((c : Thread nD τ).loc main_arg1)) ?_
  obtain ⟨e0, e1⟩ := idx_1 t
  funext a
  apply Fin.ext
  match a with
  | ⟨0, _⟩ => show win0_1.index t (0 : Fin 2) * 512 + 1 * (y 0).val = (y 0).val; omega
  | ⟨1, _⟩ => show win0_1.index t (1 : Fin 2) * 256 + 1 * (y 1).val = (y 1).val; omega

/-- The one row of the block of window 2 is bias vector 2. -/
theorem blk_2 (c : Dev nD) (t : Fin cfg0.N) :
    K.rowVec (iblk m c 2 t : S1x256.Idx → EReal) = vec (m ((c : Thread nD τ).loc main_arg2)) := by
  refine funext fun (q : Fin 256) => ?_
  show (iblk m c 2 t : S1x256.Idx → EReal) (ix2 (0 : Fin 1) q) = (m ((c : Thread nD τ).loc main_arg2)) (ix1 q)
  unfold iblk
  rw [View.read_apply]
  show V m c main_call0_v0 (((cfg0.win 2).blk t).view.emb (ix2 (0 : Fin 1) q)) = _
  rw [host_0]
  obtain ⟨e0, e1⟩ := idx_2 t
  have hq : q.val < 256 := q.isLt
  refine broadcastInDim_apply _ _ _ _ (ix1 q) fun a => ?_
  match a with
  | ⟨0, _⟩ =>
    show q.val = if (256 : Nat) = 1 then 0 else win0_2.index t (1 : Fin 2) * 256 + 1 * q.val
    split <;> omega

/-- The one row of the block of window 3 is bias vector 3. -/
theorem blk_3 (c : Dev nD) (t : Fin cfg0.N) :
    K.rowVec (iblk m c 3 t : S1x256.Idx → EReal) = vec (m ((c : Thread nD τ).loc main_arg3)) := by
  refine funext fun (q : Fin 256) => ?_
  show (iblk m c 3 t : S1x256.Idx → EReal) (ix2 (0 : Fin 1) q) = (m ((c : Thread nD τ).loc main_arg3)) (ix1 q)
  unfold iblk
  rw [View.read_apply]
  show V m c main_call0_v1 (((cfg0.win 3).blk t).view.emb (ix2 (0 : Fin 1) q)) = _
  rw [host_1]
  obtain ⟨e0, e1⟩ := idx_3 t
  have hq : q.val < 256 := q.isLt
  refine broadcastInDim_apply _ _ _ _ (ix1 q) fun a => ?_
  match a with
  | ⟨0, _⟩ =>
    show q.val = if (256 : Nat) = 1 then 0 else win0_3.index t (1 : Fin 2) * 256 + 1 * q.val
    split <;> omega

/-- The one row of the block of window 4 is bias vector 4. -/
theorem blk_4 (c : Dev nD) (t : Fin cfg0.N) :
    K.rowVec (iblk m c 4 t : S1x256.Idx → EReal) = vec (m ((c : Thread nD τ).loc main_arg4)) := by
  refine funext fun (q : Fin 256) => ?_
  show (iblk m c 4 t : S1x256.Idx → EReal) (ix2 (0 : Fin 1) q) = (m ((c : Thread nD τ).loc main_arg4)) (ix1 q)
  unfold iblk
  rw [View.read_apply]
  show V m c main_call0_v2 (((cfg0.win 4).blk t).view.emb (ix2 (0 : Fin 1) q)) = _
  rw [host_2]
  obtain ⟨e0, e1⟩ := idx_4 t
  have hq : q.val < 256 := q.isLt
  refine broadcastInDim_apply _ _ _ _ (ix1 q) fun a => ?_
  match a with
  | ⟨0, _⟩ =>
    show q.val = if (256 : Nat) = 1 then 0 else win0_4.index t (1 : Fin 2) * 256 + 1 * q.val
    split <;> omega

/-- The block of window 5 is the whole of matrix 5. -/
theorem blk_5 (c : Dev nD) (t : Fin cfg0.N) :
    (iblk m c 5 t : S256x256.Idx → EReal) = (m ((c : Thread nD τ).loc main_arg5)) := by
  refine funext fun (y : S256x256.Idx) => ?_
  unfold iblk
  rw [View.read_apply]
  show V m c main_arg5 (((cfg0.win 5).blk t).view.emb y) = (m ((c : Thread nD τ).loc main_arg5)) y
  rw [V_main_arg5]
  refine congrArg (m ((c : Thread nD τ).loc main_arg5)) ?_
  obtain ⟨e0, e1⟩ := idx_5 t
  funext a
  apply Fin.ext
  match a with
  | ⟨0, _⟩ => show win0_5.index t (0 : Fin 2) * 256 + 1 * (y 0).val = (y 0).val; omega
  | ⟨1, _⟩ => show win0_5.index t (1 : Fin 2) * 256 + 1 * (y 1).val = (y 1).val; omega

/-- The one row of the block of window 6 is bias vector 6. -/
theorem blk_6 (c : Dev nD) (t : Fin cfg0.N) :
    K.rowVec (iblk m c 6 t : S1x256.Idx → EReal) = vec (m ((c : Thread nD τ).loc main_arg6)) := by
  refine funext fun (q : Fin 256) => ?_
  show (iblk m c 6 t : S1x256.Idx → EReal) (ix2 (0 : Fin 1) q) = (m ((c : Thread nD τ).loc main_arg6)) (ix1 q)
  unfold iblk
  rw [View.read_apply]
  show V m c main_call0_v3 (((cfg0.win 6).blk t).view.emb (ix2 (0 : Fin 1) q)) = _
  rw [host_3]
  obtain ⟨e0, e1⟩ := idx_6 t
  have hq : q.val < 256 := q.isLt
  refine broadcastInDim_apply _ _ _ _ (ix1 q) fun a => ?_
  match a with
  | ⟨0, _⟩ =>
    show q.val = if (256 : Nat) = 1 then 0 else win0_6.index t (1 : Fin 2) * 256 + 1 * q.val
    split <;> omega

/-- The block of window 7 is the whole of matrix 7. -/
theorem blk_7 (c : Dev nD) (t : Fin cfg0.N) :
    (iblk m c 7 t : S256x128.Idx → EReal) = (m ((c : Thread nD τ).loc main_arg7)) := by
  refine funext fun (y : S256x128.Idx) => ?_
  unfold iblk
  rw [View.read_apply]
  show V m c main_arg7 (((cfg0.win 7).blk t).view.emb y) = (m ((c : Thread nD τ).loc main_arg7)) y
  rw [V_main_arg7]
  refine congrArg (m ((c : Thread nD τ).loc main_arg7)) ?_
  obtain ⟨e0, e1⟩ := idx_7 t
  funext a
  apply Fin.ext
  match a with
  | ⟨0, _⟩ => show win0_7.index t (0 : Fin 2) * 256 + 1 * (y 0).val = (y 0).val; omega
  | ⟨1, _⟩ => show win0_7.index t (1 : Fin 2) * 128 + 1 * (y 1).val = (y 1).val; omega

/-- The one row of the block of window 8 is bias vector 8. -/
theorem blk_8 (c : Dev nD) (t : Fin cfg0.N) :
    K.rowVec (iblk m c 8 t : S1x128.Idx → EReal) = vec (m ((c : Thread nD τ).loc main_arg8)) := by
  refine funext fun (q : Fin 128) => ?_
  show (iblk m c 8 t : S1x128.Idx → EReal) (ix2 (0 : Fin 1) q) = (m ((c : Thread nD τ).loc main_arg8)) (ix1 q)
  unfold iblk
  rw [View.read_apply]
  show V m c main_call0_v4 (((cfg0.win 8).blk t).view.emb (ix2 (0 : Fin 1) q)) = _
  rw [host_4]
  obtain ⟨e0, e1⟩ := idx_8 t
  have hq : q.val < 128 := q.isLt
  refine broadcastInDim_apply _ _ _ _ (ix1 q) fun a => ?_
  match a with
  | ⟨0, _⟩ =>
    show q.val = if (128 : Nat) = 1 then 0 else win0_8.index t (1 : Fin 2) * 128 + 1 * q.val
    split <;> omega

/-- The block of window 9 is the whole of matrix 9. -/
theorem blk_9 (c : Dev nD) (t : Fin cfg0.N) :
    (iblk m c 9 t : S128x4.Idx → EReal) = (m ((c : Thread nD τ).loc main_arg9)) := by
  refine funext fun (y : S128x4.Idx) => ?_
  unfold iblk
  rw [View.read_apply]
  show V m c main_arg9 (((cfg0.win 9).blk t).view.emb y) = (m ((c : Thread nD τ).loc main_arg9)) y
  rw [V_main_arg9]
  refine congrArg (m ((c : Thread nD τ).loc main_arg9)) ?_
  obtain ⟨e0, e1⟩ := idx_9 t
  funext a
  apply Fin.ext
  match a with
  | ⟨0, _⟩ => show win0_9.index t (0 : Fin 2) * 128 + 1 * (y 0).val = (y 0).val; omega
  | ⟨1, _⟩ => show win0_9.index t (1 : Fin 2) * 4 + 1 * (y 1).val = (y 1).val; omega

/-- The one row of the block of window 10 is bias vector 10. -/
theorem blk_10 (c : Dev nD) (t : Fin cfg0.N) :
    K.rowVec (iblk m c 10 t : S1x4.Idx → EReal) = vec (m ((c : Thread nD τ).loc main_arg10)) := by
  refine funext fun (q : Fin 4) => ?_
  show (iblk m c 10 t : S1x4.Idx → EReal) (ix2 (0 : Fin 1) q) = (m ((c : Thread nD τ).loc main_arg10)) (ix1 q)
  unfold iblk
  rw [View.read_apply]
  show V m c main_call0_v5 (((cfg0.win 10).blk t).view.emb (ix2 (0 : Fin 1) q)) = _
  rw [host_5]
  obtain ⟨e0, e1⟩ := idx_10 t
  have hq : q.val < 4 := q.isLt
  refine broadcastInDim_apply _ _ _ _ (ix1 q) fun a => ?_
  match a with
  | ⟨0, _⟩ =>
    show q.val = if (4 : Nat) = 1 then 0 else win0_10.index t (1 : Fin 2) * 4 + 1 * q.val
    split <;> omega

/-- The block of window 11 is the whole of matrix 11. -/
theorem blk_11 (c : Dev nD) (t : Fin cfg0.N) :
    (iblk m c 11 t : S256x128.Idx → EReal) = (m ((c : Thread nD τ).loc main_arg11)) := by
  refine funext fun (y : S256x128.Idx) => ?_
  unfold iblk
  rw [View.read_apply]
  show V m c main_arg11 (((cfg0.win 11).blk t).view.emb y) = (m ((c : Thread nD τ).loc main_arg11)) y
  rw [V_main_arg11]
  refine congrArg (m ((c : Thread nD τ).loc main_arg11)) ?_
  obtain ⟨e0, e1⟩ := idx_11 t
  funext a
  apply Fin.ext
  match a with
  | ⟨0, _⟩ => show win0_11.index t (0 : Fin 2) * 256 + 1 * (y 0).val = (y 0).val; omega
  | ⟨1, _⟩ => show win0_11.index t (1 : Fin 2) * 128 + 1 * (y 1).val = (y 1).val; omega

/-- The one row of the block of window 12 is bias vector 12. -/
theorem blk_12 (c : Dev nD) (t : Fin cfg0.N) :
    K.rowVec (iblk m c 12 t : S1x128.Idx → EReal) = vec (m ((c : Thread nD τ).loc main_arg12)) := by
  refine funext fun (q : Fin 128) => ?_
  show (iblk m c 12 t : S1x128.Idx → EReal) (ix2 (0 : Fin 1) q) = (m ((c : Thread nD τ).loc main_arg12)) (ix1 q)
  unfold iblk
  rw [View.read_apply]
  show V m c main_call0_v6 (((cfg0.win 12).blk t).view.emb (ix2 (0 : Fin 1) q)) = _
  rw [host_6]
  obtain ⟨e0, e1⟩ := idx_12 t
  have hq : q.val < 128 := q.isLt
  refine broadcastInDim_apply _ _ _ _ (ix1 q) fun a => ?_
  match a with
  | ⟨0, _⟩ =>
    show q.val = if (128 : Nat) = 1 then 0 else win0_12.index t (1 : Fin 2) * 128 + 1 * q.val
    split <;> omega

/-- The block of window 13 is the whole of matrix 13. -/
theorem blk_13 (c : Dev nD) (t : Fin cfg0.N) :
    (iblk m c 13 t : S128x2.Idx → EReal) = (m ((c : Thread nD τ).loc main_arg13)) := by
  refine funext fun (y : S128x2.Idx) => ?_
  unfold iblk
  rw [View.read_apply]
  show V m c main_arg13 (((cfg0.win 13).blk t).view.emb y) = (m ((c : Thread nD τ).loc main_arg13)) y
  rw [V_main_arg13]
  refine congrArg (m ((c : Thread nD τ).loc main_arg13)) ?_
  obtain ⟨e0, e1⟩ := idx_13 t
  funext a
  apply Fin.ext
  match a with
  | ⟨0, _⟩ => show win0_13.index t (0 : Fin 2) * 128 + 1 * (y 0).val = (y 0).val; omega
  | ⟨1, _⟩ => show win0_13.index t (1 : Fin 2) * 2 + 1 * (y 1).val = (y 1).val; omega

/-- The one row of the block of window 14 is bias vector 14. -/
theorem blk_14 (c : Dev nD) (t : Fin cfg0.N) :
    K.rowVec (iblk m c 14 t : S1x2.Idx → EReal) = vec (m ((c : Thread nD τ).loc main_arg14)) := by
  refine funext fun (q : Fin 2) => ?_
  show (iblk m c 14 t : S1x2.Idx → EReal) (ix2 (0 : Fin 1) q) = (m ((c : Thread nD τ).loc main_arg14)) (ix1 q)
  unfold iblk
  rw [View.read_apply]
  show V m c main_call0_v7 (((cfg0.win 14).blk t).view.emb (ix2 (0 : Fin 1) q)) = _
  rw [host_7]
  obtain ⟨e0, e1⟩ := idx_14 t
  have hq : q.val < 2 := q.isLt
  refine broadcastInDim_apply _ _ _ _ (ix1 q) fun a => ?_
  match a with
  | ⟨0, _⟩ =>
    show q.val = if (2 : Nat) = 1 then 0 else win0_14.index t (1 : Fin 2) * 2 + 1 * q.val
    split <;> omega

/-- The block of window 15 is the whole of matrix 15. -/
theorem blk_15 (c : Dev nD) (t : Fin cfg0.N) :
    (iblk m c 15 t : S256x128.Idx → EReal) = (m ((c : Thread nD τ).loc main_arg15)) := by
  refine funext fun (y : S256x128.Idx) => ?_
  unfold iblk
  rw [View.read_apply]
  show V m c main_arg15 (((cfg0.win 15).blk t).view.emb y) = (m ((c : Thread nD τ).loc main_arg15)) y
  rw [V_main_arg15]
  refine congrArg (m ((c : Thread nD τ).loc main_arg15)) ?_
  obtain ⟨e0, e1⟩ := idx_15 t
  funext a
  apply Fin.ext
  match a with
  | ⟨0, _⟩ => show win0_15.index t (0 : Fin 2) * 256 + 1 * (y 0).val = (y 0).val; omega
  | ⟨1, _⟩ => show win0_15.index t (1 : Fin 2) * 128 + 1 * (y 1).val = (y 1).val; omega

/-- The one row of the block of window 16 is bias vector 16. -/
theorem blk_16 (c : Dev nD) (t : Fin cfg0.N) :
    K.rowVec (iblk m c 16 t : S1x128.Idx → EReal) = vec (m ((c : Thread nD τ).loc main_arg16)) := by
  refine funext fun (q : Fin 128) => ?_
  show (iblk m c 16 t : S1x128.Idx → EReal) (ix2 (0 : Fin 1) q) = (m ((c : Thread nD τ).loc main_arg16)) (ix1 q)
  unfold iblk
  rw [View.read_apply]
  show V m c main_call0_v8 (((cfg0.win 16).blk t).view.emb (ix2 (0 : Fin 1) q)) = _
  rw [host_8]
  obtain ⟨e0, e1⟩ := idx_16 t
  have hq : q.val < 128 := q.isLt
  refine broadcastInDim_apply _ _ _ _ (ix1 q) fun a => ?_
  match a with
  | ⟨0, _⟩ =>
    show q.val = if (128 : Nat) = 1 then 0 else win0_16.index t (1 : Fin 2) * 128 + 1 * q.val
    split <;> omega

/-- The block of window 17 is the whole of matrix 17. -/
theorem blk_17 (c : Dev nD) (t : Fin cfg0.N) :
    (iblk m c 17 t : S128x1.Idx → EReal) = (m ((c : Thread nD τ).loc main_arg17)) := by
  refine funext fun (y : S128x1.Idx) => ?_
  unfold iblk
  rw [View.read_apply]
  show V m c main_arg17 (((cfg0.win 17).blk t).view.emb y) = (m ((c : Thread nD τ).loc main_arg17)) y
  rw [V_main_arg17]
  refine congrArg (m ((c : Thread nD τ).loc main_arg17)) ?_
  obtain ⟨e0, e1⟩ := idx_17 t
  funext a
  apply Fin.ext
  match a with
  | ⟨0, _⟩ => show win0_17.index t (0 : Fin 2) * 128 + 1 * (y 0).val = (y 0).val; omega
  | ⟨1, _⟩ => show win0_17.index t (1 : Fin 2) * 1 + 1 * (y 1).val = (y 1).val; omega

/-- The one row of the block of window 18 is bias vector 18. -/
theorem blk_18 (c : Dev nD) (t : Fin cfg0.N) :
    K.rowVec (iblk m c 18 t : S1x1.Idx → EReal) = vec (m ((c : Thread nD τ).loc main_arg18)) := by
  refine funext fun (q : Fin 1) => ?_
  show (iblk m c 18 t : S1x1.Idx → EReal) (ix2 (0 : Fin 1) q) = (m ((c : Thread nD τ).loc main_arg18)) (ix1 q)
  unfold iblk
  rw [View.read_apply]
  show V m c main_call0_v9 (((cfg0.win 18).blk t).view.emb (ix2 (0 : Fin 1) q)) = _
  rw [host_9]
  obtain ⟨e0, e1⟩ := idx_18 t
  have hq : q.val < 1 := q.isLt
  refine broadcastInDim_apply _ _ _ _ (ix1 q) fun a => ?_
  match a with
  | ⟨0, _⟩ =>
    show q.val = if (1 : Nat) = 1 then 0 else win0_18.index t (1 : Fin 2) * 1 + 1 * q.val
    split <;> omega

/-- The block of window 19 is the whole of matrix 19. -/
theorem blk_19 (c : Dev nD) (t : Fin cfg0.N) :
    (iblk m c 19 t : S263x128.Idx → EReal) = (m ((c : Thread nD τ).loc main_arg19)) := by
  refine funext fun (y : S263x128.Idx) => ?_
  unfold iblk
  rw [View.read_apply]
  show V m c main_arg19 (((cfg0.win 19).blk t).view.emb y) = (m ((c : Thread nD τ).loc main_arg19)) y
  rw [V_main_arg19]
  refine congrArg (m ((c : Thread nD τ).loc main_arg19)) ?_
  obtain ⟨e0, e1⟩ := idx_19 t
  funext a
  apply Fin.ext
  match a with
  | ⟨0, _⟩ => show win0_19.index t (0 : Fin 2) * 263 + 1 * (y 0).val = (y 0).val; omega
  | ⟨1, _⟩ => show win0_19.index t (1 : Fin 2) * 128 + 1 * (y 1).val = (y 1).val; omega

/-- The one row of the block of window 20 is bias vector 20. -/
theorem blk_20 (c : Dev nD) (t : Fin cfg0.N) :
    K.rowVec (iblk m c 20 t : S1x128.Idx → EReal) = vec (m ((c : Thread nD τ).loc main_arg20)) := by
  refine funext fun (q : Fin 128) => ?_
  show (iblk m c 20 t : S1x128.Idx → EReal) (ix2 (0 : Fin 1) q) = (m ((c : Thread nD τ).loc main_arg20)) (ix1 q)
  unfold iblk
  rw [View.read_apply]
  show V m c main_call0_v10 (((cfg0.win 20).blk t).view.emb (ix2 (0 : Fin 1) q)) = _
  rw [host_10]
  obtain ⟨e0, e1⟩ := idx_20 t
  have hq : q.val < 128 := q.isLt
  refine broadcastInDim_apply _ _ _ _ (ix1 q) fun a => ?_
  match a with
  | ⟨0, _⟩ =>
    show q.val = if (128 : Nat) = 1 then 0 else win0_20.index t (1 : Fin 2) * 128 + 1 * q.val
    split <;> omega

/-- The block of window 21 is the whole of matrix 21. -/
theorem blk_21 (c : Dev nD) (t : Fin cfg0.N) :
    (iblk m c 21 t : S128x1.Idx → EReal) = (m ((c : Thread nD τ).loc main_arg21)) := by
  refine funext fun (y : S128x1.Idx) => ?_
  unfold iblk
  rw [View.read_apply]
  show V m c main_arg21 (((cfg0.win 21).blk t).view.emb y) = (m ((c : Thread nD τ).loc main_arg21)) y
  rw [V_main_arg21]
  refine congrArg (m ((c : Thread nD τ).loc main_arg21)) ?_
  obtain ⟨e0, e1⟩ := idx_21 t
  funext a
  apply Fin.ext
  match a with
  | ⟨0, _⟩ => show win0_21.index t (0 : Fin 2) * 128 + 1 * (y 0).val = (y 0).val; omega
  | ⟨1, _⟩ => show win0_21.index t (1 : Fin 2) * 1 + 1 * (y 1).val = (y 1).val; omega

/-- The one row of the block of window 22 is bias vector 22. -/
theorem blk_22 (c : Dev nD) (t : Fin cfg0.N) :
    K.rowVec (iblk m c 22 t : S1x1.Idx → EReal) = vec (m ((c : Thread nD τ).loc main_arg22)) := by
  refine funext fun (q : Fin 1) => ?_
  show (iblk m c 22 t : S1x1.Idx → EReal) (ix2 (0 : Fin 1) q) = (m ((c : Thread nD τ).loc main_arg22)) (ix1 q)
  unfold iblk
  rw [View.read_apply]
  show V m c main_call0_v11 (((cfg0.win 22).blk t).view.emb (ix2 (0 : Fin 1) q)) = _
  rw [host_11]
  obtain ⟨e0, e1⟩ := idx_22 t
  have hq : q.val < 1 := q.isLt
  refine broadcastInDim_apply _ _ _ _ (ix1 q) fun a => ?_
  match a with
  | ⟨0, _⟩ =>
    show q.val = if (1 : Nat) = 1 then 0 else win0_22.index t (1 : Fin 2) * 1 + 1 * q.val
    split <;> omega

/-! ## The parameters read off the blocks are the parameters read off the arguments -/

theorem params_eq (c : Dev nD) (t : Fin cfg0.N) :
    K.blockParams (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)
      = paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  unfold K.blockParams paramsOf
  congr 1
  · exact congrArg mat (blk_1 m c t)
  · exact blk_2 m c t
  · exact blk_3 m c t
  · exact blk_4 m c t
  · exact congrArg mat (blk_5 m c t)
  · exact blk_6 m c t
  · exact congrArg mat (blk_7 m c t)
  · exact blk_8 m c t
  · exact congrArg mat (blk_9 m c t)
  · exact blk_10 m c t
  · exact congrArg mat (blk_11 m c t)
  · exact blk_12 m c t
  · exact congrArg mat (blk_13 m c t)
  · exact blk_14 m c t
  · exact congrArg mat (blk_15 m c t)
  · exact blk_16 m c t
  · exact congrArg mat (blk_17 m c t)
  · exact blk_18 m c t
  · exact congrArg mat (blk_19 m c t)
  · exact blk_20 m c t
  · exact congrArg mat (blk_21 m c t)
  · exact blk_22 m c t

end Cert.DetHead.KBlk

end
-- ==== Proof.KBlkRows.lean ====
/-
  The feature block's rows, and where the output blocks sit.

  At every grid point the feature window and the four output windows have the same block index on the row axis and
  block index 0 on the other axis, and every block index 0 … 4 on the row axis is some point's. A block's coordinate
  in its array is the block index times the block's extent plus the coordinate inside the block, so row p of the
  feature block is row (index × 4000 + p) of the feature array.
-/
import proofs.«169133_g884763263511_cont_9to1_m_545_24_alg».proof.Proof.Gen.KernelIdeal.Value
import proofs.«169133_g884763263511_cont_9to1_m_545_24_alg».proof.Proof.KBlockSpec
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.DetHead.KBlk

open Cert.DetHead Cert.KernelIdeal Cert.KernelIdeal.Gen

variable [Cert.KernelIdeal.Facts]
variable (m : (ℓ : Loc nD τ sig) → Buf (Elt Ideal) ℓ) (ρ : Dev nD → PrngReg)

/-- The printed index maps of the feature window and the output windows, decided over the grid. -/
theorem idx_rows : ∀ t : Fin cfg0.N, win0_0.index t (0 : Fin 2) = win0_23.index t (0 : Fin 2)
    ∧ win0_24.index t (0 : Fin 2) = win0_23.index t (0 : Fin 2)
    ∧ win0_25.index t (0 : Fin 2) = win0_23.index t (0 : Fin 2)
    ∧ win0_26.index t (0 : Fin 2) = win0_23.index t (0 : Fin 2)
    ∧ win0_0.index t (1 : Fin 2) = 0
    ∧ win0_23.index t (1 : Fin 2) = 0
    ∧ win0_24.index t (1 : Fin 2) = 0
    ∧ win0_25.index t (1 : Fin 2) = 0
    ∧ win0_26.index t (1 : Fin 2) = 0
    ∧ win0_23.index t (0 : Fin 2) ≤ 4 :=
  (by decide +kernel : ∀ t : Fin grid0.N, _)

/-- Every block index on the row axis is some point's, for each output window. -/
theorem idx_onto_23 : ∀ b : Fin 5, ∃ t : Fin cfg0.N, win0_23.index t = ![b.val, 0] :=
  (by decide +kernel : ∀ b : Fin 5, ∃ t : Fin grid0.N, win0_23.index t = ![b.val, 0])
theorem idx_onto_24 : ∀ b : Fin 5, ∃ t : Fin cfg0.N, win0_24.index t = ![b.val, 0] :=
  (by decide +kernel : ∀ b : Fin 5, ∃ t : Fin grid0.N, win0_24.index t = ![b.val, 0])
theorem idx_onto_25 : ∀ b : Fin 5, ∃ t : Fin cfg0.N, win0_25.index t = ![b.val, 0] :=
  (by decide +kernel : ∀ b : Fin 5, ∃ t : Fin grid0.N, win0_25.index t = ![b.val, 0])
theorem idx_onto_26 : ∀ b : Fin 5, ∃ t : Fin cfg0.N, win0_26.index t = ![b.val, 0] :=
  (by decide +kernel : ∀ b : Fin 5, ∃ t : Fin grid0.N, win0_26.index t = ![b.val, 0])

/-- Row p of the feature block at point t is row (index × 4000 + p) of the feature array. -/
theorem row_eq (c : Dev nD) (t : Fin cfg0.N) (p : Fin 4000) (r : Fin 20000)
    (hr : r.val = win0_0.index t (0 : Fin 2) * 4000 + p.val) :
    rowOf (iblk m c 0 t : S4000x512.Idx → EReal) p = rowOf (m ((c : Thread nD τ).loc main_arg0)) r := by
  refine funext fun (k : Fin 512) => ?_
  show (iblk m c 0 t : S4000x512.Idx → EReal) (ix2 p k) = (m ((c : Thread nD τ).loc main_arg0)) (ix2 r k)
  unfold iblk
  rw [View.read_apply]
  show V m c main_arg0 (((cfg0.win 0).blk t).view.emb (ix2 p k)) = _
  rw [V_main_arg0]
  refine congrArg (m ((c : Thread nD τ).loc main_arg0)) ?_
  obtain ⟨-, -, -, -, e1, -⟩ := idx_rows t
  funext a
  apply Fin.ext
  match a with
  | ⟨0, _⟩ => show win0_0.index t (0 : Fin 2) * 4000 + 1 * p.val = r.val; omega
  | ⟨1, _⟩ => show win0_0.index t (1 : Fin 2) * 512 + 1 * k.val = k.val; omega

end Cert.DetHead.KBlk

end
-- ==== Proof.KBlkOut23.lean ====
/-
  The box coordinates' array after the run, from what each grid point's block holds.

  Each grid point writes back its output block, which holds, row by row, the head's output for the feature rows of
  the point's feature block. The parameters read off the blocks are the parameters read off the arguments, row p of
  the feature block is row (index × 4000 + p) of the feature array, and entry (p, q) of the output block lands at
  row (index × 4000 + p), column q of the output array. So every point writes a block of ONE function of the
  arguments; the five blocks cover the 20000 rows (row r is in the block of index r / 4000), and the array ends
  holding that function.
-/
import proofs.«169133_g884763263511_cont_9to1_m_545_24_alg».proof.Proof.Gen.KernelIdeal.Value
import proofs.«169133_g884763263511_cont_9to1_m_545_24_alg».proof.Proof.KBlockSpec
import proofs.«169133_g884763263511_cont_9to1_m_545_24_alg».proof.Proof.KBlkParams
import proofs.«169133_g884763263511_cont_9to1_m_545_24_alg».proof.Proof.KBlkRows
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.DetHead.KBlk

open Cert.DetHead Cert.KernelIdeal Cert.KernelIdeal.Gen

variable [Cert.KernelIdeal.Facts]
variable (m : (ℓ : Loc nD τ sig) → Buf (Elt Ideal) ℓ) (ρ : Dev nD → PrngReg)

/-- The box coordinates of every feature row, as one function of the argument arrays. -/
abbrev G23 (c : Dev nD) : S20000x4.Idx → EReal := fun i =>
  boxes normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) (i 0)) (i 1)

/-- What point t writes back is block t of that function. -/
theorem flushed23_eq (hB : K.BoxesBlock) (c : Dev nD) (t : Fin cfg0.N) :
    (dats m 0 c).flushed 23 t = ((cfg0.win 23).blk t).view.read (Elt Ideal) (G23 m c) := by
  rw [Value.flushed23]
  refine funext fun (j : S4000x4.Idx) => ?_
  obtain ⟨p, q, rfl⟩ : ∃ (p : Fin 4000) (q : Fin 4), j = ix2 p q := ⟨j 0, j 1, eq_ix2 j⟩
  show out0_23 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix2 p q) = G23 m c (((cfg0.win 23).blk t).view.emb (ix2 p q))
  refine (hB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p q).trans ?_
  obtain ⟨e0, e24, e25, e26, -, f23, f24, f25, f26, hle⟩ := idx_rows t
  have hp : p.val < 4000 := p.isLt
  have hr : win0_23.index t (0 : Fin 2) * 4000 + p.val < 20000 := by omega
  rw [params_eq m c t, row_eq m c t p ⟨win0_23.index t (0 : Fin 2) * 4000 + p.val, hr⟩
    (by show win0_23.index t (0 : Fin 2) * 4000 + p.val = win0_0.index t (0 : Fin 2) * 4000 + p.val; omega)]
  have h0 : (((cfg0.win 23).blk t).view.emb (ix2 p q) : S20000x4.Idx) (0 : Fin 2) = (⟨win0_23.index t (0 : Fin 2) * 4000 + p.val, hr⟩ : Fin 20000) := by
    apply Fin.ext
    show win0_23.index t (0 : Fin 2) * 4000 + 1 * p.val = win0_23.index t (0 : Fin 2) * 4000 + p.val
    omega
  have h1 : (((cfg0.win 23).blk t).view.emb (ix2 p q) : S20000x4.Idx) (1 : Fin 2) = q := by
    apply Fin.ext
    show win0_23.index t (1 : Fin 2) * 4 + 1 * q.val = q.val
    omega
  show _ = boxes normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) ((((cfg0.win 23).blk t).view.emb (ix2 p q) : S20000x4.Idx) (0 : Fin 2))) ((((cfg0.win 23).blk t).view.emb (ix2 p q) : S20000x4.Idx) (1 : Fin 2))
  rw [h0, h1]

/-- An index of the array is in point t's block iff each coordinate is in the block's range on its axis. -/
theorem mem_blk23 (t : Fin cfg0.N) (i : S20000x4.Idx) :
    i ∈ ((cfg0.win 23).blk t).view.set ↔ ∀ a : Fin 2, win0_23.index t a * S4000x4.size a ≤ (i a).val ∧ (i a).val < win0_23.index t a * S4000x4.size a + S4000x4.size a := by
  show i ∈ ((View.whole main_v0_0).slice (win0_23.rect t)).set ↔ _
  rw [View.set_slice_whole, Rect.mem_set_unit]
  exact Iff.rfl

/-- Every index of the array is in some point's block: row r is in the block of index r / 4000. -/
theorem cover23 (i : S20000x4.Idx) :
    ∃ t : Fin cfg0.N, (cfg0.win 23).flush t = true ∧ i ∈ ((cfg0.win 23).blk t).view.set := by
  have hi0 : (i 0).val < 20000 := (i 0).isLt
  have hi1 : (i 1).val < 4 := (i 1).isLt
  obtain ⟨t, ht⟩ := idx_onto_23 ⟨(i 0).val / 4000, by omega⟩
  have q0 : win0_23.index t (0 : Fin 2) = (i 0).val / 4000 := congrFun ht 0
  have q1 : win0_23.index t (1 : Fin 2) = 0 := congrFun ht 1
  refine ⟨t, flush0_23 t, ?_⟩
  rw [mem_blk23]
  intro a
  match a with
  | ⟨0, _⟩ =>
    show win0_23.index t (0 : Fin 2) * 4000 ≤ (i 0).val ∧ (i 0).val < win0_23.index t (0 : Fin 2) * 4000 + 4000
    omega
  | ⟨1, _⟩ =>
    show win0_23.index t (1 : Fin 2) * 4 ≤ (i 1).val ∧ (i 1).val < win0_23.index t (1 : Fin 2) * 4 + 4
    omega

/-- The array after the run holds the box coordinates of every feature row. -/
theorem final23 (hB : K.BoxesBlock) (c : Dev nD) : (dats m 0 c).arrAt 23 cfg0.N = G23 m c :=
  (dats m 0 c).arrAt_eq_of_cover 23 (G23 m c) (fun t _ => flushed23_eq m hB c t) cover23

end Cert.DetHead.KBlk

end
-- ==== Proof.KBlkOut24.lean ====
/-
  The scales' array after the run, from what each grid point's block holds.

  Each grid point writes back its output block, which holds, row by row, the head's output for the feature rows of
  the point's feature block. The parameters read off the blocks are the parameters read off the arguments, row p of
  the feature block is row (index × 4000 + p) of the feature array, and entry (p, q) of the output block lands at
  row (index × 4000 + p), column q of the output array. So every point writes a block of ONE function of the
  arguments; the five blocks cover the 20000 rows (row r is in the block of index r / 4000), and the array ends
  holding that function.
-/
import proofs.«169133_g884763263511_cont_9to1_m_545_24_alg».proof.Proof.Gen.KernelIdeal.Value
import proofs.«169133_g884763263511_cont_9to1_m_545_24_alg».proof.Proof.KBlockSpec
import proofs.«169133_g884763263511_cont_9to1_m_545_24_alg».proof.Proof.KBlkParams
import proofs.«169133_g884763263511_cont_9to1_m_545_24_alg».proof.Proof.KBlkRows
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.DetHead.KBlk

open Cert.DetHead Cert.KernelIdeal Cert.KernelIdeal.Gen

variable [Cert.KernelIdeal.Facts]
variable (m : (ℓ : Loc nD τ sig) → Buf (Elt Ideal) ℓ) (ρ : Dev nD → PrngReg)

/-- The scales of every feature row, as one function of the argument arrays. -/
abbrev G24 (c : Dev nD) : S20000x2.Idx → EReal := fun i =>
  scales normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) (i 0)) (i 1)

/-- What point t writes back is block t of that function. -/
theorem flushed24_eq (hS : K.ScalesBlock) (c : Dev nD) (t : Fin cfg0.N) :
    (dats m 0 c).flushed 24 t = ((cfg0.win 24).blk t).view.read (Elt Ideal) (G24 m c) := by
  rw [Value.flushed24]
  refine funext fun (j : S4000x2.Idx) => ?_
  obtain ⟨p, q, rfl⟩ : ∃ (p : Fin 4000) (q : Fin 2), j = ix2 p q := ⟨j 0, j 1, eq_ix2 j⟩
  show out0_24 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix2 p q) = G24 m c (((cfg0.win 24).blk t).view.emb (ix2 p q))
  refine (hS (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p q).trans ?_
  obtain ⟨e0, e24, e25, e26, -, f23, f24, f25, f26, hle⟩ := idx_rows t
  have hp : p.val < 4000 := p.isLt
  have hr : win0_24.index t (0 : Fin 2) * 4000 + p.val < 20000 := by omega
  rw [params_eq m c t, row_eq m c t p ⟨win0_24.index t (0 : Fin 2) * 4000 + p.val, hr⟩
    (by show win0_24.index t (0 : Fin 2) * 4000 + p.val = win0_0.index t (0 : Fin 2) * 4000 + p.val; omega)]
  have h0 : (((cfg0.win 24).blk t).view.emb (ix2 p q) : S20000x2.Idx) (0 : Fin 2) = (⟨win0_24.index t (0 : Fin 2) * 4000 + p.val, hr⟩ : Fin 20000) := by
    apply Fin.ext
    show win0_24.index t (0 : Fin 2) * 4000 + 1 * p.val = win0_24.index t (0 : Fin 2) * 4000 + p.val
    omega
  have h1 : (((cfg0.win 24).blk t).view.emb (ix2 p q) : S20000x2.Idx) (1 : Fin 2) = q := by
    apply Fin.ext
    show win0_24.index t (1 : Fin 2) * 2 + 1 * q.val = q.val
    omega
  show _ = scales normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) ((((cfg0.win 24).blk t).view.emb (ix2 p q) : S20000x2.Idx) (0 : Fin 2))) ((((cfg0.win 24).blk t).view.emb (ix2 p q) : S20000x2.Idx) (1 : Fin 2))
  rw [h0, h1]

/-- An index of the array is in point t's block iff each coordinate is in the block's range on its axis. -/
theorem mem_blk24 (t : Fin cfg0.N) (i : S20000x2.Idx) :
    i ∈ ((cfg0.win 24).blk t).view.set ↔ ∀ a : Fin 2, win0_24.index t a * S4000x2.size a ≤ (i a).val ∧ (i a).val < win0_24.index t a * S4000x2.size a + S4000x2.size a := by
  show i ∈ ((View.whole main_v0_1).slice (win0_24.rect t)).set ↔ _
  rw [View.set_slice_whole, Rect.mem_set_unit]
  exact Iff.rfl

/-- Every index of the array is in some point's block: row r is in the block of index r / 4000. -/
theorem cover24 (i : S20000x2.Idx) :
    ∃ t : Fin cfg0.N, (cfg0.win 24).flush t = true ∧ i ∈ ((cfg0.win 24).blk t).view.set := by
  have hi0 : (i 0).val < 20000 := (i 0).isLt
  have hi1 : (i 1).val < 2 := (i 1).isLt
  obtain ⟨t, ht⟩ := idx_onto_24 ⟨(i 0).val / 4000, by omega⟩
  have q0 : win0_24.index t (0 : Fin 2) = (i 0).val / 4000 := congrFun ht 0
  have q1 : win0_24.index t (1 : Fin 2) = 0 := congrFun ht 1
  refine ⟨t, flush0_24 t, ?_⟩
  rw [mem_blk24]
  intro a
  match a with
  | ⟨0, _⟩ =>
    show win0_24.index t (0 : Fin 2) * 4000 ≤ (i 0).val ∧ (i 0).val < win0_24.index t (0 : Fin 2) * 4000 + 4000
    omega
  | ⟨1, _⟩ =>
    show win0_24.index t (1 : Fin 2) * 2 ≤ (i 1).val ∧ (i 1).val < win0_24.index t (1 : Fin 2) * 2 + 2
    omega

/-- The array after the run holds the scales of every feature row. -/
theorem final24 (hS : K.ScalesBlock) (c : Dev nD) : (dats m 0 c).arrAt 24 cfg0.N = G24 m c :=
  (dats m 0 c).arrAt_eq_of_cover 24 (G24 m c) (fun t _ => flushed24_eq m hS c t) cover24

end Cert.DetHead.KBlk

end
-- ==== Proof.KBlkOut25.lean ====
/-
  The context scores' array after the run, from what each grid point's block holds.

  Each grid point writes back its output block, which holds, row by row, the head's output for the feature rows of
  the point's feature block. The parameters read off the blocks are the parameters read off the arguments, row p of
  the feature block is row (index × 4000 + p) of the feature array, and entry (p, q) of the output block lands at
  row (index × 4000 + p), column q of the output array. So every point writes a block of ONE function of the
  arguments; the five blocks cover the 20000 rows (row r is in the block of index r / 4000), and the array ends
  holding that function.
-/
import proofs.«169133_g884763263511_cont_9to1_m_545_24_alg».proof.Proof.Gen.KernelIdeal.Value
import proofs.«169133_g884763263511_cont_9to1_m_545_24_alg».proof.Proof.KBlockSpec
import proofs.«169133_g884763263511_cont_9to1_m_545_24_alg».proof.Proof.KBlkParams
import proofs.«169133_g884763263511_cont_9to1_m_545_24_alg».proof.Proof.KBlkRows
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.DetHead.KBlk

open Cert.DetHead Cert.KernelIdeal Cert.KernelIdeal.Gen

variable [Cert.KernelIdeal.Facts]
variable (m : (ℓ : Loc nD τ sig) → Buf (Elt Ideal) ℓ) (ρ : Dev nD → PrngReg)

/-- The context scores of every feature row, as one function of the argument arrays. -/
abbrev G25 (c : Dev nD) : S20000x1.Idx → EReal := fun i =>
  ctx normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) (i 0)) (i 1)

/-- What point t writes back is block t of that function. -/
theorem flushed25_eq (hC : K.CtxBlock) (c : Dev nD) (t : Fin cfg0.N) :
    (dats m 0 c).flushed 25 t = ((cfg0.win 25).blk t).view.read (Elt Ideal) (G25 m c) := by
  rw [Value.flushed25]
  refine funext fun (j : S4000x1.Idx) => ?_
  obtain ⟨p, q, rfl⟩ : ∃ (p : Fin 4000) (q : Fin 1), j = ix2 p q := ⟨j 0, j 1, eq_ix2 j⟩
  show out0_25 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix2 p q) = G25 m c (((cfg0.win 25).blk t).view.emb (ix2 p q))
  refine (hC (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p q).trans ?_
  obtain ⟨e0, e24, e25, e26, -, f23, f24, f25, f26, hle⟩ := idx_rows t
  have hp : p.val < 4000 := p.isLt
  have hr : win0_25.index t (0 : Fin 2) * 4000 + p.val < 20000 := by omega
  rw [params_eq m c t, row_eq m c t p ⟨win0_25.index t (0 : Fin 2) * 4000 + p.val, hr⟩
    (by show win0_25.index t (0 : Fin 2) * 4000 + p.val = win0_0.index t (0 : Fin 2) * 4000 + p.val; omega)]
  have h0 : (((cfg0.win 25).blk t).view.emb (ix2 p q) : S20000x1.Idx) (0 : Fin 2) = (⟨win0_25.index t (0 : Fin 2) * 4000 + p.val, hr⟩ : Fin 20000) := by
    apply Fin.ext
    show win0_25.index t (0 : Fin 2) * 4000 + 1 * p.val = win0_25.index t (0 : Fin 2) * 4000 + p.val
    omega
  have h1 : (((cfg0.win 25).blk t).view.emb (ix2 p q) : S20000x1.Idx) (1 : Fin 2) = q := by
    apply Fin.ext
    show win0_25.index t (1 : Fin 2) * 1 + 1 * q.val = q.val
    omega
  show _ = ctx normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) ((((cfg0.win 25).blk t).view.emb (ix2 p q) : S20000x1.Idx) (0 : Fin 2))) ((((cfg0.win 25).blk t).view.emb (ix2 p q) : S20000x1.Idx) (1 : Fin 2))
  rw [h0, h1]

/-- An index of the array is in point t's block iff each coordinate is in the block's range on its axis. -/
theorem mem_blk25 (t : Fin cfg0.N) (i : S20000x1.Idx) :
    i ∈ ((cfg0.win 25).blk t).view.set ↔ ∀ a : Fin 2, win0_25.index t a * S4000x1.size a ≤ (i a).val ∧ (i a).val < win0_25.index t a * S4000x1.size a + S4000x1.size a := by
  show i ∈ ((View.whole main_v0_2).slice (win0_25.rect t)).set ↔ _
  rw [View.set_slice_whole, Rect.mem_set_unit]
  exact Iff.rfl

/-- Every index of the array is in some point's block: row r is in the block of index r / 4000. -/
theorem cover25 (i : S20000x1.Idx) :
    ∃ t : Fin cfg0.N, (cfg0.win 25).flush t = true ∧ i ∈ ((cfg0.win 25).blk t).view.set := by
  have hi0 : (i 0).val < 20000 := (i 0).isLt
  have hi1 : (i 1).val < 1 := (i 1).isLt
  obtain ⟨t, ht⟩ := idx_onto_25 ⟨(i 0).val / 4000, by omega⟩
  have q0 : win0_25.index t (0 : Fin 2) = (i 0).val / 4000 := congrFun ht 0
  have q1 : win0_25.index t (1 : Fin 2) = 0 := congrFun ht 1
  refine ⟨t, flush0_25 t, ?_⟩
  rw [mem_blk25]
  intro a
  match a with
  | ⟨0, _⟩ =>
    show win0_25.index t (0 : Fin 2) * 4000 ≤ (i 0).val ∧ (i 0).val < win0_25.index t (0 : Fin 2) * 4000 + 4000
    omega
  | ⟨1, _⟩ =>
    show win0_25.index t (1 : Fin 2) * 1 ≤ (i 1).val ∧ (i 1).val < win0_25.index t (1 : Fin 2) * 1 + 1
    omega

/-- The array after the run holds the context scores of every feature row. -/
theorem final25 (hC : K.CtxBlock) (c : Dev nD) : (dats m 0 c).arrAt 25 cfg0.N = G25 m c :=
  (dats m 0 c).arrAt_eq_of_cover 25 (G25 m c) (fun t _ => flushed25_eq m hC c t) cover25

end Cert.DetHead.KBlk

end
-- ==== Proof.KBlkOut26.lean ====
/-
  The confidences' array after the run, from what each grid point's block holds.

  Each grid point writes back its output block, which holds, row by row, the head's output for the feature rows of
  the point's feature block. The parameters read off the blocks are the parameters read off the arguments, row p of
  the feature block is row (index × 4000 + p) of the feature array, and entry (p, q) of the output block lands at
  row (index × 4000 + p), column q of the output array. So every point writes a block of ONE function of the
  arguments; the five blocks cover the 20000 rows (row r is in the block of index r / 4000), and the array ends
  holding that function.
-/
import proofs.«169133_g884763263511_cont_9to1_m_545_24_alg».proof.Proof.Gen.KernelIdeal.Value
import proofs.«169133_g884763263511_cont_9to1_m_545_24_alg».proof.Proof.KBlockSpec
import proofs.«169133_g884763263511_cont_9to1_m_545_24_alg».proof.Proof.KBlkParams
import proofs.«169133_g884763263511_cont_9to1_m_545_24_alg».proof.Proof.KBlkRows
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.DetHead.KBlk

open Cert.DetHead Cert.KernelIdeal Cert.KernelIdeal.Gen

variable [Cert.KernelIdeal.Facts]
variable (m : (ℓ : Loc nD τ sig) → Buf (Elt Ideal) ℓ) (ρ : Dev nD → PrngReg)

/-- The confidences of every feature row, as one function of the argument arrays. -/
abbrev G26 (c : Dev nD) : S20000x1.Idx → EReal := fun i =>
  conf (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (hiddenSplit normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) (i 0))) (i 1)

/-- What point t writes back is block t of that function. -/
theorem flushed26_eq (hF : K.ConfBlock) (c : Dev nD) (t : Fin cfg0.N) :
    (dats m 0 c).flushed 26 t = ((cfg0.win 26).blk t).view.read (Elt Ideal) (G26 m c) := by
  rw [Value.flushed26]
  refine funext fun (j : S4000x1.Idx) => ?_
  obtain ⟨p, q, rfl⟩ : ∃ (p : Fin 4000) (q : Fin 1), j = ix2 p q := ⟨j 0, j 1, eq_ix2 j⟩
  show out0_26 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (ix2 p q) = G26 m c (((cfg0.win 26).blk t).view.emb (ix2 p q))
  refine (hF (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p q).trans ?_
  obtain ⟨e0, e24, e25, e26, -, f23, f24, f25, f26, hle⟩ := idx_rows t
  have hp : p.val < 4000 := p.isLt
  have hr : win0_26.index t (0 : Fin 2) * 4000 + p.val < 20000 := by omega
  rw [params_eq m c t, row_eq m c t p ⟨win0_26.index t (0 : Fin 2) * 4000 + p.val, hr⟩
    (by show win0_26.index t (0 : Fin 2) * 4000 + p.val = win0_0.index t (0 : Fin 2) * 4000 + p.val; omega)]
  have h0 : (((cfg0.win 26).blk t).view.emb (ix2 p q) : S20000x1.Idx) (0 : Fin 2) = (⟨win0_26.index t (0 : Fin 2) * 4000 + p.val, hr⟩ : Fin 20000) := by
    apply Fin.ext
    show win0_26.index t (0 : Fin 2) * 4000 + 1 * p.val = win0_26.index t (0 : Fin 2) * 4000 + p.val
    omega
  have h1 : (((cfg0.win 26).blk t).view.emb (ix2 p q) : S20000x1.Idx) (1 : Fin 2) = q := by
    apply Fin.ext
    show win0_26.index t (1 : Fin 2) * 1 + 1 * q.val = q.val
    omega
  show _ = conf (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (hiddenSplit normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) ((((cfg0.win 26).blk t).view.emb (ix2 p q) : S20000x1.Idx) (0 : Fin 2)))) ((((cfg0.win 26).blk t).view.emb (ix2 p q) : S20000x1.Idx) (1 : Fin 2))
  rw [h0, h1]

/-- An index of the array is in point t's block iff each coordinate is in the block's range on its axis. -/
theorem mem_blk26 (t : Fin cfg0.N) (i : S20000x1.Idx) :
    i ∈ ((cfg0.win 26).blk t).view.set ↔ ∀ a : Fin 2, win0_26.index t a * S4000x1.size a ≤ (i a).val ∧ (i a).val < win0_26.index t a * S4000x1.size a + S4000x1.size a := by
  show i ∈ ((View.whole main_v0_3).slice (win0_26.rect t)).set ↔ _
  rw [View.set_slice_whole, Rect.mem_set_unit]
  exact Iff.rfl

/-- Every index of the array is in some point's block: row r is in the block of index r / 4000. -/
theorem cover26 (i : S20000x1.Idx) :
    ∃ t : Fin cfg0.N, (cfg0.win 26).flush t = true ∧ i ∈ ((cfg0.win 26).blk t).view.set := by
  have hi0 : (i 0).val < 20000 := (i 0).isLt
  have hi1 : (i 1).val < 1 := (i 1).isLt
  obtain ⟨t, ht⟩ := idx_onto_26 ⟨(i 0).val / 4000, by omega⟩
  have q0 : win0_26.index t (0 : Fin 2) = (i 0).val / 4000 := congrFun ht 0
  have q1 : win0_26.index t (1 : Fin 2) = 0 := congrFun ht 1
  refine ⟨t, flush0_26 t, ?_⟩
  rw [mem_blk26]
  intro a
  match a with
  | ⟨0, _⟩ =>
    show win0_26.index t (0 : Fin 2) * 4000 ≤ (i 0).val ∧ (i 0).val < win0_26.index t (0 : Fin 2) * 4000 + 4000
    omega
  | ⟨1, _⟩ =>
    show win0_26.index t (1 : Fin 2) * 1 ≤ (i 1).val ∧ (i 1).val < win0_26.index t (1 : Fin 2) * 1 + 1
    omega

/-- The array after the run holds the confidences of every feature row. -/
theorem final26 (hF : K.ConfBlock) (c : Dev nD) : (dats m 0 c).arrAt 26 cfg0.N = G26 m c :=
  (dats m 0 c).arrAt_eq_of_cover 26 (G26 m c) (fun t _ => flushed26_eq m hF c t) cover26

end Cert.DetHead.KBlk

end
-- ==== Proof.KBlkRun.lean ====
/-
  The run of the idealized kernel, read in the words of the row-level statement.

  Given what every grid point's four output blocks hold, after the run the four output arrays hold, at (i, q), the
  box coordinates, the scales, the context score and the confidence of feature row i, with the parameters read off
  the argument arrays; the twenty-three arguments are unchanged.
-/
import proofs.«169133_g884763263511_cont_9to1_m_545_24_alg».proof.Proof.Gen.KernelIdeal.Value
import proofs.«169133_g884763263511_cont_9to1_m_545_24_alg».proof.Proof.KBlockSpec
import proofs.«169133_g884763263511_cont_9to1_m_545_24_alg».proof.Proof.KBlkOut23
import proofs.«169133_g884763263511_cont_9to1_m_545_24_alg».proof.Proof.KBlkOut24
import proofs.«169133_g884763263511_cont_9to1_m_545_24_alg».proof.Proof.KBlkOut25
import proofs.«169133_g884763263511_cont_9to1_m_545_24_alg».proof.Proof.KBlkOut26
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.DetHead.KBlk

open Cert.DetHead Cert.KernelIdeal Cert.KernelIdeal.Gen

variable [Cert.KernelIdeal.Facts]

theorem run (hB : K.BoxesBlock) (hS : K.ScalesBlock) (hC : K.CtxBlock) (hF : K.ConfBlock)
    (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (i : Fin 20000) (q : Fin 4), r.2.mem ((c : Thread nD τ).loc main_v0_0) (ix2 i q)
        = boxes normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) i) q)
      ∧       (∀ (i : Fin 20000) (q : Fin 2), r.2.mem ((c : Thread nD τ).loc main_v0_1) (ix2 i q)
        = scales normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) i) q)
      ∧       (∀ (i : Fin 20000) (q : Fin 1), r.2.mem ((c : Thread nD τ).loc main_v0_2) (ix2 i q)
        = ctx normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) i) q)
      ∧       (∀ (i : Fin 20000) (q : Fin 1), r.2.mem ((c : Thread nD τ).loc main_v0_3) (ix2 i q)
        = conf (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (hiddenSplit normK (paramsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) (rowOf (m ((c : Thread nD τ).loc main_arg0)) i)) q)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => by
      obtain ⟨h23, h24, h25, h26, hk⟩ := h c
      exact ⟨fun i q => congrFun (h23.trans (final23 m hB c)) (ix2 i q),
        fun i q => congrFun (h24.trans (final24 m hS c)) (ix2 i q),
        fun i q => congrFun (h25.trans (final25 m hC c)) (ix2 i q),
        fun i q => congrFun (h26.trans (final26 m hF c)) (ix2 i q),
        hk⟩)
    (Value.run_blocks m ρ)

end Cert.DetHead.KBlk

end
-- ==== Proof.RefRun.lean ====
/-
  The reference program as one straight line of host operations, and its run.

  The program's entry function calls four outlined functions (the variance with its guarded quotient, which itself
  calls the selection, and the two clamps at zero); a call executes the callee's body on the call's own buffers, so
  the entry function is the list below: its own operations in order, each callee's operations in place of the call,
  over the buffers of that call's record. From any memory with zero counters every weakly fair execution of it
  terminates, and each buffer then holds what the operations, folded in order over the launch contents, leave there.
-/
import proofs.«169133_g884763263511_cont_9to1_m_545_24_alg».proof.Proof.Gen.ReferenceIdeal
import Idealize.ShloMosaic.Lib.StableHlo.Run

noncomputable section

namespace Cert.DetHead.Ref

open Cert.ReferenceIdeal Cert.ReferenceIdeal.Gen Idealize.ShloMosaic Idealize.ShloMosaic.TcCoe Idealize.SL.Sem Idealize.ShloMosaic.StableHlo

variable {F : FTy → Type} [FloatOps F]

/-- The entry function's 139 operations in order, the calls unfolded: the variance is twenty operations and the
    selection's three into the first call's buffers, each clamp three (the zero word, its broadcast, the maximum)
    into its call's buffers. -/
abbrev ops : List (HloOp τ sig (Elt F)) :=
  [ StableHlo.binary main_arg0 main_arg1 main_v0 ((fun l r => Host.dotGeneral dot_S20000x512_S512x256_S20000x256_1_0_0_1_n_n none l r) : (⟨S20000x512, .f32⟩ : BufTy).Contents (Elt F) → (⟨S512x256, .f32⟩ : BufTy).Contents (Elt F) → (⟨S20000x256, .f32⟩ : BufTy).Contents (Elt F)),
    StableHlo.unary main_arg2 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S20000x256 ![0, 1] bcast_S1x256_S20000x256_0_1 : (⟨S1x256, .f32⟩ : BufTy).Contents (Elt F) → (⟨S20000x256, .f32⟩ : BufTy).Contents (Elt F)),
    StableHlo.binary main_v0 main_v2 main_v3 (addf : (⟨S20000x256, .f32⟩ : BufTy).Contents (Elt F) → (⟨S20000x256, .f32⟩ : BufTy).Contents (Elt F) → (⟨S20000x256, .f32⟩ : BufTy).Contents (Elt F)),
    StableHlo.nullary main_cst (constant S_ .f32 0x00000000#32),
    StableHlo.binary main_v3 main_cst main_v4 ((fun x v => Host.reduceAdd x v reducesTo_S20000x256_S20000_d1 h_S_) : (⟨S20000x256, .f32⟩ : BufTy).Contents (Elt F) → (⟨S_, .f32⟩ : BufTy).Contents (Elt F) → (⟨S20000, .f32⟩ : BufTy).Contents (Elt F)),
    StableHlo.unary main_v4 main_v5 (broadcastInDim S20000x1 ![0] bcast_S20000_S20000x1_0 : (⟨S20000, .f32⟩ : BufTy).Contents (Elt F) → (⟨S20000x1, .f32⟩ : BufTy).Contents (Elt F)),
    StableHlo.nullary main_cst_0 (constant S_ .f32 0x43800000#32),
    StableHlo.unary main_cst_0 main_v6 (broadcastInDim S20000x1 ![] bcast_S_S20000x1 : (⟨S_, .f32⟩ : BufTy).Contents (Elt F) → (⟨S20000x1, .f32⟩ : BufTy).Contents (Elt F)),
    StableHlo.binary main_v5 main_v6 main_v7 (Host.divf : (⟨S20000x1, .f32⟩ : BufTy).Contents (Elt F) → (⟨S20000x1, .f32⟩ : BufTy).Contents (Elt F) → (⟨S20000x1, .f32⟩ : BufTy).Contents (Elt F)),
    StableHlo.nullary main_c (constantI S_ 32 0#32),
    TRef.nullary main_call0.cst (constant S_ .f32 0x00000000#32),
    TRef.binary (.of main_v3 : TRef sig ⟨S20000x256, .f32⟩) main_call0.cst main_call0.v0 (fun x v => Host.reduceAdd x v reducesTo_S20000x256_S20000_d1 h_S_),
    TRef.unary main_call0.v0 main_call0.v1 (broadcastInDim S20000x1 ![0] bcast_S20000_S20000x1_0),
    TRef.nullary main_call0.cst_0 (constant S_ .f32 0x43800000#32),
    TRef.unary main_call0.cst_0 main_call0.v2 (broadcastInDim S20000x1 ![] bcast_S_S20000x1),
    TRef.binary main_call0.v1 main_call0.v2 main_call0.v3 Host.divf,
    TRef.unary main_call0.v3 main_call0.v4 (broadcastInDim S20000x256 ![0, 1] bcast_S20000x1_S20000x256_0_1),
    TRef.binary (.of main_v3 : TRef sig ⟨S20000x256, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S20000x256_S20000_d1 h_S_),
    TRef.unary main_call0.v9 main_call0.v10 (broadcastInDim S20000x1 ![0] bcast_S20000_S20000x1_0),
    TRef.unary main_call0.v8 main_call0.v11 (broadcastInDim S20000x1 ![] bcast_S_S20000x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S20000x1 ![] bcast_S_S20000x1),
    TRef.ternary main_call0.v13 main_call0.v12 main_call0.call0.v1 main_call0.call0.v2 (fun p a b => select (broadcastInDim S20000x1 ![] bcast_S_S20000x1 p) a b),
    StableHlo.unary main_v7 main_v9 (broadcastInDim S20000x256 ![0, 1] bcast_S20000x1_S20000x256_0_1 : (⟨S20000x1, .f32⟩ : BufTy).Contents (Elt F) → (⟨S20000x256, .f32⟩ : BufTy).Contents (Elt F)),
    StableHlo.binary main_v3 main_v9 main_v10 (subf : (⟨S20000x256, .f32⟩ : BufTy).Contents (Elt F) → (⟨S20000x256, .f32⟩ : BufTy).Contents (Elt F) → (⟨S20000x256, .f32⟩ : BufTy).Contents (Elt F)),
    StableHlo.nullary main_cst_1 (constant S_ .f32 0x3727C5AC#32),
    StableHlo.unary main_cst_1 main_v11 (broadcastInDim S20000x1 ![] bcast_S_S20000x1 : (⟨S_, .f32⟩ : BufTy).Contents (Elt F) → (⟨S20000x1, .f32⟩ : BufTy).Contents (Elt F)),
    StableHlo.binary main_v8 main_v11 main_v12 (addf : (⟨S20000x1, .f32⟩ : BufTy).Contents (Elt F) → (⟨S20000x1, .f32⟩ : BufTy).Contents (Elt F) → (⟨S20000x1, .f32⟩ : BufTy).Contents (Elt F)),
    StableHlo.unary main_v12 main_v13 (Host.sqrt : (⟨S20000x1, .f32⟩ : BufTy).Contents (Elt F) → (⟨S20000x1, .f32⟩ : BufTy).Contents (Elt F)),
    StableHlo.unary main_v13 main_v14 (broadcastInDim S20000x256 ![0, 1] bcast_S20000x1_S20000x256_0_1 : (⟨S20000x1, .f32⟩ : BufTy).Contents (Elt F) → (⟨S20000x256, .f32⟩ : BufTy).Contents (Elt F)),
    StableHlo.binary main_v10 main_v14 main_v15 (Host.divf : (⟨S20000x256, .f32⟩ : BufTy).Contents (Elt F) → (⟨S20000x256, .f32⟩ : BufTy).Contents (Elt F) → (⟨S20000x256, .f32⟩ : BufTy).Contents (Elt F)),
    StableHlo.unary main_arg3 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S20000x256 ![0, 1] bcast_S1x256_S20000x256_0_1 : (⟨S1x256, .f32⟩ : BufTy).Contents (Elt F) → (⟨S20000x256, .f32⟩ : BufTy).Contents (Elt F)),
    StableHlo.binary main_v15 main_v17 main_v18 (mulf : (⟨S20000x256, .f32⟩ : BufTy).Contents (Elt F) → (⟨S20000x256, .f32⟩ : BufTy).Contents (Elt F) → (⟨S20000x256, .f32⟩ : BufTy).Contents (Elt F)),
    StableHlo.unary main_arg4 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S20000x256 ![0, 1] bcast_S1x256_S20000x256_0_1 : (⟨S1x256, .f32⟩ : BufTy).Contents (Elt F) → (⟨S20000x256, .f32⟩ : BufTy).Contents (Elt F)),
    StableHlo.binary main_v18 main_v20 main_v21 (addf : (⟨S20000x256, .f32⟩ : BufTy).Contents (Elt F) → (⟨S20000x256, .f32⟩ : BufTy).Contents (Elt F) → (⟨S20000x256, .f32⟩ : BufTy).Contents (Elt F)),
    TRef.nullary main_call1.cst (constant S_ .f32 0x00000000#32),
    TRef.unary main_call1.cst main_call1.v0 (broadcastInDim S20000x256 ![] bcast_S_S20000x256),
    TRef.binary (.of main_v21 : TRef sig ⟨S20000x256, .f32⟩) main_call1.v0 main_call1.v1 maximumf,
    StableHlo.binary main_v22 main_arg5 main_v23 ((fun l r => Host.dotGeneral dot_S20000x256_S256x256_S20000x256_1_0_0_1_n_n none l r) : (⟨S20000x256, .f32⟩ : BufTy).Contents (Elt F) → (⟨S256x256, .f32⟩ : BufTy).Contents (Elt F) → (⟨S20000x256, .f32⟩ : BufTy).Contents (Elt F)),
    StableHlo.unary main_arg6 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S20000x256 ![0, 1] bcast_S1x256_S20000x256_0_1 : (⟨S1x256, .f32⟩ : BufTy).Contents (Elt F) → (⟨S20000x256, .f32⟩ : BufTy).Contents (Elt F)),
    StableHlo.binary main_v23 main_v25 main_v26 (addf : (⟨S20000x256, .f32⟩ : BufTy).Contents (Elt F) → (⟨S20000x256, .f32⟩ : BufTy).Contents (Elt F) → (⟨S20000x256, .f32⟩ : BufTy).Contents (Elt F)),
    StableHlo.binary main_v26 main_arg7 main_v27 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    StableHlo.unary main_arg8 main_v28 (broadcastInDim S1x128 ![1] bcast_S128_S1x128_1 : (⟨S128, .f32⟩ : BufTy).Contents (Elt F) → (⟨S1x128, .f32⟩ : BufTy).Contents (Elt F)),
    StableHlo.unary main_v28 main_v29 (broadcastInDim S20000x128 ![0, 1] bcast_S1x128_S20000x128_0_1 : (⟨S1x128, .f32⟩ : BufTy).Contents (Elt F) → (⟨S20000x128, .f32⟩ : BufTy).Contents (Elt F)),
    StableHlo.binary main_v27 main_v29 main_v30 (addf : (⟨S20000x128, .f32⟩ : BufTy).Contents (Elt F) → (⟨S20000x128, .f32⟩ : BufTy).Contents (Elt F) → (⟨S20000x128, .f32⟩ : BufTy).Contents (Elt F)),
    TRef.nullary main_call2.cst (constant S_ .f32 0x00000000#32),
    TRef.unary main_call2.cst main_call2.v0 (broadcastInDim S20000x128 ![] bcast_S_S20000x128),
    TRef.binary (.of main_v30 : TRef sig ⟨S20000x128, .f32⟩) main_call2.v0 main_call2.v1 maximumf,
    StableHlo.binary main_v31 main_arg9 main_v32 ((fun l r => Host.dotGeneral dot_S20000x128_S128x4_S20000x4_1_0_0_1_n_n none l r) : (⟨S20000x128, .f32⟩ : BufTy).Contents (Elt F) → (⟨S128x4, .f32⟩ : BufTy).Contents (Elt F) → (⟨S20000x4, .f32⟩ : BufTy).Contents (Elt F)),
    StableHlo.unary main_arg10 main_v33 (broadcastInDim S1x4 ![1] bcast_S4_S1x4_1 : (⟨S4, .f32⟩ : BufTy).Contents (Elt F) → (⟨S1x4, .f32⟩ : BufTy).Contents (Elt F)),
    StableHlo.unary main_v33 main_v34 (broadcastInDim S20000x4 ![0, 1] bcast_S1x4_S20000x4_0_1 : (⟨S1x4, .f32⟩ : BufTy).Contents (Elt F) → (⟨S20000x4, .f32⟩ : BufTy).Contents (Elt F)),
    StableHlo.binary main_v32 main_v34 main_v35 (addf : (⟨S20000x4, .f32⟩ : BufTy).Contents (Elt F) → (⟨S20000x4, .f32⟩ : BufTy).Contents (Elt F) → (⟨S20000x4, .f32⟩ : BufTy).Contents (Elt F)),
    StableHlo.unary main_v35 main_v36 (Host.negf : (⟨S20000x4, .f32⟩ : BufTy).Contents (Elt F) → (⟨S20000x4, .f32⟩ : BufTy).Contents (Elt F)),
    StableHlo.unary main_v36 main_v37 (Host.exp : (⟨S20000x4, .f32⟩ : BufTy).Contents (Elt F) → (⟨S20000x4, .f32⟩ : BufTy).Contents (Elt F)),
    StableHlo.nullary main_cst_2 (constant S_ .f32 0x3F800000#32),
    StableHlo.unary main_cst_2 main_v38 (broadcastInDim S20000x4 ![] bcast_S_S20000x4 : (⟨S_, .f32⟩ : BufTy).Contents (Elt F) → (⟨S20000x4, .f32⟩ : BufTy).Contents (Elt F)),
    StableHlo.binary main_v38 main_v37 main_v39 (addf : (⟨S20000x4, .f32⟩ : BufTy).Contents (Elt F) → (⟨S20000x4, .f32⟩ : BufTy).Contents (Elt F) → (⟨S20000x4, .f32⟩ : BufTy).Contents (Elt F)),
    StableHlo.nullary main_cst_3 (constant S_ .f32 0x3F800000#32),
    StableHlo.unary main_cst_3 main_v40 (broadcastInDim S20000x4 ![] bcast_S_S20000x4 : (⟨S_, .f32⟩ : BufTy).Contents (Elt F) → (⟨S20000x4, .f32⟩ : BufTy).Contents (Elt F)),
    StableHlo.binary main_v40 main_v39 main_v41 (Host.divf : (⟨S20000x4, .f32⟩ : BufTy).Contents (Elt F) → (⟨S20000x4, .f32⟩ : BufTy).Contents (Elt F) → (⟨S20000x4, .f32⟩ : BufTy).Contents (Elt F)),
    StableHlo.binary main_v26 main_arg11 main_v42 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    StableHlo.unary main_arg12 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S20000x128 ![0, 1] bcast_S1x128_S20000x128_0_1 : (⟨S1x128, .f32⟩ : BufTy).Contents (Elt F) → (⟨S20000x128, .f32⟩ : BufTy).Contents (Elt F)),
    StableHlo.binary main_v42 main_v44 main_v45 (addf : (⟨S20000x128, .f32⟩ : BufTy).Contents (Elt F) → (⟨S20000x128, .f32⟩ : BufTy).Contents (Elt F) → (⟨S20000x128, .f32⟩ : BufTy).Contents (Elt F)),
    TRef.nullary main_call3.cst (constant S_ .f32 0x00000000#32),
    TRef.unary main_call3.cst main_call3.v0 (broadcastInDim S20000x128 ![] bcast_S_S20000x128),
    TRef.binary (.of main_v45 : TRef sig ⟨S20000x128, .f32⟩) main_call3.v0 main_call3.v1 maximumf,
    StableHlo.binary main_v46 main_arg13 main_v47 ((fun l r => Host.dotGeneral dot_S20000x128_S128x2_S20000x2_1_0_0_1_n_n none l r) : (⟨S20000x128, .f32⟩ : BufTy).Contents (Elt F) → (⟨S128x2, .f32⟩ : BufTy).Contents (Elt F) → (⟨S20000x2, .f32⟩ : BufTy).Contents (Elt F)),
    StableHlo.unary main_arg14 main_v48 (broadcastInDim S1x2 ![1] bcast_S2_S1x2_1 : (⟨S2, .f32⟩ : BufTy).Contents (Elt F) → (⟨S1x2, .f32⟩ : BufTy).Contents (Elt F)),
    StableHlo.unary main_v48 main_v49 (broadcastInDim S20000x2 ![0, 1] bcast_S1x2_S20000x2_0_1 : (⟨S1x2, .f32⟩ : BufTy).Contents (Elt F) → (⟨S20000x2, .f32⟩ : BufTy).Contents (Elt F)),
    StableHlo.binary main_v47 main_v49 main_v50 (addf : (⟨S20000x2, .f32⟩ : BufTy).Contents (Elt F) → (⟨S20000x2, .f32⟩ : BufTy).Contents (Elt F) → (⟨S20000x2, .f32⟩ : BufTy).Contents (Elt F)),
    StableHlo.unary main_v50 main_v51 (Host.negf : (⟨S20000x2, .f32⟩ : BufTy).Contents (Elt F) → (⟨S20000x2, .f32⟩ : BufTy).Contents (Elt F)),
    StableHlo.unary main_v51 main_v52 (Host.exp : (⟨S20000x2, .f32⟩ : BufTy).Contents (Elt F) → (⟨S20000x2, .f32⟩ : BufTy).Contents (Elt F)),
    StableHlo.nullary main_cst_4 (constant S_ .f32 0x3F800000#32),
    StableHlo.unary main_cst_4 main_v53 (broadcastInDim S20000x2 ![] bcast_S_S20000x2 : (⟨S_, .f32⟩ : BufTy).Contents (Elt F) → (⟨S20000x2, .f32⟩ : BufTy).Contents (Elt F)),
    StableHlo.binary main_v53 main_v52 main_v54 (addf : (⟨S20000x2, .f32⟩ : BufTy).Contents (Elt F) → (⟨S20000x2, .f32⟩ : BufTy).Contents (Elt F) → (⟨S20000x2, .f32⟩ : BufTy).Contents (Elt F)),
    StableHlo.nullary main_cst_5 (constant S_ .f32 0x3F800000#32),
    StableHlo.unary main_cst_5 main_v55 (broadcastInDim S20000x2 ![] bcast_S_S20000x2 : (⟨S_, .f32⟩ : BufTy).Contents (Elt F) → (⟨S20000x2, .f32⟩ : BufTy).Contents (Elt F)),
    StableHlo.binary main_v55 main_v54 main_v56 (Host.divf : (⟨S20000x2, .f32⟩ : BufTy).Contents (Elt F) → (⟨S20000x2, .f32⟩ : BufTy).Contents (Elt F) → (⟨S20000x2, .f32⟩ : BufTy).Contents (Elt F)),
    StableHlo.nullary main_cst_6 (constant S_ .f32 0x3DA3D70A#32),
    StableHlo.unary main_cst_6 main_v57 (broadcastInDim S20000x2 ![] bcast_S_S20000x2 : (⟨S_, .f32⟩ : BufTy).Contents (Elt F) → (⟨S20000x2, .f32⟩ : BufTy).Contents (Elt F)),
    StableHlo.binary main_v56 main_v57 main_v58 (mulf : (⟨S20000x2, .f32⟩ : BufTy).Contents (Elt F) → (⟨S20000x2, .f32⟩ : BufTy).Contents (Elt F) → (⟨S20000x2, .f32⟩ : BufTy).Contents (Elt F)),
    StableHlo.nullary main_cst_7 (constant S_ .f32 0x3CA3D70A#32),
    StableHlo.unary main_cst_7 main_v59 (broadcastInDim S20000x2 ![] bcast_S_S20000x2 : (⟨S_, .f32⟩ : BufTy).Contents (Elt F) → (⟨S20000x2, .f32⟩ : BufTy).Contents (Elt F)),
    StableHlo.binary main_v58 main_v59 main_v60 (addf : (⟨S20000x2, .f32⟩ : BufTy).Contents (Elt F) → (⟨S20000x2, .f32⟩ : BufTy).Contents (Elt F) → (⟨S20000x2, .f32⟩ : BufTy).Contents (Elt F)),
    StableHlo.binary main_v26 main_arg15 main_v61 ((fun l r => Host.dotGeneral dot_S20000x256_S256x128_S20000x128_1_0_0_1_n_n none l r) : (⟨S20000x256, .f32⟩ : BufTy).Contents (Elt F) → (⟨S256x128, .f32⟩ : BufTy).Contents (Elt F) → (⟨S20000x128, .f32⟩ : BufTy).Contents (Elt F)),
    StableHlo.unary main_arg16 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S20000x128 ![0, 1] bcast_S1x128_S20000x128_0_1 : (⟨S1x128, .f32⟩ : BufTy).Contents (Elt F) → (⟨S20000x128, .f32⟩ : BufTy).Contents (Elt F)),
    StableHlo.binary main_v61 main_v63 main_v64 (addf : (⟨S20000x128, .f32⟩ : BufTy).Contents (Elt F) → (⟨S20000x128, .f32⟩ : BufTy).Contents (Elt F) → (⟨S20000x128, .f32⟩ : BufTy).Contents (Elt F)),
    TRef.nullary main_call4.cst (constant S_ .f32 0x00000000#32),
    TRef.unary main_call4.cst main_call4.v0 (broadcastInDim S20000x128 ![] bcast_S_S20000x128),
    TRef.binary (.of main_v64 : TRef sig ⟨S20000x128, .f32⟩) main_call4.v0 main_call4.v1 maximumf,
    StableHlo.binary main_v65 main_arg17 main_v66 ((fun l r => Host.dotGeneral dot_S20000x128_S128x1_S20000x1_1_0_0_1_n_n none l r) : (⟨S20000x128, .f32⟩ : BufTy).Contents (Elt F) → (⟨S128x1, .f32⟩ : BufTy).Contents (Elt F) → (⟨S20000x1, .f32⟩ : BufTy).Contents (Elt F)),
    StableHlo.unary main_arg18 main_v67 (broadcastInDim S1x1 ![1] bcast_S1_S1x1_1 : (⟨S1, .f32⟩ : BufTy).Contents (Elt F) → (⟨S1x1, .f32⟩ : BufTy).Contents (Elt F)),
    StableHlo.unary main_v67 main_v68 (broadcastInDim S20000x1 ![0, 1] bcast_S1x1_S20000x1_0_1 : (⟨S1x1, .f32⟩ : BufTy).Contents (Elt F) → (⟨S20000x1, .f32⟩ : BufTy).Contents (Elt F)),
    StableHlo.binary main_v66 main_v68 main_v69 (addf : (⟨S20000x1, .f32⟩ : BufTy).Contents (Elt F) → (⟨S20000x1, .f32⟩ : BufTy).Contents (Elt F) → (⟨S20000x1, .f32⟩ : BufTy).Contents (Elt F)),
    StableHlo.unary main_v69 main_v70 (Host.negf : (⟨S20000x1, .f32⟩ : BufTy).Contents (Elt F) → (⟨S20000x1, .f32⟩ : BufTy).Contents (Elt F)),
    StableHlo.unary main_v70 main_v71 (Host.exp : (⟨S20000x1, .f32⟩ : BufTy).Contents (Elt F) → (⟨S20000x1, .f32⟩ : BufTy).Contents (Elt F)),
    StableHlo.nullary main_cst_8 (constant S_ .f32 0x3F800000#32),
    StableHlo.unary main_cst_8 main_v72 (broadcastInDim S20000x1 ![] bcast_S_S20000x1 : (⟨S_, .f32⟩ : BufTy).Contents (Elt F) → (⟨S20000x1, .f32⟩ : BufTy).Contents (Elt F)),
    StableHlo.binary main_v72 main_v71 main_v73 (addf : (⟨S20000x1, .f32⟩ : BufTy).Contents (Elt F) → (⟨S20000x1, .f32⟩ : BufTy).Contents (Elt F) → (⟨S20000x1, .f32⟩ : BufTy).Contents (Elt F)),
    StableHlo.nullary main_cst_9 (constant S_ .f32 0x3F800000#32),
    StableHlo.unary main_cst_9 main_v74 (broadcastInDim S20000x1 ![] bcast_S_S20000x1 : (⟨S_, .f32⟩ : BufTy).Contents (Elt F) → (⟨S20000x1, .f32⟩ : BufTy).Contents (Elt F)),
    StableHlo.binary main_v74 main_v73 main_v75 (Host.divf : (⟨S20000x1, .f32⟩ : BufTy).Contents (Elt F) → (⟨S20000x1, .f32⟩ : BufTy).Contents (Elt F) → (⟨S20000x1, .f32⟩ : BufTy).Contents (Elt F)),
    StableHlo.nary ![main_v41, main_v60, main_v75] main_v76 (fun u => concatenate S20000x7 1 [⟨S20000x4, u 0⟩, ⟨S20000x2, u 1⟩, ⟨S20000x1, u 2⟩] concatenates_S20000x4_S20000x2_S20000x1_S20000x7_d1),
    StableHlo.binary main_v26 main_v76 main_v77 ((fun a b => concatenate S20000x263 1 [⟨S20000x256, a⟩, ⟨S20000x7, b⟩] concatenates_S20000x256_S20000x7_S20000x263_d1) : (⟨S20000x256, .f32⟩ : BufTy).Contents (Elt F) → (⟨S20000x7, .f32⟩ : BufTy).Contents (Elt F) → (⟨S20000x263, .f32⟩ : BufTy).Contents (Elt F)),
    StableHlo.binary main_v77 main_arg19 main_v78 ((fun l r => Host.dotGeneral dot_S20000x263_S263x128_S20000x128_1_0_0_1_n_n none l r) : (⟨S20000x263, .f32⟩ : BufTy).Contents (Elt F) → (⟨S263x128, .f32⟩ : BufTy).Contents (Elt F) → (⟨S20000x128, .f32⟩ : BufTy).Contents (Elt F)),
    StableHlo.unary main_arg20 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S20000x128 ![0, 1] bcast_S1x128_S20000x128_0_1 : (⟨S1x128, .f32⟩ : BufTy).Contents (Elt F) → (⟨S20000x128, .f32⟩ : BufTy).Contents (Elt F)),
    StableHlo.binary main_v78 main_v80 main_v81 (addf : (⟨S20000x128, .f32⟩ : BufTy).Contents (Elt F) → (⟨S20000x128, .f32⟩ : BufTy).Contents (Elt F) → (⟨S20000x128, .f32⟩ : BufTy).Contents (Elt F)),
    TRef.nullary main_call5.cst (constant S_ .f32 0x00000000#32),
    TRef.unary main_call5.cst main_call5.v0 (broadcastInDim S20000x128 ![] bcast_S_S20000x128),
    TRef.binary (.of main_v81 : TRef sig ⟨S20000x128, .f32⟩) main_call5.v0 main_call5.v1 maximumf,
    StableHlo.binary main_v82 main_arg21 main_v83 ((fun l r => Host.dotGeneral dot_S20000x128_S128x1_S20000x1_1_0_0_1_n_n none l r) : (⟨S20000x128, .f32⟩ : BufTy).Contents (Elt F) → (⟨S128x1, .f32⟩ : BufTy).Contents (Elt F) → (⟨S20000x1, .f32⟩ : BufTy).Contents (Elt F)),
    StableHlo.unary main_arg22 main_v84 (broadcastInDim S1x1 ![1] bcast_S1_S1x1_1 : (⟨S1, .f32⟩ : BufTy).Contents (Elt F) → (⟨S1x1, .f32⟩ : BufTy).Contents (Elt F)),
    StableHlo.unary main_v84 main_v85 (broadcastInDim S20000x1 ![0, 1] bcast_S1x1_S20000x1_0_1 : (⟨S1x1, .f32⟩ : BufTy).Contents (Elt F) → (⟨S20000x1, .f32⟩ : BufTy).Contents (Elt F)),
    StableHlo.binary main_v83 main_v85 main_v86 (addf : (⟨S20000x1, .f32⟩ : BufTy).Contents (Elt F) → (⟨S20000x1, .f32⟩ : BufTy).Contents (Elt F) → (⟨S20000x1, .f32⟩ : BufTy).Contents (Elt F)),
    StableHlo.unary main_v86 main_v87 (Host.negf : (⟨S20000x1, .f32⟩ : BufTy).Contents (Elt F) → (⟨S20000x1, .f32⟩ : BufTy).Contents (Elt F)),
    StableHlo.unary main_v87 main_v88 (Host.exp : (⟨S20000x1, .f32⟩ : BufTy).Contents (Elt F) → (⟨S20000x1, .f32⟩ : BufTy).Contents (Elt F)),
    StableHlo.nullary main_cst_10 (constant S_ .f32 0x3F800000#32),
    StableHlo.unary main_cst_10 main_v89 (broadcastInDim S20000x1 ![] bcast_S_S20000x1 : (⟨S_, .f32⟩ : BufTy).Contents (Elt F) → (⟨S20000x1, .f32⟩ : BufTy).Contents (Elt F)),
    StableHlo.binary main_v89 main_v88 main_v90 (addf : (⟨S20000x1, .f32⟩ : BufTy).Contents (Elt F) → (⟨S20000x1, .f32⟩ : BufTy).Contents (Elt F) → (⟨S20000x1, .f32⟩ : BufTy).Contents (Elt F)),
    StableHlo.nullary main_cst_11 (constant S_ .f32 0x3F800000#32),
    StableHlo.unary main_cst_11 main_v91 (broadcastInDim S20000x1 ![] bcast_S_S20000x1 : (⟨S_, .f32⟩ : BufTy).Contents (Elt F) → (⟨S20000x1, .f32⟩ : BufTy).Contents (Elt F)),
    StableHlo.binary main_v91 main_v90 main_v92 (Host.divf : (⟨S20000x1, .f32⟩ : BufTy).Contents (Elt F) → (⟨S20000x1, .f32⟩ : BufTy).Contents (Elt F) → (⟨S20000x1, .f32⟩ : BufTy).Contents (Elt F)) ]

-- one bind per operation re-associated: the rewrite under the chain recurses once per statement
set_option maxRecDepth 65536 in
set_option maxHeartbeats 4000000 in
/-- The entry function is that straight line: the two windows, the outlined functions at their calls and the call
    records at their fields unfolded, both sides are one chain of steps once sequencing is re-associated. -/
theorem main_eq (c : Dev nD) : main (F := F) c = seq ops := by
  simp only [main, main_part0, main_part1, fn_var.body, fn_where.body, fn_relu.body, fn_relu_0.body, seq, bind_assoc, pure_bind]

set_option maxRecDepth 65536 in
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    binary_bufs_sub .., unary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., binary_bufs_sub .., unary_bufs_sub .., unary_bufs_sub .., binary_bufs_sub .., nullary_bufs_sub ..,
    unary_bufs_sub .., binary_bufs_sub .., binary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., nary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub ..⟩

set_option maxRecDepth 65536 in
set_option maxHeartbeats 4000000 in
/-- On every device, for any float values, from any memory with zero counters: every weakly fair execution of the
    entry function terminates, and every buffer ends at the fold of the operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.DetHead.Ref

end
-- ==== Proof.RefArgs.lean ====
/-
  The reference's run leaves its twenty-three arguments as they were: no operation of the line writes an argument's
  buffer, so the fold of the operations read there is what was there.
-/
import proofs.«169133_g884763263511_cont_9to1_m_545_24_alg».proof.Proof.RefRun

noncomputable section

namespace Cert.DetHead.Ref

open Cert.ReferenceIdeal Cert.ReferenceIdeal.Gen Idealize.ShloMosaic Idealize.ShloMosaic.TcCoe Idealize.SL.Sem Idealize.ShloMosaic.StableHlo

variable {F : FTy → Type} [FloatOps F]

/-- The fold read at a buffer none of the operations writes: every operation leaves there what was there. -/
macro "after_kept" : tactic =>
  `(tactic| (simp (disch := decide) only [after_cons, after_nil,
      nullary_result_ne', unary_result_ne', binary_result_ne', ternary_result_ne', nary_result_ne']))

set_option maxRecDepth 65536 in
set_option maxHeartbeats 4000000 in
theorem after_arg0 (V : Valuation τ sig (Elt F)) :
    after (ops (F := F)) V (Proc.devRef .tc main_arg0) = V (Proc.devRef .tc main_arg0) := by
  after_kept

set_option maxRecDepth 65536 in
set_option maxHeartbeats 4000000 in
theorem after_arg1 (V : Valuation τ sig (Elt F)) :
    after (ops (F := F)) V (Proc.devRef .tc main_arg1) = V (Proc.devRef .tc main_arg1) := by
  after_kept

set_option maxRecDepth 65536 in
set_option maxHeartbeats 4000000 in
theorem after_arg2 (V : Valuation τ sig (Elt F)) :
    after (ops (F := F)) V (Proc.devRef .tc main_arg2) = V (Proc.devRef .tc main_arg2) := by
  after_kept

set_option maxRecDepth 65536 in
set_option maxHeartbeats 4000000 in
theorem after_arg3 (V : Valuation τ sig (Elt F)) :
    after (ops (F := F)) V (Proc.devRef .tc main_arg3) = V (Proc.devRef .tc main_arg3) := by
  after_kept

set_option maxRecDepth 65536 in
set_option maxHeartbeats 4000000 in
theorem after_arg4 (V : Valuation τ sig (Elt F)) :
    after (ops (F := F)) V (Proc.devRef .tc main_arg4) = V (Proc.devRef .tc main_arg4) := by
  after_kept

set_option maxRecDepth 65536 in
set_option maxHeartbeats 4000000 in
theorem after_arg5 (V : Valuation τ sig (Elt F)) :
    after (ops (F := F)) V (Proc.devRef .tc main_arg5) = V (Proc.devRef .tc main_arg5) := by
  after_kept

set_option maxRecDepth 65536 in
set_option maxHeartbeats 4000000 in
theorem after_arg6 (V : Valuation τ sig (Elt F)) :
    after (ops (F := F)) V (Proc.devRef .tc main_arg6) = V (Proc.devRef .tc main_arg6) := by
  after_kept

set_option maxRecDepth 65536 in
set_option maxHeartbeats 4000000 in
theorem after_arg7 (V : Valuation τ sig (Elt F)) :
    after (ops (F := F)) V (Proc.devRef .tc main_arg7) = V (Proc.devRef .tc main_arg7) := by
  after_kept

set_option maxRecDepth 65536 in
set_option maxHeartbeats 4000000 in
theorem after_arg8 (V : Valuation τ sig (Elt F)) :
    after (ops (F := F)) V (Proc.devRef .tc main_arg8) = V (Proc.devRef .tc main_arg8) := by
  after_kept

set_option maxRecDepth 65536 in
set_option maxHeartbeats 4000000 in
theorem after_arg9 (V : Valuation τ sig (Elt F)) :
    after (ops (F := F)) V (Proc.devRef .tc main_arg9) = V (Proc.devRef .tc main_arg9) := by
  after_kept

set_option maxRecDepth 65536 in
set_option maxHeartbeats 4000000 in
theorem after_arg10 (V : Valuation τ sig (Elt F)) :
    after (ops (F := F)) V (Proc.devRef .tc main_arg10) = V (Proc.devRef .tc main_arg10) := by
  after_kept

set_option maxRecDepth 65536 in
set_option maxHeartbeats 4000000 in
theorem after_arg11 (V : Valuation τ sig (Elt F)) :
    after (ops (F := F)) V (Proc.devRef .tc main_arg11) = V (Proc.devRef .tc main_arg11) := by
  after_kept

set_option maxRecDepth 65536 in
set_option maxHeartbeats 4000000 in
theorem after_arg12 (V : Valuation τ sig (Elt F)) :
    after (ops (F := F)) V (Proc.devRef .tc main_arg12) = V (Proc.devRef .tc main_arg12) := by
  after_kept

set_option maxRecDepth 65536 in
set_option maxHeartbeats 4000000 in
theorem after_arg13 (V : Valuation τ sig (Elt F)) :
    after (ops (F := F)) V (Proc.devRef .tc main_arg13) = V (Proc.devRef .tc main_arg13) := by
  after_kept

set_option maxRecDepth 65536 in
set_option maxHeartbeats 4000000 in
theorem after_arg14 (V : Valuation τ sig (Elt F)) :
    after (ops (F := F)) V (Proc.devRef .tc main_arg14) = V (Proc.devRef .tc main_arg14) := by
  after_kept

set_option maxRecDepth 65536 in
set_option maxHeartbeats 4000000 in
theorem after_arg15 (V : Valuation τ sig (Elt F)) :
    after (ops (F := F)) V (Proc.devRef .tc main_arg15) = V (Proc.devRef .tc main_arg15) := by
  after_kept

set_option maxRecDepth 65536 in
set_option maxHeartbeats 4000000 in
theorem after_arg16 (V : Valuation τ sig (Elt F)) :
    after (ops (F := F)) V (Proc.devRef .tc main_arg16) = V (Proc.devRef .tc main_arg16) := by
  after_kept

set_option maxRecDepth 65536 in
set_option maxHeartbeats 4000000 in
theorem after_arg17 (V : Valuation τ sig (Elt F)) :
    after (ops (F := F)) V (Proc.devRef .tc main_arg17) = V (Proc.devRef .tc main_arg17) := by
  after_kept

set_option maxRecDepth 65536 in
set_option maxHeartbeats 4000000 in
theorem after_arg18 (V : Valuation τ sig (Elt F)) :
    after (ops (F := F)) V (Proc.devRef .tc main_arg18) = V (Proc.devRef .tc main_arg18) := by
  after_kept

set_option maxRecDepth 65536 in
set_option maxHeartbeats 4000000 in
theorem after_arg19 (V : Valuation τ sig (Elt F)) :
    after (ops (F := F)) V (Proc.devRef .tc main_arg19) = V (Proc.devRef .tc main_arg19) := by
  after_kept

set_option maxRecDepth 65536 in
set_option maxHeartbeats 4000000 in
theorem after_arg20 (V : Valuation τ sig (Elt F)) :
    after (ops (F := F)) V (Proc.devRef .tc main_arg20) = V (Proc.devRef .tc main_arg20) := by
  after_kept

set_option maxRecDepth 65536 in
set_option maxHeartbeats 4000000 in
theorem after_arg21 (V : Valuation τ sig (Elt F)) :
    after (ops (F := F)) V (Proc.devRef .tc main_arg21) = V (Proc.devRef .tc main_arg21) := by
  after_kept

set_option maxRecDepth 65536 in
set_option maxHeartbeats 4000000 in
theorem after_arg22 (V : Valuation τ sig (Elt F)) :
    after (ops (F := F)) V (Proc.devRef .tc main_arg22) = V (Proc.devRef .tc main_arg22) := by
  after_kept

end Cert.DetHead.Ref

end
-- ==== Proof.RefLayers.lean ====
/-
  One layer at a time, read at an index. Each kind of layer the reference is built from — an affine map with its bias
  broadcast along the rows, the clamp at zero, the logistic function spelt as a quotient, the stretch to an interval,
  the mean and the guarded variance over a row's 256 channels with the normalisation built on them, and the joins of
  arrays side by side — is named as a function of whole arrays, and its value at a (row, column) index is shown to be
  the row-wise formula of the specification.
-/
import proofs.«169133_g884763263511_cont_9to1_m_545_24_alg».proof.Proof.Spec
import proofs.«169133_g884763263511_cont_9to1_m_545_24_alg».proof.Proof.LibDotEntry
import Idealize.ShloMosaic.Lib.IdealHost
import Idealize.ShloMosaic.Lib.Pipeline.Value
import Idealize.ShloMosaic.Lib.ValueIdx
import Idealize.ShloMosaic.PureOps.Ideal.Laws

noncomputable section

namespace Cert.DetHead.Ref

open Idealize.ShloMosaic Idealize.ShloMosaic.ValueIdx Cert.DetHead

/-- The rank-zero shape of a scalar. -/
abbrev Sc0 : Shape := ⟨0, ![]⟩

/-- The word of the float one is the extended real one. -/
theorem ofBits_one_f32 : Ideal.ofBits .f32 0x3F800000#32 = 1 := by
  simp [Ideal.ofBits, Ideal.ieee, -EReal.coe_mul]; norm_num

/-! ## Broadcasts -/

/-- A vector laid along the columns of every row: first to one row, then to all of them. -/
theorem bcastRow_apply {n M : Nat} (h1 : (⟨1, ![M]⟩ : Shape).BroadcastsInDim ⟨2, ![1, M]⟩ ![1])
    (h2 : (⟨2, ![1, M]⟩ : Shape).BroadcastsInDim ⟨2, ![n, M]⟩ ![0, 1])
    (b : (⟨1, ![M]⟩ : Shape).Idx → EReal) (i : Fin n) (q : Fin M) :
    broadcastInDim ⟨2, ![n, M]⟩ ![0, 1] h2 (broadcastInDim ⟨2, ![1, M]⟩ ![1] h1 b) (ix2 i q) = b (ix1 q) := by
  have hq : M = 1 → q.val = 0 := fun h => by have := q.isLt; omega
  rw [broadcastInDim_apply ![0, 1] h2 _ (ix2 i q) (ix2 (⟨0, by omega⟩ : Fin 1) q) (by
        intro a
        match a with
        | ⟨0, _⟩ => exact (if_pos rfl).symm
        | ⟨1, _⟩ =>
          show q.val = if M = 1 then 0 else q.val
          split
          · exact hq ‹_›
          · rfl),
    broadcastInDim_apply ![1] h1 b (ix2 (⟨0, by omega⟩ : Fin 1) q) (ix1 q) (by
        intro a
        match a with
        | ⟨0, _⟩ =>
          show q.val = if M = 1 then 0 else q.val
          split
          · exact hq ‹_›
          · rfl)]

/-- A column (one entry per row) laid along every column of its row. -/
theorem bcastCol_apply {n M : Nat} (hn : n ≠ 1) (h : (⟨2, ![n, 1]⟩ : Shape).BroadcastsInDim ⟨2, ![n, M]⟩ ![0, 1])
    (x : (⟨2, ![n, 1]⟩ : Shape).Idx → EReal) (i : Fin n) (q : Fin M) :
    broadcastInDim ⟨2, ![n, M]⟩ ![0, 1] h x (ix2 i q) = x (ix2 i (⟨0, by omega⟩ : Fin 1)) :=
  broadcastInDim_apply ![0, 1] h x (ix2 i q) (ix2 i (⟨0, by omega⟩ : Fin 1)) (by
    intro a
    match a with
    | ⟨0, _⟩ =>
      show i.val = if n = 1 then 0 else i.val
      rw [if_neg hn]
    | ⟨1, _⟩ => exact (if_pos rfl).symm)

/-- A vector of one entry per row stood up as a column. -/
theorem bcastStand_apply {n : Nat} (hn : n ≠ 1) (h : (⟨1, ![n]⟩ : Shape).BroadcastsInDim ⟨2, ![n, 1]⟩ ![0])
    (x : (⟨1, ![n]⟩ : Shape).Idx → EReal) (i : Fin n) (z : Fin 1) :
    broadcastInDim ⟨2, ![n, 1]⟩ ![0] h x (ix2 i z) = x (ix1 i) :=
  broadcastInDim_apply ![0] h x (ix2 i z) (ix1 i) (by
    intro a
    match a with
    | ⟨0, _⟩ =>
      show i.val = if n = 1 then 0 else i.val
      rw [if_neg hn])

/-! ## The affine layer, the clamp, the logistic function, the stretch -/

/-- An affine layer over whole arrays: the matrix product plus the bias laid along every row. -/
def affA {n K M : Nat} (D : DotDims ⟨2, ![n, K]⟩ ⟨2, ![K, M]⟩ ⟨2, ![n, M]⟩)
    (h1 : (⟨1, ![M]⟩ : Shape).BroadcastsInDim ⟨2, ![1, M]⟩ ![1])
    (h2 : (⟨2, ![1, M]⟩ : Shape).BroadcastsInDim ⟨2, ![n, M]⟩ ![0, 1])
    (x : FVec Ideal ⟨2, ![n, K]⟩ .f32) (W : FVec Ideal ⟨2, ![K, M]⟩ .f32) (b : FVec Ideal ⟨1, ![M]⟩ .f32) :
    FVec Ideal ⟨2, ![n, M]⟩ .f32 :=
  addf (Host.dotGeneral (F := Ideal) D none x W)
    (broadcastInDim ⟨2, ![n, M]⟩ ![0, 1] h2 (broadcastInDim ⟨2, ![1, M]⟩ ![1] h1 b))

/-- At (row, column) it is the specification's affine map of that row. -/
theorem affA_apply {n K M : Nat} (D : DotDims ⟨2, ![n, K]⟩ ⟨2, ![K, M]⟩ ⟨2, ![n, M]⟩)
    (hr : D.contr.rank = 1) (hs : D.contr.size ⟨0, by omega⟩ = K)
    (hl0 : ∀ (i : (⟨2, ![n, M]⟩ : Shape).Idx) (c : D.contr.Idx), (D.lhsIdx i c 0).val = (i 0).val)
    (hl1 : ∀ (i : (⟨2, ![n, M]⟩ : Shape).Idx) (c : D.contr.Idx), (D.lhsIdx i c 1).val = (c ⟨0, by omega⟩).val)
    (hr0 : ∀ (i : (⟨2, ![n, M]⟩ : Shape).Idx) (c : D.contr.Idx), (D.rhsIdx i c 0).val = (c ⟨0, by omega⟩).val)
    (hr1 : ∀ (i : (⟨2, ![n, M]⟩ : Shape).Idx) (c : D.contr.Idx), (D.rhsIdx i c 1).val = (i 1).val)
    (h1 : (⟨1, ![M]⟩ : Shape).BroadcastsInDim ⟨2, ![1, M]⟩ ![1])
    (h2 : (⟨2, ![1, M]⟩ : Shape).BroadcastsInDim ⟨2, ![n, M]⟩ ![0, 1])
    (x : FVec Ideal ⟨2, ![n, K]⟩ .f32) (W : FVec Ideal ⟨2, ![K, M]⟩ .f32) (b : FVec Ideal ⟨1, ![M]⟩ .f32)
    (i : Fin n) (q : Fin M) :
    affA D h1 h2 x W b (ix2 i q) = affine (rowOf x i) (mat W) (vec b) q := by
  unfold affA affine rowOf mat vec
  rw [addf_apply, Cert.Lib.DotEntry.dotGeneral_ix2 D hr hs hl0 hl1 hr0 hr1, bcastRow_apply]

/-- The clamp at zero over a whole array: the maximum with the zero word broadcast. -/
def reluA {s : Shape} (h : Sc0.BroadcastsInDim s ![]) (x : FVec Ideal s .f32) : FVec Ideal s .f32 :=
  maximumf x (broadcastInDim s ![] h (constant (F := Ideal) Sc0 .f32 0x00000000#32))

theorem reluA_apply {s : Shape} (h : Sc0.BroadcastsInDim s ![]) (x : FVec Ideal s .f32) (j : s.Idx) :
    reluA h x j = max (x j) 0 := by
  unfold reluA
  rw [maximumf_apply, broadcastInDim_scalar_apply, constant_apply, Ideal.ofBits_zero_f32]

/-- The logistic function over a whole array, spelt as the reference spells it: one over one plus the exponential of
    the negation, each one the word of the float one broadcast. -/
def sigA {s : Shape} (h : Sc0.BroadcastsInDim s ![]) (z : FVec Ideal s .f32) : FVec Ideal s .f32 :=
  Host.divf (F := Ideal) (broadcastInDim s ![] h (constant (F := Ideal) Sc0 .f32 0x3F800000#32))
    (addf (broadcastInDim s ![] h (constant (F := Ideal) Sc0 .f32 0x3F800000#32)) (Host.exp (Host.negf z)))

theorem sigA_apply {s : Shape} (h : Sc0.BroadcastsInDim s ![]) (z : FVec Ideal s .f32) (j : s.Idx) :
    sigA h z j = sigm (z j) := by
  unfold sigA sigm
  show Ideal.div (broadcastInDim s ![] h (constant (F := Ideal) Sc0 .f32 0x3F800000#32) j)
      (broadcastInDim s ![] h (constant (F := Ideal) Sc0 .f32 0x3F800000#32) j + Ideal.exp (-(z j)))
    = Ideal.div 1 (1 + Ideal.exp (-(z j)))
  rw [broadcastInDim_scalar_apply, constant_apply, ofBits_one_f32]

/-- The stretch of a whole array to the interval of the scales: times the width word, plus the lower-end word. -/
def spanA {s : Shape} (h : Sc0.BroadcastsInDim s ![]) (y : FVec Ideal s .f32) : FVec Ideal s .f32 :=
  addf (mulf y (broadcastInDim s ![] h (constant (F := Ideal) Sc0 .f32 0x3DA3D70A#32)))
    (broadcastInDim s ![] h (constant (F := Ideal) Sc0 .f32 0x3CA3D70A#32))

theorem spanA_apply {s : Shape} (h : Sc0.BroadcastsInDim s ![]) (y : FVec Ideal s .f32) (j : s.Idx) :
    spanA h y j = y j * cSpan + cMin := by
  unfold spanA cSpan cMin
  rw [addf_apply, mulf_apply, broadcastInDim_scalar_apply, broadcastInDim_scalar_apply, constant_apply, constant_apply]

/-! ## The mean, the guarded variance and the normalisation over a row's 256 channels -/

/-- The array normalised (20000 rows of 256 channels), a value per row, and a column of one value per row. -/
abbrev SX : Shape := ⟨2, ![20000, 256]⟩
abbrev SR : Shape := ⟨1, ![20000]⟩
abbrev SC : Shape := ⟨2, ![20000, 1]⟩

/-- The shape facts the normalisation's operations take. -/
structure NormFacts : Prop where
  red : SX.ReducesTo [1] SR
  pos : 0 < Sc0.numel
  stand : SR.BroadcastsInDim SC (![0] : Fin 1 → Fin SC.rank)
  sc : Sc0.BroadcastsInDim SC (![] : Fin 0 → Fin SC.rank)
  col : SC.BroadcastsInDim SX (![0, 1] : Fin 2 → Fin SX.rank)
  sx : Sc0.BroadcastsInDim SX (![] : Fin 0 → Fin SX.rank)
  vrow : (⟨1, ![256]⟩ : Shape).BroadcastsInDim ⟨2, ![1, 256]⟩ (![1] : Fin 1 → Fin 2)
  rows : (⟨2, ![1, 256]⟩ : Shape).BroadcastsInDim SX (![0, 1] : Fin 2 → Fin SX.rank)

/-- A row sum stood up as a column: the reduction from the zero word over the channels, one value per row. -/
def rowSumA (N : NormFacts) (x : FVec Ideal SX .f32) : FVec Ideal SC .f32 :=
  broadcastInDim SC ![0] N.stand (Host.reduceAdd (F := Ideal) x (constant (F := Ideal) Sc0 .f32 0x00000000#32) N.red N.pos)

theorem rowSumA_apply (N : NormFacts) (x : FVec Ideal SX .f32) (i : Fin 20000) (z : Fin 1) :
    rowSumA N x (ix2 i z) = ∑ k : Fin 256, x (ix2 i k) := by
  unfold rowSumA
  have hR : SX.Reduces [1] SR := by decide
  rw [bcastStand_apply (by decide) N.stand, hostReduceAdd_apply, Ideal.hostReduceAdd_single N.red hR, constant_apply,
    Ideal.ofBits_zero_f32, zero_add]
  show (∑ k : Fin 256, x (hR.lift (ix1 i) k)) = ∑ k : Fin 256, x (ix2 i k)
  refine Finset.sum_congr rfl fun k _ => congrArg x (funext fun a => Fin.ext ?_)
  match a with
  | ⟨0, _⟩ => rfl
  | ⟨1, _⟩ => rfl

/-- The mean over the channels as a column: the row sum over the word of 256. -/
def meanA (N : NormFacts) (x : FVec Ideal SX .f32) : FVec Ideal SC .f32 :=
  Host.divf (F := Ideal) (rowSumA N x) (broadcastInDim SC ![] N.sc (constant (F := Ideal) Sc0 .f32 0x43800000#32))

theorem meanA_apply (N : NormFacts) (x : FVec Ideal SX .f32) (i : Fin 20000) (z : Fin 1) :
    meanA N x (ix2 i z) = mean (rowOf x i) := by
  unfold meanA mean rowOf c256
  show Ideal.div (rowSumA N x (ix2 i z))
      (broadcastInDim SC ![] N.sc (constant (F := Ideal) Sc0 .f32 0x43800000#32) (ix2 i z)) = _
  rw [rowSumA_apply, broadcastInDim_scalar_apply, constant_apply]

/-- The deviations from a column of per-row values. -/
def devA (N : NormFacts) (mu : FVec Ideal SC .f32) (x : FVec Ideal SX .f32) : FVec Ideal SX .f32 :=
  subf x (broadcastInDim SX ![0, 1] N.col mu)

theorem devA_apply (N : NormFacts) (mu : FVec Ideal SC .f32) (x : FVec Ideal SX .f32) (i : Fin 20000) (q : Fin 256) :
    devA N mu x (ix2 i q) = x (ix2 i q) - mu (ix2 i (⟨0, by omega⟩ : Fin 1)) := by
  unfold devA
  rw [subf_apply, bcastCol_apply (by decide) N.col]

/-- The count of summands as a scalar: the word of 256 less the integer word zero converted. -/
def cntA : FVec Ideal Sc0 .f32 :=
  subf (constant (F := Ideal) Sc0 .f32 0x43800000#32) (sitofp .f32 (constantI Sc0 32 0#32))

theorem cntA_apply (j : Sc0.Idx) : cntA j = cnt := rfl

/-- The guarded variance as a column: the sum of the squared deviations over the count where the count is positive,
    the other word elsewhere. -/
def varA (N : NormFacts) (x : FVec Ideal SX .f32) : FVec Ideal SC .f32 :=
  select (broadcastInDim SC ![] N.sc (cmpf .ogt cntA (constant (F := Ideal) Sc0 .f32 0x00000000#32)))
    (Host.divf (F := Ideal) (rowSumA N (mulf (devA N (meanA N x) x) (devA N (meanA N x) x)))
      (broadcastInDim SC ![] N.sc cntA))
    (broadcastInDim SC ![] N.sc (id (constant (F := Ideal) Sc0 .f32 0x7FC00000#32)))

theorem varA_apply (N : NormFacts) (x : FVec Ideal SX .f32) (i : Fin 20000) (z : Fin 1) :
    varA N x (ix2 i z) = varR (rowOf x i) := by
  unfold varA varR cNaN
  show Scalar.select (broadcastInDim SC ![] N.sc (cmpf .ogt cntA (constant (F := Ideal) Sc0 .f32 0x00000000#32)) (ix2 i z))
      (Ideal.div (rowSumA N (mulf (devA N (meanA N x) x) (devA N (meanA N x) x)) (ix2 i z))
        (broadcastInDim SC ![] N.sc cntA (ix2 i z)))
      (broadcastInDim SC ![] N.sc (constant (F := Ideal) Sc0 .f32 0x7FC00000#32) (ix2 i z)) = _
  rw [rowSumA_apply, broadcastInDim_scalar_apply, broadcastInDim_scalar_apply, broadcastInDim_scalar_apply, constant_apply,
    cntA_apply]
  show Scalar.select (Ideal.cmp .ogt (cntA ix0) (constant (F := Ideal) Sc0 .f32 0x00000000#32 ix0)) _ _ = _
  rw [cntA_apply, constant_apply, Ideal.ofBits_zero_f32]
  refine congrArg (fun t => Scalar.select _ (Ideal.div t cnt) _) (Finset.sum_congr rfl fun k _ => ?_)
  rw [mulf_apply, devA_apply, meanA_apply]
  rfl

/-- The normalisation over whole arrays: the deviations from the mean over the square root of the guarded variance
    plus the epsilon word, times the gain, plus the shift, clamped at zero. -/
def normA (N : NormFacts) (x : FVec Ideal SX .f32) (g β : FVec Ideal ⟨1, ![256]⟩ .f32) : FVec Ideal SX .f32 :=
  reluA N.sx (addf (mulf (Host.divf (F := Ideal) (devA N (meanA N x) x)
        (broadcastInDim SX ![0, 1] N.col
          (Host.sqrt (addf (varA N x) (broadcastInDim SC ![] N.sc (constant (F := Ideal) Sc0 .f32 0x3727C5AC#32))))))
      (broadcastInDim SX ![0, 1] N.rows (broadcastInDim ⟨2, ![1, 256]⟩ ![1] N.vrow g)))
    (broadcastInDim SX ![0, 1] N.rows (broadcastInDim ⟨2, ![1, 256]⟩ ![1] N.vrow β)))

theorem normA_apply (N : NormFacts) (x : FVec Ideal SX .f32) (g β : FVec Ideal ⟨1, ![256]⟩ .f32) (i : Fin 20000) (q : Fin 256) :
    normA N x g β (ix2 i q) = normR (rowOf x i) (vec g) (vec β) q := by
  unfold normA normR vec cEps
  rw [reluA_apply, addf_apply, mulf_apply, bcastRow_apply, bcastRow_apply]
  show max (Ideal.div (devA N (meanA N x) x (ix2 i q))
      (broadcastInDim SX ![0, 1] N.col
          (Host.sqrt (addf (varA N x) (broadcastInDim SC ![] N.sc (constant (F := Ideal) Sc0 .f32 0x3727C5AC#32)))) (ix2 i q))
        * g (ix1 q) + β (ix1 q)) 0 = _
  rw [devA_apply, meanA_apply, bcastCol_apply (by decide) N.col]
  show max (Ideal.div (x (ix2 i q) - mean (rowOf x i))
      (Ideal.sqrt (varA N x (ix2 i (⟨0, by omega⟩ : Fin 1))
        + broadcastInDim SC ![] N.sc (constant (F := Ideal) Sc0 .f32 0x3727C5AC#32) (ix2 i (⟨0, by omega⟩ : Fin 1))))
        * g (ix1 q) + β (ix1 q)) 0 = _
  rw [varA_apply, broadcastInDim_scalar_apply, constant_apply]
  rfl

/-! ## The joins: the seven head outputs side by side, and the trunk joined with them -/

abbrev S4c : Shape := ⟨2, ![20000, 4]⟩
abbrev S2c : Shape := ⟨2, ![20000, 2]⟩
abbrev S1c : Shape := ⟨2, ![20000, 1]⟩
abbrev S7c : Shape := ⟨2, ![20000, 7]⟩
abbrev S263c : Shape := ⟨2, ![20000, 263]⟩

/-- The shape facts the two joins take. -/
structure JoinFacts : Prop where
  three : Shape.Concatenates [S4c, S2c, S1c] S7c 1
  two : Shape.Concatenates [SX, S7c] S263c 1

/-- The seven head outputs side by side: four, two and one columns. -/
def combA (J : JoinFacts) (b : FVec Ideal S4c .f32) (s : FVec Ideal S2c .f32) (c : FVec Ideal S1c .f32) : FVec Ideal S7c .f32 :=
  concatenate S7c 1 [⟨S4c, b⟩, ⟨S2c, s⟩, ⟨S1c, c⟩] J.three

theorem combA_apply (J : JoinFacts) (b : FVec Ideal S4c .f32) (s : FVec Ideal S2c .f32) (c : FVec Ideal S1c .f32)
    (i : Fin 20000) (k : Fin 7) :
    combA J b s c (ix2 i k) =
      if h4 : k.val < 4 then b (ix2 i ⟨k.val, h4⟩)
      else if h6 : k.val < 6 then s (ix2 i ⟨k.val - 4, by omega⟩)
      else c (ix2 i ⟨k.val - 6, by omega⟩) := by
  unfold combA
  split
  · rename_i h4
    refine concatenate_apply_piece (t := S7c) (1 : Fin 2) ([⟨S4c, b⟩, ⟨S2c, s⟩, ⟨S1c, c⟩] : List ((s : Shape) × (s.Idx → EReal))) J.three (ix2 i k) 0 (by show 0 < 3; omega) S4c b rfl rfl 0 rfl (ix2 i ⟨k.val, h4⟩) ?_ ?_
    · intro a ha
      match a with
      | ⟨0, _⟩ => rfl
      | ⟨1, _⟩ => exact absurd rfl ha
    · exact Nat.zero_add _
  · split
    · rename_i h4 h6
      refine concatenate_apply_piece (t := S7c) (1 : Fin 2) ([⟨S4c, b⟩, ⟨S2c, s⟩, ⟨S1c, c⟩] : List ((s : Shape) × (s.Idx → EReal))) J.three (ix2 i k) 1 (by show 1 < 3; omega) S2c s rfl rfl 4 rfl
        (ix2 i ⟨k.val - 4, by omega⟩) ?_ ?_
      · intro a ha
        match a with
        | ⟨0, _⟩ => rfl
        | ⟨1, _⟩ => exact absurd rfl ha
      · show 4 + (k.val - 4) = k.val
        omega
    · rename_i h4 h6
      refine concatenate_apply_piece (t := S7c) (1 : Fin 2) ([⟨S4c, b⟩, ⟨S2c, s⟩, ⟨S1c, c⟩] : List ((s : Shape) × (s.Idx → EReal))) J.three (ix2 i k) 2 (by show 2 < 3; omega) S1c c rfl rfl 6 rfl
        (ix2 i ⟨k.val - 6, by omega⟩) ?_ ?_
      · intro a ha
        match a with
        | ⟨0, _⟩ => rfl
        | ⟨1, _⟩ => exact absurd rfl ha
      · show 6 + (k.val - 6) = k.val
        omega

/-- The trunk's 256 columns joined with seven more. -/
def joinA (J : JoinFacts) (t : FVec Ideal SX .f32) (w : FVec Ideal S7c .f32) : FVec Ideal S263c .f32 :=
  concatenate S263c 1 [⟨SX, t⟩, ⟨S7c, w⟩] J.two

theorem joinA_apply (J : JoinFacts) (t : FVec Ideal SX .f32) (w : FVec Ideal S7c .f32) (i : Fin 20000) (k : Fin 263) :
    joinA J t w (ix2 i k) =
      if h : k.val < 256 then t (ix2 i ⟨k.val, h⟩) else w (ix2 i ⟨k.val - 256, by omega⟩) := by
  unfold joinA
  split
  · rename_i h
    refine concatenate_pair_apply_left (1 : Fin 2) t w J.two (ix2 i k) rfl (ix2 i ⟨k.val, h⟩) ?_
    intro a
    match a with
    | ⟨0, _⟩ => rfl
    | ⟨1, _⟩ => rfl
  · rename_i h
    refine concatenate_pair_apply_right (1 : Fin 2) t w J.two (ix2 i k) rfl rfl (ix2 i ⟨k.val - 256, by omega⟩) ?_ ?_
    · intro a ha
      match a with
      | ⟨0, _⟩ => rfl
      | ⟨1, _⟩ => exact absurd rfl ha
    · show (k.val - 256) + 256 = k.val
      omega

end Cert.DetHead.Ref

end
-- ==== Proof.RefArrays.lean ====
/-
  The reference's values as whole arrays of its twenty-three arguments: the layers of the previous module composed in
  the program's order, at the program's own shape facts and dimension records. The first affine layer, the
  normalisation and the second affine layer make the trunk; each head is affine, clamp, affine, logistic (the scales
  stretched afterwards); the confidence reads the trunk joined with the seven head outputs.
-/
import proofs.«169133_g884763263511_cont_9to1_m_545_24_alg».proof.Proof.RefLayers
import proofs.«169133_g884763263511_cont_9to1_m_545_24_alg».proof.Proof.Gen.ReferenceIdeal

noncomputable section

namespace Cert.DetHead.Ref

open Cert.ReferenceIdeal Cert.ReferenceIdeal.Gen Idealize.ShloMosaic Idealize.ShloMosaic.ValueIdx Cert.DetHead

/-- The normalisation's shape facts, as the program proves them. -/
theorem NF : NormFacts :=
  ⟨reducesTo_S20000x256_S20000_d1, h_S_, bcast_S20000_S20000x1_0, bcast_S_S20000x1, bcast_S20000x1_S20000x256_0_1,
    bcast_S_S20000x256, bcast_S256_S1x256_1, bcast_S1x256_S20000x256_0_1⟩

/-- The joins' shape facts, as the program proves them. -/
theorem JF : JoinFacts :=
  ⟨concatenates_S20000x4_S20000x2_S20000x1_S20000x7_d1, concatenates_S20000x256_S20000x7_S20000x263_d1⟩

/-- The program's twenty-three argument arrays, in its order. -/
structure Inputs where
  x : FVec Ideal S20000x512 .f32
  W1 : FVec Ideal S512x256 .f32
  b1 : FVec Ideal S256 .f32
  g : FVec Ideal S256 .f32
  β : FVec Ideal S256 .f32
  W2 : FVec Ideal S256x256 .f32
  b2 : FVec Ideal S256 .f32
  lW1 : FVec Ideal S256x128 .f32
  lb1 : FVec Ideal S128 .f32
  lW2 : FVec Ideal S128x4 .f32
  lb2 : FVec Ideal S4 .f32
  sW1 : FVec Ideal S256x128 .f32
  sb1 : FVec Ideal S128 .f32
  sW2 : FVec Ideal S128x2 .f32
  sb2 : FVec Ideal S2 .f32
  cW1 : FVec Ideal S256x128 .f32
  cb1 : FVec Ideal S128 .f32
  cW2 : FVec Ideal S128x1 .f32
  cb2 : FVec Ideal S1 .f32
  fW1 : FVec Ideal S263x128 .f32
  fb1 : FVec Ideal S128 .f32
  fW2 : FVec Ideal S128x1 .f32
  fb2 : FVec Ideal S1 .f32

namespace Inputs

variable (I : Inputs)

/-- The parameters read from the twenty-two parameter arrays. -/
def params : Params :=
  paramsOf I.W1 I.b1 I.g I.β I.W2 I.b2 I.lW1 I.lb1 I.lW2 I.lb2 I.sW1 I.sb1 I.sW2 I.sb2 I.cW1 I.cb1 I.cW2 I.cb2 I.fW1 I.fb1 I.fW2 I.fb2

/-- Row `i` of the features. -/
def row (i : Fin 20000) : Fin 512 → EReal := rowOf I.x i

/-- The first affine layer. -/
def firstA : FVec Ideal S20000x256 .f32 :=
  affA dot_S20000x512_S512x256_S20000x256_1_0_0_1_n_n bcast_S256_S1x256_1 bcast_S1x256_S20000x256_0_1 I.x I.W1 I.b1

/-- The trunk: the first layer normalised, then the second affine layer. -/
def trunkA : FVec Ideal S20000x256 .f32 :=
  affA dot_S20000x256_S256x256_S20000x256_1_0_0_1_n_n bcast_S256_S1x256_1 bcast_S1x256_S20000x256_0_1 (normA NF I.firstA I.g I.β) I.W2 I.b2

/-- A head's hidden layer: affine to 128 channels, clamped. -/
def hidA (Wa : FVec Ideal S256x128 .f32) (ba : FVec Ideal S128 .f32) : FVec Ideal S20000x128 .f32 :=
  reluA bcast_S_S20000x128 (affA dot_S20000x256_S256x128_S20000x128_1_0_0_1_n_n bcast_S128_S1x128_1 bcast_S1x128_S20000x128_0_1 I.trunkA Wa ba)

/-- The four box coordinates. -/
def boxesA : FVec Ideal S20000x4 .f32 :=
  sigA bcast_S_S20000x4 (affA dot_S20000x128_S128x4_S20000x4_1_0_0_1_n_n bcast_S4_S1x4_1 bcast_S1x4_S20000x4_0_1 (I.hidA I.lW1 I.lb1) I.lW2 I.lb2)

/-- The two scales. -/
def scalesA : FVec Ideal S20000x2 .f32 :=
  spanA bcast_S_S20000x2
    (sigA bcast_S_S20000x2 (affA dot_S20000x128_S128x2_S20000x2_1_0_0_1_n_n bcast_S2_S1x2_1 bcast_S1x2_S20000x2_0_1 (I.hidA I.sW1 I.sb1) I.sW2 I.sb2))

/-- The context score. -/
def ctxA : FVec Ideal S20000x1 .f32 :=
  sigA bcast_S_S20000x1 (affA dot_S20000x128_S128x1_S20000x1_1_0_0_1_n_n bcast_S1_S1x1_1 bcast_S1x1_S20000x1_0_1 (I.hidA I.cW1 I.cb1) I.cW2 I.cb2)

/-- The trunk joined with the seven head outputs. -/
def joinedA : FVec Ideal S20000x263 .f32 :=
  joinA JF I.trunkA (combA JF I.boxesA I.scalesA I.ctxA)

/-- The confidence. -/
def confA : FVec Ideal S20000x1 .f32 :=
  sigA bcast_S_S20000x1 (affA dot_S20000x128_S128x1_S20000x1_1_0_0_1_n_n bcast_S1_S1x1_1 bcast_S1x1_S20000x1_0_1
    (reluA bcast_S_S20000x128 (affA dot_S20000x263_S263x128_S20000x128_1_0_0_1_n_n bcast_S128_S1x128_1 bcast_S1x128_S20000x128_0_1 I.joinedA I.fW1 I.fb1))
    I.fW2 I.fb2)

end Inputs

end Cert.DetHead.Ref

end
-- ==== Proof.RefAfter.lean ====
/-
  What the reference's run leaves in its four result buffers, as the whole-array values of its arguments: the fold of
  the operations read at a result buffer is the composition of the operations' functions, and that composition is,
  by unfolding the layers' definitions, the named array.
-/
import proofs.«169133_g884763263511_cont_9to1_m_545_24_alg».proof.Proof.RefRun
import proofs.«169133_g884763263511_cont_9to1_m_545_24_alg».proof.Proof.RefArrays

noncomputable section

namespace Cert.DetHead.Ref

open Cert.ReferenceIdeal Cert.ReferenceIdeal.Gen Idealize.ShloMosaic Idealize.ShloMosaic.TcCoe Idealize.SL.Sem Idealize.ShloMosaic.StableHlo

/-- The program's arguments as a valuation holds them. -/
def Inputs.of (V : Valuation τ sig (Elt Ideal)) : Inputs :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19), V (Proc.devRef .tc main_arg20), V (Proc.devRef .tc main_arg21), V (Proc.devRef .tc main_arg22)⟩

/-- A three-operand operation over a literal family of references leaves, at its result, its function of each
    operand's contents at that operand's own reference. -/
theorem nary3_result' {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The fold read at one buffer, as one rewriting pass: each operation's result at its own buffer is its function's
    value, at any other buffer what was there. -/
macro "after_pass" : tactic =>
  `(tactic| (simp (disch := decide) only [after_cons, after_nil,
      nullary_result', unary_result', binary_result', ternary_result', nary3_result', nary_result',
      nullary_result_ne', unary_result_ne', binary_result_ne', ternary_result_ne', nary_result_ne']))

attribute [local irreducible] Host.reduceAdd broadcastInDim concatenate in
set_option maxRecDepth 65536 in
set_option maxHeartbeats 4000000 in
theorem after_boxes (V : Valuation τ sig (Elt Ideal)) :
    after (ops (F := Ideal)) V (Proc.devRef .tc main_v41) = (Inputs.of V).boxesA := by
  after_pass
  rfl

attribute [local irreducible] Host.reduceAdd broadcastInDim concatenate in
set_option maxRecDepth 65536 in
set_option maxHeartbeats 4000000 in
theorem after_scales (V : Valuation τ sig (Elt Ideal)) :
    after (ops (F := Ideal)) V (Proc.devRef .tc main_v60) = (Inputs.of V).scalesA := by
  after_pass
  rfl

attribute [local irreducible] Host.reduceAdd broadcastInDim concatenate in
set_option maxRecDepth 65536 in
set_option maxHeartbeats 4000000 in
theorem after_ctx (V : Valuation τ sig (Elt Ideal)) :
    after (ops (F := Ideal)) V (Proc.devRef .tc main_v75) = (Inputs.of V).ctxA := by
  after_pass
  rfl

attribute [local irreducible] Host.reduceAdd broadcastInDim concatenate in
set_option maxRecDepth 65536 in
set_option maxHeartbeats 4000000 in
theorem after_conf (V : Valuation τ sig (Elt Ideal)) :
    after (ops (F := Ideal)) V (Proc.devRef .tc main_v92) = (Inputs.of V).confA := by
  after_pass
  rfl

end Cert.DetHead.Ref

end
-- ==== Proof.RefValues.lean ====
/-
  The reference's whole-array values read at an index are the specification's row-wise formulas: the trunk of a row,
  then each head at a (row, column), then the confidence, layer by layer through the lemmas that read one layer.
-/
import proofs.«169133_g884763263511_cont_9to1_m_545_24_alg».proof.Proof.RefArrays

noncomputable section

namespace Cert.DetHead.Ref

open Cert.ReferenceIdeal Cert.ReferenceIdeal.Gen Idealize.ShloMosaic Idealize.ShloMosaic.ValueIdx Cert.DetHead

namespace Inputs

variable (I : Inputs)

/-- Row `i` of the first affine layer. -/
theorem firstA_row (i : Fin 20000) : rowOf I.firstA i = first I.params (I.row i) := by
  funext q
  exact affA_apply dot_S20000x512_S512x256_S20000x256_1_0_0_1_n_n rfl rfl (fun _ _ => rfl) (fun _ _ => rfl) (fun _ _ => rfl) (fun _ _ => rfl) _ _ I.x I.W1 I.b1 i q

/-- Row `i` of the trunk. -/
theorem trunkA_row (i : Fin 20000) : rowOf I.trunkA i = trunk normR I.params (I.row i) := by
  funext q
  have hN : rowOf (normA NF I.firstA I.g I.β) i = normR (first I.params (I.row i)) (vec I.g) (vec I.β) := by
    funext k
    rw [← I.firstA_row i]
    exact normA_apply NF I.firstA I.g I.β i k
  refine (affA_apply dot_S20000x256_S256x256_S20000x256_1_0_0_1_n_n rfl rfl (fun _ _ => rfl) (fun _ _ => rfl) (fun _ _ => rfl) (fun _ _ => rfl) _ _ (normA NF I.firstA I.g I.β) I.W2 I.b2 i q).trans ?_
  rw [hN]
  rfl

/-- Row `i` of a head's hidden layer. -/
theorem hidA_row (Wa : FVec Ideal S256x128 .f32) (ba : FVec Ideal S128 .f32) (i : Fin 20000) :
    rowOf (I.hidA Wa ba) i = relu (affine (trunk normR I.params (I.row i)) (mat Wa) (vec ba)) := by
  funext q
  show reluA bcast_S_S20000x128 _ (ix2 i q) = _
  rw [reluA_apply, affA_apply dot_S20000x256_S256x128_S20000x128_1_0_0_1_n_n rfl rfl (fun _ _ => rfl) (fun _ _ => rfl) (fun _ _ => rfl) (fun _ _ => rfl), I.trunkA_row i]
  rfl

theorem boxesA_apply (i : Fin 20000) (q : Fin 4) : I.boxesA (ix2 i q) = boxes normR I.params (I.row i) q := by
  unfold boxesA
  rw [sigA_apply, affA_apply dot_S20000x128_S128x4_S20000x4_1_0_0_1_n_n rfl rfl (fun _ _ => rfl) (fun _ _ => rfl) (fun _ _ => rfl) (fun _ _ => rfl), I.hidA_row]
  rfl

theorem scalesA_apply (i : Fin 20000) (q : Fin 2) : I.scalesA (ix2 i q) = scales normR I.params (I.row i) q := by
  unfold scalesA
  rw [spanA_apply, sigA_apply, affA_apply dot_S20000x128_S128x2_S20000x2_1_0_0_1_n_n rfl rfl (fun _ _ => rfl) (fun _ _ => rfl) (fun _ _ => rfl) (fun _ _ => rfl), I.hidA_row]
  rfl

theorem ctxA_apply (i : Fin 20000) (q : Fin 1) : I.ctxA (ix2 i q) = ctx normR I.params (I.row i) q := by
  unfold ctxA
  rw [sigA_apply, affA_apply dot_S20000x128_S128x1_S20000x1_1_0_0_1_n_n rfl rfl (fun _ _ => rfl) (fun _ _ => rfl) (fun _ _ => rfl) (fun _ _ => rfl), I.hidA_row]
  rfl

/-- Row `i` of the trunk joined with the seven head outputs. -/
theorem joinedA_row (i : Fin 20000) : rowOf I.joinedA i = joined normR I.params (I.row i) := by
  funext k
  show I.joinedA (ix2 i k) = _
  unfold joinedA joined
  rw [joinA_apply]
  split
  · rename_i h
    exact congrFun (I.trunkA_row i) ⟨k.val, h⟩
  · rw [combA_apply]
    unfold combined
    simp only [boxesA_apply, scalesA_apply, ctxA_apply]

theorem confA_apply (i : Fin 20000) (q : Fin 1) :
    I.confA (ix2 i q) = conf I.params (hiddenJoin normR I.params (I.row i)) q := by
  have hH : rowOf (reluA bcast_S_S20000x128
        (affA dot_S20000x263_S263x128_S20000x128_1_0_0_1_n_n bcast_S128_S1x128_1 bcast_S1x128_S20000x128_0_1 I.joinedA I.fW1 I.fb1)) i
      = relu (affine (joined normR I.params (I.row i)) (mat I.fW1) (vec I.fb1)) := by
    funext k
    show reluA bcast_S_S20000x128 _ (ix2 i k) = _
    rw [reluA_apply, affA_apply dot_S20000x263_S263x128_S20000x128_1_0_0_1_n_n rfl rfl (fun _ _ => rfl) (fun _ _ => rfl) (fun _ _ => rfl) (fun _ _ => rfl), I.joinedA_row i]
    rfl
  unfold confA
  rw [sigA_apply, affA_apply dot_S20000x128_S128x1_S20000x1_1_0_0_1_n_n rfl rfl (fun _ _ => rfl) (fun _ _ => rfl) (fun _ _ => rfl) (fun _ _ => rfl), hH]
  rfl

end Inputs

end Cert.DetHead.Ref

end
-- ==== Proof.Ref.lean ====
/-
  The reference side of the certificate. From any memory with zero counters every weakly fair execution of the
  reference terminates; its four results, read at a (row, column) index, are then the specification's box
  coordinates, scales, context score and confidence of that row of the features under the parameters read from the
  twenty-two parameter arrays, with the normalisation written as the mean of the squared deviations under its guard and
  the confidence's hidden layer as one sum over the 263 joined entries; and its twenty-three arguments are as they were.
-/
import proofs.«169133_g884763263511_cont_9to1_m_545_24_alg».proof.Proof.RefRun
import proofs.«169133_g884763263511_cont_9to1_m_545_24_alg».proof.Proof.RefArgs
import proofs.«169133_g884763263511_cont_9to1_m_545_24_alg».proof.Proof.RefAfter
import proofs.«169133_g884763263511_cont_9to1_m_545_24_alg».proof.Proof.RefValues

noncomputable section

namespace Cert.DetHead.Ref

open Cert.ReferenceIdeal Cert.ReferenceIdeal.Gen Idealize.ShloMosaic Idealize.ShloMosaic.TcCoe Idealize.SL.Sem Idealize.ShloMosaic.StableHlo

set_option maxRecDepth 65536 in
set_option maxHeartbeats 4000000 in
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      (∀ (i : Fin 20000) (q : Fin 4), r.2.mem ((c.tc : Thread nD τ).loc main_v41) (ValueIdx.ix2 i q)
          = Cert.DetHead.boxes Cert.DetHead.normR
              (Cert.DetHead.paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
              (Cert.DetHead.rowOf (m ((c.tc : Thread nD τ).loc main_arg0)) i) q)
      ∧ (∀ (i : Fin 20000) (q : Fin 2), r.2.mem ((c.tc : Thread nD τ).loc main_v60) (ValueIdx.ix2 i q)
          = Cert.DetHead.scales Cert.DetHead.normR
              (Cert.DetHead.paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
              (Cert.DetHead.rowOf (m ((c.tc : Thread nD τ).loc main_arg0)) i) q)
      ∧ (∀ (i : Fin 20000) (q : Fin 1), r.2.mem ((c.tc : Thread nD τ).loc main_v75) (ValueIdx.ix2 i q)
          = Cert.DetHead.ctx Cert.DetHead.normR
              (Cert.DetHead.paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
              (Cert.DetHead.rowOf (m ((c.tc : Thread nD τ).loc main_arg0)) i) q)
      ∧ (∀ (i : Fin 20000) (q : Fin 1), r.2.mem ((c.tc : Thread nD τ).loc main_v92) (ValueIdx.ix2 i q)
          = Cert.DetHead.conf
              (Cert.DetHead.paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
              (Cert.DetHead.hiddenJoin Cert.DetHead.normR
                (Cert.DetHead.paramsOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
                (Cert.DetHead.rowOf (m ((c.tc : Thread nD τ).loc main_arg0)) i)) q)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run (defs (F := Ideal)) _ _).mono (fun r h c =>
    ⟨fun i q => by
        rw [h c main_v41, after_boxes]
        exact (Inputs.of (launchContents m c)).boxesA_apply i q,
      fun i q => by
        rw [h c main_v60, after_scales]
        exact (Inputs.of (launchContents m c)).scalesA_apply i q,
      fun i q => by
        rw [h c main_v75, after_ctx]
        exact (Inputs.of (launchContents m c)).ctxA_apply i q,
      fun i q => by
        rw [h c main_v92, after_conf]
        exact (Inputs.of (launchContents m c)).confA_apply i q,
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _),
      (h c main_arg9).trans (after_arg9 _),
      (h c main_arg10).trans (after_arg10 _),
      (h c main_arg11).trans (after_arg11 _),
      (h c main_arg12).trans (after_arg12 _),
      (h c main_arg13).trans (after_arg13 _),
      (h c main_arg14).trans (after_arg14 _),
      (h c main_arg15).trans (after_arg15 _),
      (h c main_arg16).trans (after_arg16 _),
      (h c main_arg17).trans (after_arg17 _),
      (h c main_arg18).trans (after_arg18 _),
      (h c main_arg19).trans (after_arg19 _),
      (h c main_arg20).trans (after_arg20 _),
      (h c main_arg21).trans (after_arg21 _),
      (h c main_arg22).trans (after_arg22 _)⟩)
    (run_after m ρ)

end Cert.DetHead.Ref

end
-- ==== Proof.FinNormAgree.lean ====
/-
  The two ways of writing the normalisation agree on a row of reals, and the first affine layer of a row of reals
  with real parameters is a row of reals.

  On a row `x` of reals the mean is the real `m = (∑ x) / 256`. The mean of the squares less `m²` and the mean
  of the squared deviations from `m` are the same real `v`: expand `(x k − m)²` and use `∑ x = 256 · m`. That `v`
  is not negative, being a mean of squares, so `v + ε` is a positive real for the positive real `ε` the word for the
  added literal denotes. At a positive real `s` the reciprocal square root is the real `(√s)⁻¹`, and dividing by the
  square root `√s ≠ 0` is multiplying by `1 / √s`: the two normalisations are the same expression. The count of
  summands in the second is `256 − 0 = 256 > 0`, so its guard holds.
-/
import proofs.«169133_g884763263511_cont_9to1_m_545_24_alg».proof.Proof.Spec
import Idealize.ShloMosaic.PureOps.Ideal
import Idealize.ShloMosaic.Lib.ValueIdx

noncomputable section

namespace Cert.DetHead

open Idealize.ShloMosaic

namespace FinNorm

/-! ## The three words -/

/-- The word for the number of channels denotes the real `256`. -/
theorem c256_eq : c256 = ((256 : ℝ) : EReal) := by
  unfold c256
  simp [Ideal.ofBits, Ideal.ieee, -EReal.coe_mul]; norm_num

/-- The real the word for the added literal denotes: `10995116 · 2⁻⁴⁰`, about `10⁻⁵`. -/
def epsR : ℝ := (10995116 : ℝ) * (2 : ℝ) ^ (-40 : ℤ)

theorem epsR_pos : 0 < epsR := by
  unfold epsR
  positivity

/-- The word for the added literal denotes the positive real `epsR`. -/
theorem cEps_eq : cEps = ((epsR : ℝ) : EReal) := by
  unfold cEps epsR
  simp [Ideal.ofBits, Ideal.ieee, -EReal.coe_mul]

/-- The count of summands is the real `256`: the integer word zero reads as `0`. -/
theorem cnt_eq : cnt = ((256 : ℝ) : EReal) := by
  unfold cnt
  rw [c256_eq]
  have h0 : (((0#32 : BitVec 32).toInt : ℝ)) = 0 := by simp
  rw [h0, EReal.coe_zero, sub_zero]

/-! ## Sums and quotients of reals -/

/-- A finite sum of reals, taken in the extended reals, is the real sum. -/
theorem coe_sum_fin {n : Nat} (r : Fin n → ℝ) : (∑ k : Fin n, ((r k : ℝ) : EReal)) = ((∑ k : Fin n, r k : ℝ) : EReal) := by
  induction (Finset.univ : Finset (Fin n)) using Finset.induction_on with
  | empty => simp
  | insert a s ha ih => rw [Finset.sum_insert ha, Finset.sum_insert ha, ih, EReal.coe_add]

/-- Dividing a real by `256`. -/
theorem div_256 (a : ℝ) : Ideal.div ((a : ℝ) : EReal) ((256 : ℝ) : EReal) = ((a / 256 : ℝ) : EReal) := by
  rw [Ideal.div_coe (by norm_num : (256 : ℝ) ≠ 0), ← EReal.coe_mul]
  congr 1
  ring

/-- The mean of a row of reals. -/
theorem mean_coe (r : Fin 256 → ℝ) : mean (fun k => ((r k : ℝ) : EReal)) = (((∑ k : Fin 256, r k) / 256 : ℝ) : EReal) := by
  unfold mean
  rw [coe_sum_fin, c256_eq, div_256]

/-- The first variance of a row of reals. -/
theorem varK_coe (r : Fin 256 → ℝ) :
    varK (fun k => ((r k : ℝ) : EReal))
      = (((∑ k : Fin 256, r k * r k) / 256 - (∑ k : Fin 256, r k) / 256 * ((∑ k : Fin 256, r k) / 256) : ℝ) : EReal) := by
  unfold varK
  rw [mean_coe]
  simp only [← EReal.coe_mul]
  rw [coe_sum_fin, c256_eq, div_256, ← EReal.coe_sub]

/-- The second variance of a row of reals: its guard holds, and it is the mean of the squared deviations. -/
theorem varR_coe (r : Fin 256 → ℝ) :
    varR (fun k => ((r k : ℝ) : EReal))
      = (((∑ k : Fin 256, (r k - (∑ j : Fin 256, r j) / 256) * (r k - (∑ j : Fin 256, r j) / 256)) / 256 : ℝ) : EReal) := by
  unfold varR
  rw [mean_coe, cnt_eq]
  have hg : Ideal.cmp .ogt ((256 : ℝ) : EReal) 0 = 1#1 := by
    have h : (0 : EReal) < ((256 : ℝ) : EReal) := by exact_mod_cast (by norm_num : (0 : ℝ) < 256)
    simp [Ideal.cmp, h]
  rw [hg, ValueIdx.select_one]
  simp only [← EReal.coe_sub, ← EReal.coe_mul]
  rw [coe_sum_fin, div_256]

/-- The two variances of a row of reals are the same real. -/
theorem var_real_eq (r : Fin 256 → ℝ) :
    (∑ k : Fin 256, r k * r k) / 256 - (∑ k : Fin 256, r k) / 256 * ((∑ k : Fin 256, r k) / 256)
      = (∑ k : Fin 256, (r k - (∑ j : Fin 256, r j) / 256) * (r k - (∑ j : Fin 256, r j) / 256)) / 256 := by
  set S : ℝ := ∑ k : Fin 256, r k with hS
  have h1 : ∀ k : Fin 256, (r k - S / 256) * (r k - S / 256) = r k * r k - (2 * (S / 256)) * r k + S / 256 * (S / 256) := by
    intro k; ring
  simp only [h1]
  rw [Finset.sum_add_distrib, Finset.sum_sub_distrib, ← Finset.mul_sum, Finset.sum_const, Finset.card_univ,
    Fintype.card_fin, nsmul_eq_mul, ← hS]
  push_cast
  ring

/-- The mean of the squared deviations is not negative. -/
theorem var_real_nonneg (r : Fin 256 → ℝ) :
    0 ≤ (∑ k : Fin 256, (r k - (∑ j : Fin 256, r j) / 256) * (r k - (∑ j : Fin 256, r j) / 256)) / 256 := by
  apply div_nonneg
  · exact Finset.sum_nonneg (fun k _ => mul_self_nonneg _)
  · norm_num

/-! ## The reciprocal square root and the quotient by the square root at a positive real -/

theorem rsqrt_pos {s : ℝ} (hs : 0 < s) : Ideal.rsqrt ((s : ℝ) : EReal) = (((Real.sqrt s)⁻¹ : ℝ) : EReal) := by
  rw [Ideal.rsqrt_coe, if_neg (not_lt.mpr hs.le), if_neg hs.ne']

theorem div_sqrt_pos {s : ℝ} (hs : 0 < s) (a : EReal) :
    Ideal.div a (Ideal.sqrt ((s : ℝ) : EReal)) = a * (((Real.sqrt s)⁻¹ : ℝ) : EReal) := by
  rw [Ideal.sqrt_coe, if_neg (not_lt.mpr hs.le), Ideal.div_coe (Real.sqrt_pos.mpr hs).ne', one_div]

end FinNorm

open FinNorm

/-! ## The two normalisations -/

/-- On a row of reals the two normalisations are the same row, whatever the gain and the shift. -/
theorem normK_eq_normR (x g β : Fin 256 → EReal) (hx : ∀ k, ∃ r : ℝ, x k = (r : EReal)) :
    normK x g β = normR x g β := by
  choose r hr using hx
  obtain rfl : x = fun k => ((r k : ℝ) : EReal) := funext hr
  funext q
  unfold normK normR
  rw [varK_coe, varR_coe, var_real_eq, cEps_eq, ← EReal.coe_add]
  have hs : 0 < (∑ k : Fin 256, (r k - (∑ j : Fin 256, r j) / 256) * (r k - (∑ j : Fin 256, r j) / 256)) / 256 + epsR :=
    add_pos_of_nonneg_of_pos (var_real_nonneg r) epsR_pos
  rw [rsqrt_pos hs, div_sqrt_pos hs]

/-! ## The first layer of a row of reals -/

/-- With real features, real weights and real shifts, every entry of the first affine layer is a real. -/
theorem first_real (P : Params) (f : Fin 512 → EReal) (hf : ∀ k, ∃ r : ℝ, f k = (r : EReal))
    (hW : ∀ k q, ∃ r : ℝ, P.W1 k q = (r : EReal)) (hb : ∀ q, ∃ r : ℝ, P.b1 q = (r : EReal)) :
    ∀ q, ∃ r : ℝ, first P f q = (r : EReal) := by
  intro q
  choose rf hrf using hf
  choose rW hrW using hW
  obtain ⟨rb, hrb⟩ := hb q
  refine ⟨(∑ k : Fin 512, rf k * rW k q) + rb, ?_⟩
  unfold first affine
  simp only [hrf, hrW, hrb, ← EReal.coe_mul]
  rw [coe_sum_fin, ← EReal.coe_add]

end Cert.DetHead

end
-- ==== Proof.FinInputs.lean ====
/-
  From "every entry of every input array is smaller than +∞ in absolute value" to "every entry of the first three
  arrays is a real".

  The precondition is one bit: for each of the 23 input arrays the test "every entry of |a| is below the word for
  +∞", and these 23 bits joined by 22 `and`s nested to the left. If the joined bit is 1 then each test is 1. A test
  is a reduction by `and` over all axes that came out 1, so the comparison is 1 at every entry. The word it compares
  against denotes the top element of the extended reals, and `|x| = max x (−x)` is below the top element only when
  `x` is neither of the two infinities: then `x` is a real. Only the first three tests are read back here — the
  feature array, the first weight matrix and the first shift.
-/
import proofs.«169133_g884763263511_cont_9to1_m_545_24_alg».proof.Pre_finite_inputs
import Idealize.ShloMosaic.PureOps.Ideal
import Idealize.ShloMosaic.Lib.ValueIdx
import Idealize.ShloMosaic.Lib.ReduceAll

noncomputable section

namespace Cert.DetHead

open Idealize.ShloMosaic Cert.Pre_finite_inputs

namespace FinInputs

/-- The shape with no axes has one index. -/
local instance subsingleton_S_ : Subsingleton S_.Idx := ⟨fun a b => funext fun d => d.elim0⟩

/-- The word the tests compare against denotes the top element. -/
theorem wInf : Ideal.ofBits .f32 0x7F800000#32 = (⊤ : EReal) := by
  simp [Ideal.ofBits, Ideal.ieee]

/-- An extended real whose absolute value is below the top element is a real. -/
theorem real_of_abs_lt_inf (x : EReal)
    (h : Ideal.cmp .olt (max x (-x)) (Ideal.ofBits .f32 0x7F800000#32) = 1#1) : ∃ r : ℝ, x = (r : EReal) := by
  rw [wInf] at h
  induction x using EReal.rec with
  | bot => simp [Ideal.cmp] at h
  | coe r => exact ⟨r, rfl⟩
  | top => simp [Ideal.cmp] at h

/-- One test read back: if "every entry of |a| is below +∞" came out 1, every entry of `a` is a real. -/
theorem all_real {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf a) (broadcastInDim s ![] hb (constant S_ .f32 0x7F800000#32))) init hr hu
      ValueIdx.ix0 = 1#1) :
    ∀ i, ∃ r : ℝ, a i = (r : EReal) := by
  intro i
  have hi := Host.reduce_andi_all _ init hr hu ValueIdx.ix0 e i
  exact real_of_abs_lt_inf (a i) hi

/-- An `and` of two one-bit arrays that is 1 at an index has its left operand 1 there. -/
theorem andi_left {s : Shape} (x y : IVec s 1) (j : s.Idx) (h : andi x y j = 1#1) : x j = 1#1 := (IntOp.andi_eq_one.1 h).1
/-- And its right operand. -/
theorem andi_right {s : Shape} (x y : IVec s 1) (j : s.Idx) (h : andi x y j = 1#1) : y j = 1#1 := (IntOp.andi_eq_one.1 h).2

end FinInputs

open FinInputs

/-- Under the precondition every entry of the feature array, of the first weight matrix and of the first shift is a
    real. -/
theorem real_of_finite [Cert.Pre_finite_inputs.Facts] (a0 : FVec Ideal S20000x512 .f32) (a1 : FVec Ideal S512x256 .f32) (a2 : FVec Ideal S256 .f32) (a3 : FVec Ideal S256 .f32) (a4 : FVec Ideal S256 .f32) (a5 : FVec Ideal S256x256 .f32) (a6 : FVec Ideal S256 .f32) (a7 : FVec Ideal S256x128 .f32) (a8 : FVec Ideal S128 .f32) (a9 : FVec Ideal S128x4 .f32) (a10 : FVec Ideal S4 .f32) (a11 : FVec Ideal S256x128 .f32) (a12 : FVec Ideal S128 .f32) (a13 : FVec Ideal S128x2 .f32) (a14 : FVec Ideal S2 .f32) (a15 : FVec Ideal S256x128 .f32) (a16 : FVec Ideal S128 .f32) (a17 : FVec Ideal S128x1 .f32) (a18 : FVec Ideal S1 .f32) (a19 : FVec Ideal S263x128 .f32) (a20 : FVec Ideal S128 .f32) (a21 : FVec Ideal S128x1 .f32) (a22 : FVec Ideal S1 .f32)
    (h : Cert.Pre_finite_inputs.fn (F := Ideal) a0 a1 a2 a3 a4 a5 a6 a7 a8 a9 a10 a11 a12 a13 a14 a15 a16 a17 a18 a19 a20 a21 a22 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [fn, fn_part1, fn_part2, fn_part3, fn_part4, fn_part5, fn_part6] at e
  -- the 23 tests are joined by 22 `and`s nested to the left: drop the last twenty
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  replace e := andi_left _ _ _ e
  have e2 := andi_right _ _ _ e
  have e01 := andi_left _ _ _ e
  have e1 := andi_right _ _ _ e01
  have e0 := andi_left _ _ _ e01
  exact ⟨all_real a0 _ _ _ _ e0, all_real a1 _ _ _ _ e1, all_real a2 _ _ _ _ e2⟩

end Cert.DetHead

end
-- ==== Proof.FinTrunk.lean ====
/-
  The consequence of the precondition in the terms of the row-by-row statement: every row of the feature array is a
  row of reals, the first weight matrix and the first shift are real, and therefore, on every row, the trunk built
  with the first way of writing the normalisation is the trunk built with the second.
-/
import proofs.«169133_g884763263511_cont_9to1_m_545_24_alg».proof.Proof.Spec
import proofs.«169133_g884763263511_cont_9to1_m_545_24_alg».proof.Proof.FinNormAgree
import proofs.«169133_g884763263511_cont_9to1_m_545_24_alg».proof.Proof.FinInputs

noncomputable section

namespace Cert.DetHead

open Idealize.ShloMosaic Cert.Pre_finite_inputs

/-- Under the precondition: every entry of every feature row, of the first weight matrix read as (row, column) and of
    the first shift read by position is a real. -/
theorem rows_real_of_finite [Cert.Pre_finite_inputs.Facts] (a0 : FVec Ideal S20000x512 .f32) (a1 : FVec Ideal S512x256 .f32) (a2 : FVec Ideal S256 .f32) (a3 : FVec Ideal S256 .f32) (a4 : FVec Ideal S256 .f32) (a5 : FVec Ideal S256x256 .f32) (a6 : FVec Ideal S256 .f32) (a7 : FVec Ideal S256x128 .f32) (a8 : FVec Ideal S128 .f32) (a9 : FVec Ideal S128x4 .f32) (a10 : FVec Ideal S4 .f32) (a11 : FVec Ideal S256x128 .f32) (a12 : FVec Ideal S128 .f32) (a13 : FVec Ideal S128x2 .f32) (a14 : FVec Ideal S2 .f32) (a15 : FVec Ideal S256x128 .f32) (a16 : FVec Ideal S128 .f32) (a17 : FVec Ideal S128x1 .f32) (a18 : FVec Ideal S1 .f32) (a19 : FVec Ideal S263x128 .f32) (a20 : FVec Ideal S128 .f32) (a21 : FVec Ideal S128x1 .f32) (a22 : FVec Ideal S1 .f32)
    (h : Cert.Pre_finite_inputs.fn (F := Ideal) a0 a1 a2 a3 a4 a5 a6 a7 a8 a9 a10 a11 a12 a13 a14 a15 a16 a17 a18 a19 a20 a21 a22 = fun _ => 1#1) :
    (∀ (r : Fin 20000) (k : Fin 512), ∃ x : ℝ, rowOf a0 r k = (x : EReal))
      ∧ (∀ (k : Fin 512) (q : Fin 256), ∃ x : ℝ, mat a1 k q = (x : EReal))
      ∧ (∀ q : Fin 256, ∃ x : ℝ, vec a2 q = (x : EReal)) := by
  obtain ⟨h0, h1, h2⟩ := real_of_finite a0 a1 a2 a3 a4 a5 a6 a7 a8 a9 a10 a11 a12 a13 a14 a15 a16 a17 a18 a19 a20 a21 a22 h
  exact ⟨fun r k => h0 (ValueIdx.ix2 r k), fun k q => h1 (ValueIdx.ix2 k q), fun q => h2 (ValueIdx.ix1 q)⟩

/-- Under the precondition the two trunks agree on every feature row. -/
theorem trunk_agree_of_finite [Cert.Pre_finite_inputs.Facts] (a0 : FVec Ideal S20000x512 .f32) (a1 : FVec Ideal S512x256 .f32) (a2 : FVec Ideal S256 .f32) (a3 : FVec Ideal S256 .f32) (a4 : FVec Ideal S256 .f32) (a5 : FVec Ideal S256x256 .f32) (a6 : FVec Ideal S256 .f32) (a7 : FVec Ideal S256x128 .f32) (a8 : FVec Ideal S128 .f32) (a9 : FVec Ideal S128x4 .f32) (a10 : FVec Ideal S4 .f32) (a11 : FVec Ideal S256x128 .f32) (a12 : FVec Ideal S128 .f32) (a13 : FVec Ideal S128x2 .f32) (a14 : FVec Ideal S2 .f32) (a15 : FVec Ideal S256x128 .f32) (a16 : FVec Ideal S128 .f32) (a17 : FVec Ideal S128x1 .f32) (a18 : FVec Ideal S1 .f32) (a19 : FVec Ideal S263x128 .f32) (a20 : FVec Ideal S128 .f32) (a21 : FVec Ideal S128x1 .f32) (a22 : FVec Ideal S1 .f32)
    (h : Cert.Pre_finite_inputs.fn (F := Ideal) a0 a1 a2 a3 a4 a5 a6 a7 a8 a9 a10 a11 a12 a13 a14 a15 a16 a17 a18 a19 a20 a21 a22 = fun _ => 1#1) (r : Fin 20000) :
    trunk normK (paramsOf a1 a2 a3 a4 a5 a6 a7 a8 a9 a10 a11 a12 a13 a14 a15 a16 a17 a18 a19 a20 a21 a22) (rowOf a0 r)
      = trunk normR (paramsOf a1 a2 a3 a4 a5 a6 a7 a8 a9 a10 a11 a12 a13 a14 a15 a16 a17 a18 a19 a20 a21 a22) (rowOf a0 r) := by
  obtain ⟨h0, h1, h2⟩ := rows_real_of_finite a0 a1 a2 a3 a4 a5 a6 a7 a8 a9 a10 a11 a12 a13 a14 a15 a16 a17 a18 a19 a20 a21 a22 h
  unfold trunk
  rw [normK_eq_normR _ _ _ (first_real _ _ (h0 r) h1 h2)]

end Cert.DetHead

end
-- ==== Proof.FinOutputs.lean ====
/-
  Under the precondition, on every feature row, everything the head computes from the trunk is the same whichever
  way the normalisation is written: the box coordinates, the scales, the context score, and the confidence — the
  last also across the two ways of writing its hidden layer, which agree on every extended real.

  Each of these reads the normalisation only through the trunk, and the two trunks agree on every row.
-/
import proofs.«169133_g884763263511_cont_9to1_m_545_24_alg».proof.Proof.Spec
import proofs.«169133_g884763263511_cont_9to1_m_545_24_alg».proof.Proof.FinTrunk

noncomputable section

namespace Cert.DetHead

open Idealize.ShloMosaic Cert.Pre_finite_inputs

namespace FinOutputs

/-- If two normalisations give the same trunk on a row, they give the same box coordinates, scales, context score
    and joined hidden layer on it. -/
theorem of_trunk_eq (N N' : Norm) (P : Params) (f : Fin 512 → EReal) (ht : trunk N P f = trunk N' P f) :
    boxes N P f = boxes N' P f ∧ scales N P f = scales N' P f ∧ ctx N P f = ctx N' P f
      ∧ hiddenJoin N P f = hiddenJoin N' P f := by
  have hb : boxes N P f = boxes N' P f := by unfold boxes; rw [ht]
  have hs : scales N P f = scales N' P f := by unfold scales; rw [ht]
  have hc : ctx N P f = ctx N' P f := by unfold ctx; rw [ht]
  have hcomb : combined N P f = combined N' P f := by unfold combined; rw [hb, hs, hc]
  have hj : joined N P f = joined N' P f := by unfold joined; rw [ht, hcomb]
  exact ⟨hb, hs, hc, by unfold hiddenJoin; rw [hj]⟩

end FinOutputs

/-- Under the precondition the head's outputs on every feature row do not depend on the way the normalisation, or
    the confidence's hidden layer, is written. -/
theorem outputs_agree_of_finite [Cert.Pre_finite_inputs.Facts] (a0 : FVec Ideal S20000x512 .f32) (a1 : FVec Ideal S512x256 .f32) (a2 : FVec Ideal S256 .f32) (a3 : FVec Ideal S256 .f32) (a4 : FVec Ideal S256 .f32) (a5 : FVec Ideal S256x256 .f32) (a6 : FVec Ideal S256 .f32) (a7 : FVec Ideal S256x128 .f32) (a8 : FVec Ideal S128 .f32) (a9 : FVec Ideal S128x4 .f32) (a10 : FVec Ideal S4 .f32) (a11 : FVec Ideal S256x128 .f32) (a12 : FVec Ideal S128 .f32) (a13 : FVec Ideal S128x2 .f32) (a14 : FVec Ideal S2 .f32) (a15 : FVec Ideal S256x128 .f32) (a16 : FVec Ideal S128 .f32) (a17 : FVec Ideal S128x1 .f32) (a18 : FVec Ideal S1 .f32) (a19 : FVec Ideal S263x128 .f32) (a20 : FVec Ideal S128 .f32) (a21 : FVec Ideal S128x1 .f32) (a22 : FVec Ideal S1 .f32)
    (h : Cert.Pre_finite_inputs.fn (F := Ideal) a0 a1 a2 a3 a4 a5 a6 a7 a8 a9 a10 a11 a12 a13 a14 a15 a16 a17 a18 a19 a20 a21 a22 = fun _ => 1#1) (r : Fin 20000) :
    boxes normK (paramsOf a1 a2 a3 a4 a5 a6 a7 a8 a9 a10 a11 a12 a13 a14 a15 a16 a17 a18 a19 a20 a21 a22) (rowOf a0 r) = boxes normR (paramsOf a1 a2 a3 a4 a5 a6 a7 a8 a9 a10 a11 a12 a13 a14 a15 a16 a17 a18 a19 a20 a21 a22) (rowOf a0 r)
      ∧ scales normK (paramsOf a1 a2 a3 a4 a5 a6 a7 a8 a9 a10 a11 a12 a13 a14 a15 a16 a17 a18 a19 a20 a21 a22) (rowOf a0 r) = scales normR (paramsOf a1 a2 a3 a4 a5 a6 a7 a8 a9 a10 a11 a12 a13 a14 a15 a16 a17 a18 a19 a20 a21 a22) (rowOf a0 r)
      ∧ ctx normK (paramsOf a1 a2 a3 a4 a5 a6 a7 a8 a9 a10 a11 a12 a13 a14 a15 a16 a17 a18 a19 a20 a21 a22) (rowOf a0 r) = ctx normR (paramsOf a1 a2 a3 a4 a5 a6 a7 a8 a9 a10 a11 a12 a13 a14 a15 a16 a17 a18 a19 a20 a21 a22) (rowOf a0 r)
      ∧ conf (paramsOf a1 a2 a3 a4 a5 a6 a7 a8 a9 a10 a11 a12 a13 a14 a15 a16 a17 a18 a19 a20 a21 a22) (hiddenSplit normK (paramsOf a1 a2 a3 a4 a5 a6 a7 a8 a9 a10 a11 a12 a13 a14 a15 a16 a17 a18 a19 a20 a21 a22) (rowOf a0 r))
          = conf (paramsOf a1 a2 a3 a4 a5 a6 a7 a8 a9 a10 a11 a12 a13 a14 a15 a16 a17 a18 a19 a20 a21 a22) (hiddenJoin normR (paramsOf a1 a2 a3 a4 a5 a6 a7 a8 a9 a10 a11 a12 a13 a14 a15 a16 a17 a18 a19 a20 a21 a22) (rowOf a0 r)) := by
  obtain ⟨hb, hs, hc, hj⟩ := FinOutputs.of_trunk_eq normK normR _ _ (trunk_agree_of_finite a0 a1 a2 a3 a4 a5 a6 a7 a8 a9 a10 a11 a12 a13 a14 a15 a16 a17 a18 a19 a20 a21 a22 h r)
  exact ⟨hb, hs, hc, by rw [hiddenSplit_eq_hiddenJoin, hj]⟩

end Cert.DetHead

end
-- ==== Proof.lean ====
/-
  The certificate of a fused detection head against its plain reference.

  Both programs compute, for each of 20000 feature rows, the same network: an affine map, a normalisation over 256
  channels with gain, shift and clamp, a second affine map (the trunk), three small heads with a logistic each, and
  a confidence read from the trunk joined with the seven head outputs (Proof/Spec.lean writes it one row at a time).
  They differ in three ways. The kernel works on blocks of 4000 rows in two halves of 2000 and stores each half of
  each output; the reference works on all rows at once. The kernel normalises with the variance as the mean of the
  squares less the squared mean and multiplies by a reciprocal square root; the reference takes the mean squared
  deviation and divides by a square root. The kernel sums the confidence's hidden layer over the trunk's 256 entries
  and over the seven head outputs separately; the reference sums once over the 263 joined entries.

  The first difference is a matter of reading the kernel's blocks back as rows of the arrays; the third is that a
  finite sum may be cut in two; the second is an identity of real numbers — the two variances are the same number
  v ≥ 0, and with ε > 0 a product with (v + ε)^(-1/2) is a quotient by (v + ε)^(1/2) — which needs every entry of the
  first layer's output to be a real, and that is where the precondition (every input finite) is used: features, the
  first weight matrix and the first bias are real, so the first layer's output is.

  The three frames are the generated frame runs (the reference's is its run with the results dropped); nothing was
  rewritten by the idealisation, so its conjunct is trivial; the algebraic conjunct names the four result arrays as
  Spec's functions of the arguments and shows both runs end there.
-/
import proofs.«169133_g884763263511_cont_9to1_m_545_24_alg».proof.Defs
import proofs.«169133_g884763263511_cont_9to1_m_545_24_alg».proof.Proof.Gen.Kernel
import proofs.«169133_g884763263511_cont_9to1_m_545_24_alg».proof.Proof.Gen.Kernel.Skeleton
import proofs.«169133_g884763263511_cont_9to1_m_545_24_alg».proof.Proof.Gen.Kernel.Launch
import proofs.«169133_g884763263511_cont_9to1_m_545_24_alg».proof.Proof.Gen.Kernel.Points
import proofs.«169133_g884763263511_cont_9to1_m_545_24_alg».proof.Proof.Gen.Kernel.Frame
import proofs.«169133_g884763263511_cont_9to1_m_545_24_alg».proof.Proof.Gen.KernelIdeal
import proofs.«169133_g884763263511_cont_9to1_m_545_24_alg».proof.Proof.Gen.KernelIdeal.Skeleton
import proofs.«169133_g884763263511_cont_9to1_m_545_24_alg».proof.Proof.Gen.KernelIdeal.Launch
import proofs.«169133_g884763263511_cont_9to1_m_545_24_alg».proof.Proof.Gen.KernelIdeal.Points
import proofs.«169133_g884763263511_cont_9to1_m_545_24_alg».proof.Proof.Gen.KernelIdeal.Frame
import proofs.«169133_g884763263511_cont_9to1_m_545_24_alg».proof.Proof.Gen.KernelIdeal.Value
import proofs.«169133_g884763263511_cont_9to1_m_545_24_alg».proof.Proof.Gen.ReferenceIdeal
import proofs.«169133_g884763263511_cont_9to1_m_545_24_alg».proof.Proof.Gen.Pre_finite_inputs
import proofs.«169133_g884763263511_cont_9to1_m_545_24_alg».proof.Proof.KOut23
import proofs.«169133_g884763263511_cont_9to1_m_545_24_alg».proof.Proof.KOut24
import proofs.«169133_g884763263511_cont_9to1_m_545_24_alg».proof.Proof.KOut25
import proofs.«169133_g884763263511_cont_9to1_m_545_24_alg».proof.Proof.KOut26
import proofs.«169133_g884763263511_cont_9to1_m_545_24_alg».proof.Proof.KBlkRun
import proofs.«169133_g884763263511_cont_9to1_m_545_24_alg».proof.Proof.Ref
import proofs.«169133_g884763263511_cont_9to1_m_545_24_alg».proof.Proof.FinOutputs
import Idealize.ShloMosaic.Adequacy
import Idealize.ShloMosaic.Init

noncomputable section

namespace Cert.Proof

open Idealize.ShloMosaic Idealize.SL.Sem Idealize.ShloMosaic.ValueIdx Cert.DetHead

/-- Two arrays with two axes that agree at every (row, column) are equal. -/
theorem arr2_ext {n M : Nat} (A B : Arr2 n M) (h : ∀ (i : Fin n) (q : Fin M), A (ix2 i q) = B (ix2 i q)) : A = B :=
  funext fun j => by rw [eq_ix2 j]; exact h _ _

theorem frame_k : Cert.frame_Kernel := fun m ρ _ => Cert.Kernel.Gen.frame m ρ

theorem frame_ki : Cert.frame_KernelIdeal := fun m ρ _ => Cert.KernelIdeal.Gen.frame m ρ

/-- The reference's frame is its run with the four results dropped. -/
theorem frame_ri : Cert.frame_ReferenceIdeal := fun m ρ _ =>
  (θ_run Cert.ReferenceIdeal.defs _ _).mono (fun _ h c => (h c).2.2.2.2) (Cert.DetHead.Ref.run m ρ)

/-- The idealisation rewrote nothing. -/
theorem preserves : Cert.preserves_Kernel_KernelIdeal := trivial

/-- Both runs end with the four result arrays at Spec's boxes, scales, context score and confidence of each feature
    row (written with the kernel's normalisation and two-sum hidden layer): the kernel's run by reading its blocks
    back, the reference's run by its own reading and the agreement of the two forms on finite inputs. -/
theorem algebraic : Cert.algebraic_KernelIdeal_ReferenceIdeal := by
  intro m ρ m' ρ' hpre hagree
  refine ⟨fun c => (fun j : Cert.KernelIdeal.S20000x4.Idx => boxes normK (paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) (rowOf (m ((c.tc : Thread Cert.KernelIdeal.nD Cert.KernelIdeal.τ).loc Cert.KernelIdeal.main_arg0)) (j 0)) (j 1)),
    fun c => (fun j : Cert.KernelIdeal.S20000x2.Idx => scales normK (paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) (rowOf (m ((c.tc : Thread Cert.KernelIdeal.nD Cert.KernelIdeal.τ).loc Cert.KernelIdeal.main_arg0)) (j 0)) (j 1)),
    fun c => (fun j : Cert.KernelIdeal.S20000x1.Idx => ctx normK (paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) (rowOf (m ((c.tc : Thread Cert.KernelIdeal.nD Cert.KernelIdeal.τ).loc Cert.KernelIdeal.main_arg0)) (j 0)) (j 1)),
    fun c => (fun j : Cert.KernelIdeal.S20000x1.Idx => conf (paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) (hiddenSplit normK (paramsOf (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) (rowOf (m ((c.tc : Thread Cert.KernelIdeal.nD Cert.KernelIdeal.τ).loc Cert.KernelIdeal.main_arg0)) (j 0))) (j 1)),
    ?_, ?_⟩
  · refine (θ_run Cert.KernelIdeal.defs _ _).mono (fun r h c => ?_)
      (Cert.DetHead.KBlk.run Cert.DetHead.K.boxesBlock Cert.DetHead.K.scalesBlock Cert.DetHead.K.ctxBlock Cert.DetHead.K.confBlock m ρ)
    obtain ⟨h0, h1, h2, h3, hargs⟩ := h c
    exact ⟨arr2_ext _ _ h0, arr2_ext _ _ h1, arr2_ext _ _ h2, arr2_ext _ _ h3, hargs⟩
  · refine (θ_run Cert.ReferenceIdeal.defs _ _).mono (fun r h c => ?_) (Cert.DetHead.Ref.run m' ρ')
    obtain ⟨h0, h1, h2, h3, hargs⟩ := h c
    obtain ⟨e0, e1, e2, e3, e4, e5, e6, e7, e8, e9, e10, e11, e12, e13, e14, e15, e16, e17, e18, e19, e20, e21, e22⟩ := hagree c
    have hfin := fun i : Fin 20000 => Cert.DetHead.outputs_agree_of_finite (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (hpre c) i
    refine ⟨arr2_ext _ _ fun i q => ?_, arr2_ext _ _ fun i q => ?_, arr2_ext _ _ fun i q => ?_, arr2_ext _ _ fun i q => ?_, hargs⟩
    · rw [h0 i q]
      simp only [e0, e1, e2, e3, e4, e5, e6, e7, e8, e9, e10, e11, e12, e13, e14, e15, e16, e17, e18, e19, e20, e21, e22]
      exact (congrFun (hfin i).1 q).symm
    · rw [h1 i q]
      simp only [e0, e1, e2, e3, e4, e5, e6, e7, e8, e9, e10, e11, e12, e13, e14, e15, e16, e17, e18, e19, e20, e21, e22]
      exact (congrFun (hfin i).2.1 q).symm
    · rw [h2 i q]
      simp only [e0, e1, e2, e3, e4, e5, e6, e7, e8, e9, e10, e11, e12, e13, e14, e15, e16, e17, e18, e19, e20, e21, e22]
      exact (congrFun (hfin i).2.2.1 q).symm
    · rw [h3 i q]
      simp only [e0, e1, e2, e3, e4, e5, e6, e7, e8, e9, e10, e11, e12, e13, e14, e15, e16, e17, e18, e19, e20, e21, e22]
      exact (congrFun (hfin i).2.2.2 q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
